-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S3x128x128 : Shape := ⟨3, ![3, 128, 128]⟩
abbrev S3x128 : Shape := ⟨2, ![3, 128]⟩
abbrev S128x10 : Shape := ⟨2, ![128, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg8 : FVec F S10 .f32) (main_v33 : IVec S_ 1) : IVec S_ 1 :=
  let main_v34 : FVec F S10 .f32 := Host.absf main_arg8
  let main_cst_12 : FVec F S_ .f32 := constant S_ .f32 0x7F800000#32
  let main_v35 : FVec F S10 .f32 := broadcastInDim S10 ![] bcast_S_S10 main_cst_12
  let main_v36 : IVec S10 1 := cmpf .olt main_v34 main_v35
  let main_c_13 : IVec S_ 1 := constantI S_ 1 1#1
  let main_v37 : IVec S_ 1 := (fun x v => Host.reduce IntOp.andi x v reducesTo_S10_S_d0 h_S_) main_v36 main_c_13
  let main_v38 : IVec S_ 1 := andi main_v33 main_v37
  main_v38

def fn_part1 {F : FTy → Type} [FloatOps F] (main_arg5 : FVec F S3x128x128 .f32) (main_arg6 : FVec F S3x128 .f32) (main_arg7 : FVec F S128x10 .f32) (main_arg8 : FVec F S10 .f32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_v19 : FVec F S3x128x128 .f32 := Host.absf main_arg5
  let main_cst_6 : FVec F S_ .f32 := constant S_ .f32 0x7F800000#32
  let main_v20 : FVec F S3x128x128 .f32 := broadcastInDim S3x128x128 ![] bcast_S_S3x128x128 main_cst_6
  let main_v21 : IVec S3x128x128 1 := cmpf .olt main_v19 main_v20
  let main_c_7 : IVec S_ 1 := constantI S_ 1 1#1
  let main_v22 : IVec S_ 1 := (fun x v => Host.reduce IntOp.andi x v reducesTo_S3x128x128_S_d0_1_2 h_S_) main_v21 main_c_7
  let main_v23 : IVec S_ 1 := andi main_v18 main_v22
  let main_v24 : FVec F S3x128 .f32 := Host.absf main_arg6
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S128x10 .f32 := Host.absf main_arg7
  let main_cst_10 : FVec F S_ .f32 := constant S_ .f32 0x7F800000#32
  let main_v30 : FVec F S128x10 .f32 := broadcastInDim S128x10 ![] bcast_S_S128x10 main_cst_10
  let main_v31 : IVec S128x10 1 := cmpf .olt main_v29 main_v30
  let main_c_11 : IVec S_ 1 := constantI S_ 1 1#1
  let main_v32 : IVec S_ 1 := (fun x v => Host.reduce IntOp.andi x v reducesTo_S128x10_S_d0_1 h_S_) main_v31 main_c_11
  let main_v33 : IVec S_ 1 := andi main_v28 main_v32
  fn_part2 (F := F) main_arg8 main_v33

def fn {F : FTy → Type} [FloatOps F] (main_arg0 : FVec F S100000x128 .f32) (main_arg1 : IVec S2x1600000 32) (main_arg2 : FVec F S1600000 .f32) (main_arg3 : FVec F S3x128x128 .f32) (main_arg4 : FVec F S3x128 .f32) (main_arg5 : FVec F S3x128x128 .f32) (main_arg6 : FVec F S3x128 .f32) (main_arg7 : FVec F S128x10 .f32) (main_arg8 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S3x128x128 .f32 := Host.absf main_arg3
  let main_cst_2 : FVec F S_ .f32 := constant S_ .f32 0x7F800000#32
  let main_v10 : FVec F S3x128x128 .f32 := broadcastInDim S3x128x128 ![] bcast_S_S3x128x128 main_cst_2
  let main_v11 : IVec S3x128x128 1 := cmpf .olt main_v9 main_v10
  let main_c_3 : IVec S_ 1 := constantI S_ 1 1#1
  let main_v12 : IVec S_ 1 := (fun x v => Host.reduce IntOp.andi x v reducesTo_S3x128x128_S_d0_1_2 h_S_) main_v11 main_c_3
  let main_v13 : IVec S_ 1 := andi main_v8 main_v12
  let main_v14 : FVec F S3x128 .f32 := Host.absf main_arg4
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg5 main_arg6 main_arg7 main_arg8 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S3x128x128 : Shape := ⟨3, ![3, 128, 128]⟩
abbrev S3x128 : Shape := ⟨2, ![3, 128]⟩
abbrev S128x10 : Shape := ⟨2, ![128, 10]⟩
abbrev S10 : Shape := ⟨1, ![10]⟩
abbrev S1x1600000 : Shape := ⟨2, ![1, 1600000]⟩
abbrev S_ : Shape := ⟨0, ![]⟩
abbrev S1600000x1 : Shape := ⟨2, ![1600000, 1]⟩
abbrev S1600000x128 : Shape := ⟨2, ![1600000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S4000x128 : Shape := ⟨2, ![4000, 128]⟩
abbrev S1x10 : Shape := ⟨2, ![1, 10]⟩
abbrev S100000x10 : Shape := ⟨2, ![100000, 10]⟩
abbrev S4000x10 : Shape := ⟨2, ![4000, 10]⟩

abbrev nBuf : Space → Nat
  | .hbm => 87
  | .vmem => 36
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S3x128x128, .f32⟩
  | .hbm, ⟨4, _⟩ => ⟨S3x128, .f32⟩
  | .hbm, ⟨5, _⟩ => ⟨S3x128x128, .f32⟩
  | .hbm, ⟨6, _⟩ => ⟨S3x128, .f32⟩
  | .hbm, ⟨7, _⟩ => ⟨S128x10, .f32⟩
  | .hbm, ⟨8, _⟩ => ⟨S10, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x128, .f32⟩
  | .hbm, ⟨22, _⟩ => ⟨S_, .f32⟩
  | .hbm, ⟨23, _⟩ => ⟨S100000x128, .f32⟩
  | .hbm, ⟨24, _⟩ => ⟨S1600000x1, .i32⟩
  | .hbm, ⟨25, _⟩ => ⟨S100000x128, .f32⟩
  | .hbm, ⟨26, _⟩ => ⟨S1x128x128, .f32⟩
  | .hbm, ⟨27, _⟩ => ⟨S128x128, .f32⟩
  | .hbm, ⟨28, _⟩ => ⟨S1x128, .f32⟩
  | .hbm, ⟨29, _⟩ => ⟨S128, .f32⟩
  | .hbm, ⟨30, _⟩ => ⟨S1x128x128, .f32⟩
  | .hbm, ⟨31, _⟩ => ⟨S128x128, .f32⟩
  | .hbm, ⟨32, _⟩ => ⟨S1x128, .f32⟩
  | .hbm, ⟨33, _⟩ => ⟨S128, .f32⟩
  | .hbm, ⟨34, _⟩ => ⟨S1x128, .f32⟩
  | .hbm, ⟨35, _⟩ => ⟨S1x128, .f32⟩
  | .hbm, ⟨36, _⟩ => ⟨S100000x128, .f32⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000x128, .f32⟩
  | .hbm, ⟨46, _⟩ => ⟨S_, .f32⟩
  | .hbm, ⟨47, _⟩ => ⟨S100000x128, .f32⟩
  | .hbm, ⟨48, _⟩ => ⟨S1600000x1, .i32⟩
  | .hbm, ⟨49, _⟩ => ⟨S100000x128, .f32⟩
  | .hbm, ⟨50, _⟩ => ⟨S1x128x128, .f32⟩
  | .hbm, ⟨51, _⟩ => ⟨S128x128, .f32⟩
  | .hbm, ⟨52, _⟩ => ⟨S1x128, .f32⟩
  | .hbm, ⟨53, _⟩ => ⟨S128, .f32⟩
  | .hbm, ⟨54, _⟩ => ⟨S1x128x128, .f32⟩
  | .hbm, ⟨55, _⟩ => ⟨S128x128, .f32⟩
  | .hbm, ⟨56, _⟩ => ⟨S1x128, .f32⟩
  | .hbm, ⟨57, _⟩ => ⟨S128, .f32⟩
  | .hbm, ⟨58, _⟩ => ⟨S1x128, .f32⟩
  | .hbm, ⟨59, _⟩ => ⟨S1x128, .f32⟩
  | .hbm, ⟨60, _⟩ => ⟨S100000x128, .f32⟩
  | .hbm, ⟨61, _⟩ => ⟨S_, .i32⟩
  | .hbm, ⟨62, _⟩ => ⟨S1600000, .i32⟩
  | .hbm, ⟨63, _⟩ => ⟨S1600000, .i1⟩
  | .hbm, ⟨64, _⟩ => ⟨S_, .i32⟩
  | .hbm, ⟨65, _⟩ => ⟨S1600000, .i32⟩
  | .hbm, ⟨66, _⟩ => ⟨S1600000, .i32⟩
  | .hbm, ⟨67, _⟩ => ⟨S1600000, .i32⟩
  | .hbm, ⟨68, _⟩ => ⟨S1600000x1, .i32⟩
  | .hbm, ⟨69, _⟩ => ⟨S1600000x128, .f32⟩
  | .hbm, ⟨70, _⟩ => ⟨S_, .f32⟩
  | .hbm, ⟨71, _⟩ => ⟨S100000x128, .f32⟩
  | .hbm, ⟨72, _⟩ => ⟨S1600000x1, .i32⟩
  | .hbm, ⟨73, _⟩ => ⟨S100000x128, .f32⟩
  | .hbm, ⟨74, _⟩ => ⟨S1x128x128, .f32⟩
  | .hbm, ⟨75, _⟩ => ⟨S128x128, .f32⟩
  | .hbm, ⟨76, _⟩ => ⟨S1x128, .f32⟩
  | .hbm, ⟨77, _⟩ => ⟨S128, .f32⟩
  | .hbm, ⟨78, _⟩ => ⟨S1x128x128, .f32⟩
  | .hbm, ⟨79, _⟩ => ⟨S128x128, .f32⟩
  | .hbm, ⟨80, _⟩ => ⟨S1x128, .f32⟩
  | .hbm, ⟨81, _⟩ => ⟨S128, .f32⟩
  | .hbm, ⟨82, _⟩ => ⟨S1x128, .f32⟩
  | .hbm, ⟨83, _⟩ => ⟨S1x128, .f32⟩
  | .hbm, ⟨84, _⟩ => ⟨S100000x128, .f32⟩
  | .hbm, ⟨85, _⟩ => ⟨S1x10, .f32⟩
  | .hbm, ⟨86, _⟩ => ⟨S100000x10, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S4000x128, .f32⟩
  | .local _ .vmem, ⟨14, _⟩ => ⟨S128x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S4000x128, .f32⟩
  | .local _ .vmem, ⟨19, _⟩ => ⟨S4000x128, .f32⟩
  | .local _ .vmem, ⟨20, _⟩ => ⟨S4000x128, .f32⟩
  | .local _ .vmem, ⟨21, _⟩ => ⟨S4000x128, .f32⟩
  | .local _ .vmem, ⟨22, _⟩ => ⟨S4000x128, .f32⟩
  | .local _ .vmem, ⟨23, _⟩ => ⟨S4000x128, .f32⟩
  | .local _ .vmem, ⟨24, _⟩ => ⟨S128x128, .f32⟩
  | .local _ .vmem, ⟨25, _⟩ => ⟨S1x128, .f32⟩
  | .local _ .vmem, ⟨26, _⟩ => ⟨S128x128, .f32⟩
  | .local _ .vmem, ⟨27, _⟩ => ⟨S1x128, .f32⟩
  | .local _ .vmem, ⟨28, _⟩ => ⟨S4000x128, .f32⟩
  | .local _ .vmem, ⟨29, _⟩ => ⟨S4000x128, .f32⟩
  | .local _ .vmem, ⟨30, _⟩ => ⟨S4000x128, .f32⟩
  | .local _ .vmem, ⟨31, _⟩ => ⟨S4000x128, .f32⟩
  | .local _ .vmem, ⟨32, _⟩ => ⟨S128x10, .f32⟩
  | .local _ .vmem, ⟨33, _⟩ => ⟨S1x10, .f32⟩
  | .local _ .vmem, ⟨34, _⟩ => ⟨S4000x10, .f32⟩
  | .local _ .vmem, ⟨35, _⟩ => ⟨S4000x10, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_1 : Ref sig .tc := ⟨.hbm, 37, rfl⟩
abbrev main_v25 : Ref sig .tc := ⟨.hbm, 38, rfl⟩
abbrev main_v26 : Ref sig .tc := ⟨.hbm, 39, rfl⟩
abbrev main_c_2 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_3 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_c_4 : Ref sig .tc := ⟨.hbm, 61, rfl⟩
abbrev main_v46 : Ref sig .tc := ⟨.hbm, 62, rfl⟩
abbrev main_v47 : Ref sig .tc := ⟨.hbm, 63, rfl⟩
abbrev main_c_5 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_6 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg3_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem3_0 : DmaSem sig := 34
abbrev cc3_sem3_1 : DmaSem sig := 35

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S4000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x10 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x10 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S4000x10 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bitsLt_bf16_f32 : FTy.bits .bf16 < FTy.bits .f32
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  shapeCasts_S10_S1x10 : S10.ShapeCasts S1x10
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S4000x10 : S1x10.Broadcasts S4000x10
  inb_S4000x10_S4000x10_0_0 : ∀ a, (![0, 0] : Fin 2 → Nat) a + S4000x10.size a ≤ S4000x10.size a
  h_S4000x10 : 0 < S4000x10.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  dot_S4000x128_S128x10_S4000x10_1_0_0_1_n_n_wf : DotDims.WF S4000x128 S128x10 S4000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S100000x128.size a
  hwx0_6 : ∀ i : grid0.Coords, EltTy.bits .f32 = 32 ∨ (Rect.block (s := S100000x128) S4000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x128.size a ≤ S100000x128.size a
  hwx1_6 : ∀ i : grid1.Coords, EltTy.bits .f32 = 32 ∨ (Rect.block (s := S100000x128) S4000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S100000x128.size a
  hwx2_1 : ∀ i : grid2.Coords, EltTy.bits .f32 = 32 ∨ (Rect.block (s := S100000x128) S4000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S4000x128.size a ≤ S100000x128.size a
  hwx2_6 : ∀ i : grid2.Coords, EltTy.bits .f32 = 32 ∨ (Rect.block (s := S100000x128) S4000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S100000x128.size a
  hwx3_0 : ∀ i : grid3.Coords, EltTy.bits .f32 = 32 ∨ (Rect.block (s := S100000x128) S4000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x10.size a ≤ S128x10.size a
  hwx3_1 : ∀ i : grid3.Coords, EltTy.bits .f32 = 32 ∨ (Rect.block (s := S128x10) S128x10.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x10.size a ≤ S1x10.size a
  hwx3_2 : ∀ i : grid3.Coords, EltTy.bits .f32 = 32 ∨ (Rect.block (s := S1x10) S1x10.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S4000x10.size a ≤ S100000x10.size a
  hwx3_3 : ∀ i : grid3.Coords, EltTy.bits .f32 = 32 ∨ (Rect.block (s := S100000x10) S4000x10.size (cc3_transform_3 i) (hinb3_3 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x10_S4000x10_1_0_0_1_n_n : DotDims S4000x128 S128x10 S4000x10 where
  lhsContracting := [1]
  rhsContracting := [0]
  lhsNonContracting := [0]
  rhsNonContracting := [1]
  lhsBatch := []
  rhsBatch := []
  wf := dot_S4000x128_S128x10_S4000x10_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S4000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v24) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v36) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v45) S4000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v45) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v55) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v57) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v64) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v61) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v65) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v66) S4000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v66) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S128x10.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v67) S1x10.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v68) S4000x10.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S3x128x128 : Shape := ⟨3, ![3, 128, 128]⟩
abbrev S3x128 : Shape := ⟨2, ![3, 128]⟩
abbrev S128x10 : Shape := ⟨2, ![128, 10]⟩
abbrev S10 : Shape := ⟨1, ![10]⟩
abbrev S1x1600000 : Shape := ⟨2, ![1, 1600000]⟩
abbrev S_ : Shape := ⟨0, ![]⟩
abbrev S1600000x1 : Shape := ⟨2, ![1600000, 1]⟩
abbrev S1600000x128 : Shape := ⟨2, ![1600000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S100000x10 : Shape := ⟨2, ![100000, 10]⟩
abbrev S1x10 : Shape := ⟨2, ![1, 10]⟩

abbrev nBuf : Space → Nat
  | .hbm => 197
  | .vmem => 0
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S3x128x128, .f32⟩
  | 4 => ⟨S3x128, .f32⟩
  | 5 => ⟨S3x128x128, .f32⟩
  | 6 => ⟨S3x128, .f32⟩
  | 7 => ⟨S128x10, .f32⟩
  | 8 => ⟨S10, .f32⟩
  | 9 => ⟨S1x1600000, .i32⟩
  | 10 => ⟨S1600000, .i32⟩
  | 11 => ⟨S1x1600000, .i32⟩
  | 12 => ⟨S1600000, .i32⟩
  | 13 => ⟨S_, .i32⟩
  | 14 => ⟨S1600000, .i32⟩
  | 15 => ⟨S1600000, .i1⟩
  | 16 => ⟨S_, .i32⟩
  | 17 => ⟨S1600000, .i32⟩
  | 18 => ⟨S1600000, .i32⟩
  | 19 => ⟨S1600000, .i32⟩
  | 20 => ⟨S1600000x1, .i32⟩
  | 21 => ⟨S1600000x128, .f32⟩
  | 22 => ⟨S_, .f32⟩
  | 23 => ⟨S100000x128, .f32⟩
  | 24 => ⟨S1600000x1, .i32⟩
  | 25 => ⟨S100000x128, .f32⟩
  | 26 => ⟨S100000x128, .f32⟩
  | 27 => ⟨S1x128x128, .f32⟩
  | 28 => ⟨S128x128, .f32⟩
  | 29 => ⟨S100000x128, .f32⟩
  | 30 => ⟨S1x128, .f32⟩
  | 31 => ⟨S128, .f32⟩
  | 32 => ⟨S1x128, .f32⟩
  | 33 => ⟨S100000x128, .f32⟩
  | 34 => ⟨S100000x128, .f32⟩
  | 35 => ⟨S_, .f32⟩
  | 36 => ⟨S100000x128, .f32⟩
  | 37 => ⟨S100000x128, .i1⟩
  | 38 => ⟨S_, .f32⟩
  | 39 => ⟨S100000x128, .f32⟩
  | 40 => ⟨S100000x128, .i1⟩
  | 41 => ⟨S_, .f32⟩
  | 42 => ⟨S_, .f32⟩
  | 43 => ⟨S100000x128, .f32⟩
  | 44 => ⟨S100000x128, .f32⟩
  | 45 => ⟨S100000x128, .f32⟩
  | 46 => ⟨S_, .f32⟩
  | 47 => ⟨S100000x128, .f32⟩
  | 48 => ⟨S100000x128, .f32⟩
  | 49 => ⟨S100000x128, .f32⟩
  | 50 => ⟨S1x128x128, .f32⟩
  | 51 => ⟨S128x128, .f32⟩
  | 52 => ⟨S100000x128, .f32⟩
  | 53 => ⟨S1x128, .f32⟩
  | 54 => ⟨S128, .f32⟩
  | 55 => ⟨S1x128, .f32⟩
  | 56 => ⟨S100000x128, .f32⟩
  | 57 => ⟨S100000x128, .f32⟩
  | 58 => ⟨S_, .f32⟩
  | 59 => ⟨S100000x128, .f32⟩
  | 60 => ⟨S100000x128, .i1⟩
  | 61 => ⟨S_, .f32⟩
  | 62 => ⟨S100000x128, .f32⟩
  | 63 => ⟨S100000x128, .i1⟩
  | 64 => ⟨S_, .f32⟩
  | 65 => ⟨S_, .f32⟩
  | 66 => ⟨S100000x128, .f32⟩
  | 67 => ⟨S100000x128, .f32⟩
  | 68 => ⟨S100000x128, .f32⟩
  | 69 => ⟨S_, .f32⟩
  | 70 => ⟨S100000x128, .f32⟩
  | 71 => ⟨S100000x128, .f32⟩
  | 72 => ⟨S100000x128, .f32⟩
  | 73 => ⟨S_, .i32⟩
  | 74 => ⟨S1600000, .i32⟩
  | 75 => ⟨S1600000, .i1⟩
  | 76 => ⟨S_, .i32⟩
  | 77 => ⟨S1600000, .i32⟩
  | 78 => ⟨S1600000, .i32⟩
  | 79 => ⟨S1600000, .i32⟩
  | 80 => ⟨S1600000x1, .i32⟩
  | 81 => ⟨S1600000x128, .f32⟩
  | 82 => ⟨S_, .f32⟩
  | 83 => ⟨S100000x128, .f32⟩
  | 84 => ⟨S1600000x1, .i32⟩
  | 85 => ⟨S100000x128, .f32⟩
  | 86 => ⟨S100000x128, .f32⟩
  | 87 => ⟨S1x128x128, .f32⟩
  | 88 => ⟨S128x128, .f32⟩
  | 89 => ⟨S100000x128, .f32⟩
  | 90 => ⟨S1x128, .f32⟩
  | 91 => ⟨S128, .f32⟩
  | 92 => ⟨S1x128, .f32⟩
  | 93 => ⟨S100000x128, .f32⟩
  | 94 => ⟨S100000x128, .f32⟩
  | 95 => ⟨S_, .f32⟩
  | 96 => ⟨S100000x128, .f32⟩
  | 97 => ⟨S100000x128, .i1⟩
  | 98 => ⟨S_, .f32⟩
  | 99 => ⟨S100000x128, .f32⟩
  | 100 => ⟨S100000x128, .i1⟩
  | 101 => ⟨S_, .f32⟩
  | 102 => ⟨S_, .f32⟩
  | 103 => ⟨S100000x128, .f32⟩
  | 104 => ⟨S100000x128, .f32⟩
  | 105 => ⟨S100000x128, .f32⟩
  | 106 => ⟨S_, .f32⟩
  | 107 => ⟨S100000x128, .f32⟩
  | 108 => ⟨S100000x128, .f32⟩
  | 109 => ⟨S100000x128, .f32⟩
  | 110 => ⟨S1x128x128, .f32⟩
  | 111 => ⟨S128x128, .f32⟩
  | 112 => ⟨S100000x128, .f32⟩
  | 113 => ⟨S1x128, .f32⟩
  | 114 => ⟨S128, .f32⟩
  | 115 => ⟨S1x128, .f32⟩
  | 116 => ⟨S100000x128, .f32⟩
  | 117 => ⟨S100000x128, .f32⟩
  | 118 => ⟨S_, .f32⟩
  | 119 => ⟨S100000x128, .f32⟩
  | 120 => ⟨S100000x128, .i1⟩
  | 121 => ⟨S_, .f32⟩
  | 122 => ⟨S100000x128, .f32⟩
  | 123 => ⟨S100000x128, .i1⟩
  | 124 => ⟨S_, .f32⟩
  | 125 => ⟨S_, .f32⟩
  | 126 => ⟨S100000x128, .f32⟩
  | 127 => ⟨S100000x128, .f32⟩
  | _ => ⟨S100000x128, .f32⟩

abbrev hbmTy0_1 (i : Nat) : BufTy := match i % 128 with
  | 0 => ⟨S100000x128, .f32⟩
  | 1 => ⟨S_, .f32⟩
  | 2 => ⟨S100000x128, .f32⟩
  | 3 => ⟨S100000x128, .f32⟩
  | 4 => ⟨S100000x128, .f32⟩
  | 5 => ⟨S_, .i32⟩
  | 6 => ⟨S1600000, .i32⟩
  | 7 => ⟨S1600000, .i1⟩
  | 8 => ⟨S_, .i32⟩
  | 9 => ⟨S1600000, .i32⟩
  | 10 => ⟨S1600000, .i32⟩
  | 11 => ⟨S1600000, .i32⟩
  | 12 => ⟨S1600000x1, .i32⟩
  | 13 => ⟨S1600000x128, .f32⟩
  | 14 => ⟨S_, .f32⟩
  | 15 => ⟨S100000x128, .f32⟩
  | 16 => ⟨S1600000x1, .i32⟩
  | 17 => ⟨S100000x128, .f32⟩
  | 18 => ⟨S100000x128, .f32⟩
  | 19 => ⟨S1x128x128, .f32⟩
  | 20 => ⟨S128x128, .f32⟩
  | 21 => ⟨S100000x128, .f32⟩
  | 22 => ⟨S1x128, .f32⟩
  | 23 => ⟨S128, .f32⟩
  | 24 => ⟨S1x128, .f32⟩
  | 25 => ⟨S100000x128, .f32⟩
  | 26 => ⟨S100000x128, .f32⟩
  | 27 => ⟨S_, .f32⟩
  | 28 => ⟨S100000x128, .f32⟩
  | 29 => ⟨S100000x128, .i1⟩
  | 30 => ⟨S_, .f32⟩
  | 31 => ⟨S100000x128, .f32⟩
  | 32 => ⟨S100000x128, .i1⟩
  | 33 => ⟨S_, .f32⟩
  | 34 => ⟨S_, .f32⟩
  | 35 => ⟨S100000x128, .f32⟩
  | 36 => ⟨S100000x128, .f32⟩
  | 37 => ⟨S100000x128, .f32⟩
  | 38 => ⟨S_, .f32⟩
  | 39 => ⟨S100000x128, .f32⟩
  | 40 => ⟨S100000x128, .f32⟩
  | 41 => ⟨S100000x128, .f32⟩
  | 42 => ⟨S1x128x128, .f32⟩
  | 43 => ⟨S128x128, .f32⟩
  | 44 => ⟨S100000x128, .f32⟩
  | 45 => ⟨S1x128, .f32⟩
  | 46 => ⟨S128, .f32⟩
  | 47 => ⟨S1x128, .f32⟩
  | 48 => ⟨S100000x128, .f32⟩
  | 49 => ⟨S100000x128, .f32⟩
  | 50 => ⟨S_, .f32⟩
  | 51 => ⟨S100000x128, .f32⟩
  | 52 => ⟨S100000x128, .i1⟩
  | 53 => ⟨S_, .f32⟩
  | 54 => ⟨S100000x128, .f32⟩
  | 55 => ⟨S100000x128, .i1⟩
  | 56 => ⟨S_, .f32⟩
  | 57 => ⟨S_, .f32⟩
  | 58 => ⟨S100000x128, .f32⟩
  | 59 => ⟨S100000x128, .f32⟩
  | 60 => ⟨S100000x128, .f32⟩
  | 61 => ⟨S_, .f32⟩
  | 62 => ⟨S100000x128, .f32⟩
  | 63 => ⟨S100000x128, .f32⟩
  | 64 => ⟨S100000x128, .f32⟩
  | 65 => ⟨S100000x10, .f32⟩
  | 66 => ⟨S1x10, .f32⟩
  | 67 => ⟨S100000x10, .f32⟩
  | 68 => ⟨S100000x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_call0_cst : Ref sig .tc := ⟨.hbm, 35, rfl⟩
abbrev main_call0_v0 : Ref sig .tc := ⟨.hbm, 36, rfl⟩
abbrev main_call0_v1 : Ref sig .tc := ⟨.hbm, 37, rfl⟩
abbrev main_call0_cst_0 : Ref sig .tc := ⟨.hbm, 38, rfl⟩
abbrev main_call0_v2 : Ref sig .tc := ⟨.hbm, 39, rfl⟩
abbrev main_call0_v3 : Ref sig .tc := ⟨.hbm, 40, rfl⟩
abbrev main_call0_cst_1 : Ref sig .tc := ⟨.hbm, 41, rfl⟩
abbrev main_call0_call0_v0 : Ref sig .tc := ⟨.hbm, 42, rfl⟩
abbrev main_call0_call0_v1 : Ref sig .tc := ⟨.hbm, 43, rfl⟩
abbrev main_call0_v4 : Ref sig .tc := ⟨.hbm, 44, rfl⟩
abbrev main_call0_v5 : Ref sig .tc := ⟨.hbm, 45, rfl⟩
abbrev main_call0_cst_2 : Ref sig .tc := ⟨.hbm, 46, rfl⟩
abbrev main_call0_v6 : Ref sig .tc := ⟨.hbm, 47, rfl⟩
abbrev main_call0_v7 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_call1_cst : Ref sig .tc := ⟨.hbm, 58, rfl⟩
abbrev main_call1_v0 : Ref sig .tc := ⟨.hbm, 59, rfl⟩
abbrev main_call1_v1 : Ref sig .tc := ⟨.hbm, 60, rfl⟩
abbrev main_call1_cst_0 : Ref sig .tc := ⟨.hbm, 61, rfl⟩
abbrev main_call1_v2 : Ref sig .tc := ⟨.hbm, 62, rfl⟩
abbrev main_call1_v3 : Ref sig .tc := ⟨.hbm, 63, rfl⟩
abbrev main_call1_cst_1 : Ref sig .tc := ⟨.hbm, 64, rfl⟩
abbrev main_call1_call0_v0 : Ref sig .tc := ⟨.hbm, 65, rfl⟩
abbrev main_call1_call0_v1 : Ref sig .tc := ⟨.hbm, 66, rfl⟩
abbrev main_call1_v4 : Ref sig .tc := ⟨.hbm, 67, rfl⟩
abbrev main_call1_v5 : Ref sig .tc := ⟨.hbm, 68, rfl⟩
abbrev main_call1_cst_2 : Ref sig .tc := ⟨.hbm, 69, rfl⟩
abbrev main_call1_v6 : Ref sig .tc := ⟨.hbm, 70, rfl⟩
abbrev main_call1_v7 : Ref sig .tc := ⟨.hbm, 71, rfl⟩
abbrev main_v32 : Ref sig .tc := ⟨.hbm, 72, rfl⟩
abbrev main_c_1 : Ref sig .tc := ⟨.hbm, 73, rfl⟩
abbrev main_v33 : Ref sig .tc := ⟨.hbm, 74, rfl⟩
abbrev main_v34 : Ref sig .tc := ⟨.hbm, 75, rfl⟩
abbrev main_c_2 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_cst_3 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_call2_cst : Ref sig .tc := ⟨.hbm, 95, rfl⟩
abbrev main_call2_v0 : Ref sig .tc := ⟨.hbm, 96, rfl⟩
abbrev main_call2_v1 : Ref sig .tc := ⟨.hbm, 97, rfl⟩
abbrev main_call2_cst_0 : Ref sig .tc := ⟨.hbm, 98, rfl⟩
abbrev main_call2_v2 : Ref sig .tc := ⟨.hbm, 99, rfl⟩
abbrev main_call2_v3 : Ref sig .tc := ⟨.hbm, 100, rfl⟩
abbrev main_call2_cst_1 : Ref sig .tc := ⟨.hbm, 101, rfl⟩
abbrev main_call2_call0_v0 : Ref sig .tc := ⟨.hbm, 102, rfl⟩
abbrev main_call2_call0_v1 : Ref sig .tc := ⟨.hbm, 103, rfl⟩
abbrev main_call2_v4 : Ref sig .tc := ⟨.hbm, 104, rfl⟩
abbrev main_call2_v5 : Ref sig .tc := ⟨.hbm, 105, rfl⟩
abbrev main_call2_cst_2 : Ref sig .tc := ⟨.hbm, 106, rfl⟩
abbrev main_call2_v6 : Ref sig .tc := ⟨.hbm, 107, rfl⟩
abbrev main_call2_v7 : Ref sig .tc := ⟨.hbm, 108, rfl⟩
abbrev main_v52 : Ref sig .tc := ⟨.hbm, 109, rfl⟩
abbrev main_v53 : Ref sig .tc := ⟨.hbm, 110, rfl⟩
abbrev main_v54 : Ref sig .tc := ⟨.hbm, 111, rfl⟩
abbrev main_v55 : Ref sig .tc := ⟨.hbm, 112, rfl⟩
abbrev main_v56 : Ref sig .tc := ⟨.hbm, 113, rfl⟩
abbrev main_v57 : Ref sig .tc := ⟨.hbm, 114, rfl⟩
abbrev main_v58 : Ref sig .tc := ⟨.hbm, 115, rfl⟩
abbrev main_v59 : Ref sig .tc := ⟨.hbm, 116, rfl⟩
abbrev main_v60 : Ref sig .tc := ⟨.hbm, 117, rfl⟩
abbrev main_call3_cst : Ref sig .tc := ⟨.hbm, 118, rfl⟩
abbrev main_call3_v0 : Ref sig .tc := ⟨.hbm, 119, rfl⟩
abbrev main_call3_v1 : Ref sig .tc := ⟨.hbm, 120, rfl⟩
abbrev main_call3_cst_0 : Ref sig .tc := ⟨.hbm, 121, rfl⟩
abbrev main_call3_v2 : Ref sig .tc := ⟨.hbm, 122, rfl⟩
abbrev main_call3_v3 : Ref sig .tc := ⟨.hbm, 123, rfl⟩
abbrev main_call3_cst_1 : Ref sig .tc := ⟨.hbm, 124, rfl⟩
abbrev main_call3_call0_v0 : Ref sig .tc := ⟨.hbm, 125, rfl⟩
abbrev main_call3_call0_v1 : Ref sig .tc := ⟨.hbm, 126, rfl⟩
abbrev main_call3_v4 : Ref sig .tc := ⟨.hbm, 127, rfl⟩
abbrev main_call3_v5 : Ref sig .tc := ⟨.hbm, 128, rfl⟩
abbrev main_call3_cst_2 : Ref sig .tc := ⟨.hbm, 129, rfl⟩
abbrev main_call3_v6 : Ref sig .tc := ⟨.hbm, 130, rfl⟩
abbrev main_call3_v7 : Ref sig .tc := ⟨.hbm, 131, rfl⟩
abbrev main_v61 : Ref sig .tc := ⟨.hbm, 132, rfl⟩
abbrev main_c_4 : Ref sig .tc := ⟨.hbm, 133, rfl⟩
abbrev main_v62 : Ref sig .tc := ⟨.hbm, 134, rfl⟩
abbrev main_v63 : Ref sig .tc := ⟨.hbm, 135, rfl⟩
abbrev main_c_5 : Ref sig .tc := ⟨.hbm, 136, rfl⟩
abbrev main_v64 : Ref sig .tc := ⟨.hbm, 137, rfl⟩
abbrev main_v65 : Ref sig .tc := ⟨.hbm, 138, rfl⟩
abbrev main_v66 : Ref sig .tc := ⟨.hbm, 139, rfl⟩
abbrev main_v67 : Ref sig .tc := ⟨.hbm, 140, rfl⟩
abbrev main_v68 : Ref sig .tc := ⟨.hbm, 141, rfl⟩
abbrev main_cst_6 : Ref sig .tc := ⟨.hbm, 142, rfl⟩
abbrev main_v69 : Ref sig .tc := ⟨.hbm, 143, rfl⟩
abbrev main_v70 : Ref sig .tc := ⟨.hbm, 144, rfl⟩
abbrev main_v71 : Ref sig .tc := ⟨.hbm, 145, rfl⟩
abbrev main_v72 : Ref sig .tc := ⟨.hbm, 146, rfl⟩
abbrev main_v73 : Ref sig .tc := ⟨.hbm, 147, rfl⟩
abbrev main_v74 : Ref sig .tc := ⟨.hbm, 148, rfl⟩
abbrev main_v75 : Ref sig .tc := ⟨.hbm, 149, rfl⟩
abbrev main_v76 : Ref sig .tc := ⟨.hbm, 150, rfl⟩
abbrev main_v77 : Ref sig .tc := ⟨.hbm, 151, rfl⟩
abbrev main_v78 : Ref sig .tc := ⟨.hbm, 152, rfl⟩
abbrev main_v79 : Ref sig .tc := ⟨.hbm, 153, rfl⟩
abbrev main_v80 : Ref sig .tc := ⟨.hbm, 154, rfl⟩
abbrev main_call4_cst : Ref sig .tc := ⟨.hbm, 155, rfl⟩
abbrev main_call4_v0 : Ref sig .tc := ⟨.hbm, 156, rfl⟩
abbrev main_call4_v1 : Ref sig .tc := ⟨.hbm, 157, rfl⟩
abbrev main_call4_cst_0 : Ref sig .tc := ⟨.hbm, 158, rfl⟩
abbrev main_call4_v2 : Ref sig .tc := ⟨.hbm, 159, rfl⟩
abbrev main_call4_v3 : Ref sig .tc := ⟨.hbm, 160, rfl⟩
abbrev main_call4_cst_1 : Ref sig .tc := ⟨.hbm, 161, rfl⟩
abbrev main_call4_call0_v0 : Ref sig .tc := ⟨.hbm, 162, rfl⟩
abbrev main_call4_call0_v1 : Ref sig .tc := ⟨.hbm, 163, rfl⟩
abbrev main_call4_v4 : Ref sig .tc := ⟨.hbm, 164, rfl⟩
abbrev main_call4_v5 : Ref sig .tc := ⟨.hbm, 165, rfl⟩
abbrev main_call4_cst_2 : Ref sig .tc := ⟨.hbm, 166, rfl⟩
abbrev main_call4_v6 : Ref sig .tc := ⟨.hbm, 167, rfl⟩
abbrev main_call4_v7 : Ref sig .tc := ⟨.hbm, 168, rfl⟩
abbrev main_v81 : Ref sig .tc := ⟨.hbm, 169, rfl⟩
abbrev main_v82 : Ref sig .tc := ⟨.hbm, 170, rfl⟩
abbrev main_v83 : Ref sig .tc := ⟨.hbm, 171, rfl⟩
abbrev main_v84 : Ref sig .tc := ⟨.hbm, 172, rfl⟩
abbrev main_v85 : Ref sig .tc := ⟨.hbm, 173, rfl⟩
abbrev main_v86 : Ref sig .tc := ⟨.hbm, 174, rfl⟩
abbrev main_v87 : Ref sig .tc := ⟨.hbm, 175, rfl⟩
abbrev main_v88 : Ref sig .tc := ⟨.hbm, 176, rfl⟩
abbrev main_v89 : Ref sig .tc := ⟨.hbm, 177, rfl⟩
abbrev main_call5_cst : Ref sig .tc := ⟨.hbm, 178, rfl⟩
abbrev main_call5_v0 : Ref sig .tc := ⟨.hbm, 179, rfl⟩
abbrev main_call5_v1 : Ref sig .tc := ⟨.hbm, 180, rfl⟩
abbrev main_call5_cst_0 : Ref sig .tc := ⟨.hbm, 181, rfl⟩
abbrev main_call5_v2 : Ref sig .tc := ⟨.hbm, 182, rfl⟩
abbrev main_call5_v3 : Ref sig .tc := ⟨.hbm, 183, rfl⟩
abbrev main_call5_cst_1 : Ref sig .tc := ⟨.hbm, 184, rfl⟩
abbrev main_call5_call0_v0 : Ref sig .tc := ⟨.hbm, 185, rfl⟩
abbrev main_call5_call0_v1 : Ref sig .tc := ⟨.hbm, 186, rfl⟩
abbrev main_call5_v4 : Ref sig .tc := ⟨.hbm, 187, rfl⟩
abbrev main_call5_v5 : Ref sig .tc := ⟨.hbm, 188, rfl⟩
abbrev main_call5_cst_2 : Ref sig .tc := ⟨.hbm, 189, rfl⟩
abbrev main_call5_v6 : Ref sig .tc := ⟨.hbm, 190, rfl⟩
abbrev main_call5_v7 : Ref sig .tc := ⟨.hbm, 191, rfl⟩
abbrev main_v90 : Ref sig .tc := ⟨.hbm, 192, rfl⟩
abbrev main_v91 : Ref sig .tc := ⟨.hbm, 193, rfl⟩
abbrev main_v92 : Ref sig .tc := ⟨.hbm, 194, rfl⟩
abbrev main_v93 : Ref sig .tc := ⟨.hbm, 195, rfl⟩
abbrev main_v94 : Ref sig .tc := ⟨.hbm, 196, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x10_S100000x10_1_0_0_1_n_n_wf : DotDims.WF S100000x128 S128x10 S100000x10 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x10_S100000x10_1_0_0_1_n_n : DotDims S100000x128 S128x10 S100000x10 where
  lhsContracting := [1]
  rhsContracting := [0]
  lhsNonContracting := [0]
  rhsNonContracting := [1]
  lhsBatch := []
  rhsBatch := []
  wf := dot_S100000x128_S128x10_S100000x10_1_0_0_1_n_n_wf

class Facts : Prop extends Facts₀ where

variable [Facts]
-- ==== Proof.KernelRun.lean ====
/-
  The idealized kernel's run with its result named.

  @main is four row-blocked regions among stretches of host operations.  The buffer contents at each
  boundary are a fold from the launch memory: a stretch applies its operations, a region replaces
  each of its output arrays by what its write-backs leave and keeps every other buffer.  Every
  execution ends with each unscoped buffer at the last boundary's contents; read at the result
  buffer this names the result, and read at the arguments it gives them back unchanged.
-/
import proofs.«108478_j44753559224362_1_alg».proof.Proof.Gen.KernelIdeal.Frame

set_option maxRecDepth 16384

noncomputable section

namespace Cert.KernelIdeal.GinRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, with the result buffer at the last
    boundary's contents and the nine argument arrays as launched. -/
theorem run_named : θ_run defs (onTc (τ := τ) (main (F := F))) ⟨m, fun _ => 0, ρ⟩ (fun r => ∀ c : Dev nD,
      r.2.mem ((c.tc : Thread nD τ).loc main_v68) = W8 m ρ c (Proc.devRef .tc main_v68)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v68 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c)⟩)

end Cert.KernelIdeal.GinRun

end
-- ==== Proof.Spec.lean ====
/-
  The network both programs compute, as one function on the extended reals.

  Nodes carry 128 features.  One layer sends the node features `h` and the neighbour sums `g`
  (whatever aggregation produced them) to
      elu ( (elu ((h + g) · Wa + ba)) · Wb + bb ),
  row by row: entry (n, q) depends only on row n of `h + g`.  The head is `h · W + b` into 10
  classes.  ELU is x for x > 0 and e^x - 1 otherwise (at -∞ this is -1, at +∞ it is +∞).
  Sums over the 128 features are finite sums on the extended reals; their order never matters
  because addition there is commutative and associative.
-/
import Idealize.ShloMosaic.PureOps.Ideal
import Idealize.ShloMosaic.Lib.ValueIdx

noncomputable section

namespace Cert.Gin

open Idealize.ShloMosaic Idealize.ShloMosaic.ValueIdx

/-- Node features: 100000 nodes, 128 features each. -/
abbrev Nodes : Shape := ⟨2, ![100000, 128]⟩
/-- Class scores: 100000 nodes, 10 classes. -/
abbrev Scores : Shape := ⟨2, ![100000, 10]⟩

/-- ELU on the extended reals: the identity above zero, `e^v - 1` at and below it. -/
def elu (v : EReal) : EReal := if 0 < v then v else Ideal.exp v - 1

/-- Hidden unit `k` of a node whose combined feature row is `z`. -/
def hid (z : Fin 128 → EReal) (Wa : Fin 128 → Fin 128 → EReal) (ba : Fin 128 → EReal) (k : Fin 128) : EReal :=
  elu ((∑ j : Fin 128, z j * Wa j k) + ba k)

/-- Output feature `q` of the two-layer perceptron on the row `z`. -/
def mlp (z : Fin 128 → EReal) (Wa : Fin 128 → Fin 128 → EReal) (ba : Fin 128 → EReal)
    (Wb : Fin 128 → Fin 128 → EReal) (bb : Fin 128 → EReal) (q : Fin 128) : EReal :=
  elu ((∑ k : Fin 128, hid z Wa ba k * Wb k q) + bb q)

/-- One layer on whole arrays: entry (n, q) is the perceptron's output `q` on row `n` of `h + g`. -/
def layer (h g : Nodes.Idx → EReal) (Wa : Fin 128 → Fin 128 → EReal) (ba : Fin 128 → EReal)
    (Wb : Fin 128 → Fin 128 → EReal) (bb : Fin 128 → EReal) : Nodes.Idx → EReal :=
  fun i => mlp (fun j => h (ix2 (i 0 : Fin 100000) j) + g (ix2 (i 0 : Fin 100000) j)) Wa ba Wb bb (i 1 : Fin 128)

/-- The classification head on whole arrays: entry (n, q) is row `n` of `h` against column `q` of `W`, plus `b q`. -/
def head (h : Nodes.Idx → EReal) (W : Fin 128 → Fin 10 → EReal) (b : Fin 10 → EReal) : Scores.Idx → EReal :=
  fun i => (∑ k : Fin 128, h (ix2 (i 0 : Fin 100000) k) * W k (i 1 : Fin 10)) + b (i 1 : Fin 10)

theorem layer_apply (h g : Nodes.Idx → EReal) (Wa : Fin 128 → Fin 128 → EReal) (ba : Fin 128 → EReal)
    (Wb : Fin 128 → Fin 128 → EReal) (bb : Fin 128 → EReal) (n : Fin 100000) (q : Fin 128) :
    layer h g Wa ba Wb bb (ix2 n q) = mlp (fun j => h (ix2 n j) + g (ix2 n j)) Wa ba Wb bb q := rfl

theorem head_apply (h : Nodes.Idx → EReal) (W : Fin 128 → Fin 10 → EReal) (b : Fin 10 → EReal) (n : Fin 100000) (q : Fin 10) :
    head h W b (ix2 n q) = (∑ k : Fin 128, h (ix2 n k) * W k q) + b q := rfl

end Cert.Gin

end
-- ==== Proof.KernelWalk.lean ====
/-
  What the host operations between the regions compute, and what they leave alone.

  Each stretch of host operations is a fold over the buffer contents.  Read at the buffers the next
  region takes as operands it gives: the neighbour sums (for every edge s → d, row s of the current
  features added into row d, starting from zero — one gather and one scatter-add, kept here as one
  unopened function `agg` of the two endpoint lists and the features), and the layer's two weight
  matrices and two bias rows cut out of the stacked parameters.  Read at any buffer the stretch does
  not write, it gives back what was there.
-/
import proofs.«108478_j44753559224362_1_alg».proof.Proof.Gen.KernelIdeal.Launch
import Idealize.ShloMosaic.Lib.StableHlo.Run

noncomputable section

namespace Cert.KernelIdeal.GinWalk

open Cert.KernelIdeal Cert.KernelIdeal.Gen
open Idealize.ShloMosaic Idealize.ShloMosaic.TcCoe Idealize.SL.Sem Idealize.ShloMosaic.StableHlo

variable {F : FTy → Type} [FloatOps F]

/-- Neighbour sums.  `src`, `dst` list the edges' endpoints; a negative source index counts from the end.
    Row `d` of the result is the sum of the rows `h[src e]` over the edges `e` with `dst e = d`. -/
def agg (src dst : (⟨S1600000, .i32⟩ : BufTy).Contents (Elt F)) (h : (⟨S100000x128, .f32⟩ : BufTy).Contents (Elt F)) :
    (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dst)
    (Host.gather gather_S100000x128_S1600000x1_S1600000x128_1_0_n_n_0_1_1128 h
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- Row `r` of the edge list, as a vector of 1600000 indices. -/
def endpoints (off : Fin 2 → Nat) (hs : S2x1600000.Slices off S1x1600000) (ei : (⟨S2x1600000, .i32⟩ : BufTy).Contents (Elt F)) :
    (⟨S1600000, .i32⟩ : BufTy).Contents (Elt F) :=
  shapeCast S1600000 (extractStridedSlice S1x1600000 off ei hs) shapeCasts_S1x1600000_S1600000

/-- Layer `l`'s 128 × 128 matrix out of a stack of three. -/
def wmat (off : Fin 3 → Nat) (hs : S3x128x128.Slices off S1x128x128) (W3 : (⟨S3x128x128, .f32⟩ : BufTy).Contents (Elt F)) :
    (⟨S128x128, .f32⟩ : BufTy).Contents (Elt F) :=
  shapeCast S128x128 (extractStridedSlice S1x128x128 off W3 hs) shapeCasts_S1x128x128_S128x128

/-- Layer `l`'s bias out of a stack of three, as a vector of 128. -/
def bvec (off : Fin 2 → Nat) (hs : S3x128.Slices off S1x128) (b3 : (⟨S3x128, .f32⟩ : BufTy).Contents (Elt F)) :
    (⟨S128, .f32⟩ : BufTy).Contents (Elt F) :=
  shapeCast S128 (extractStridedSlice S1x128 off b3 hs) shapeCasts_S1x128_S128

/-- The same bias laid out as one row of 128. -/
def brow (off : Fin 2 → Nat) (hs : S3x128.Slices off S1x128) (b3 : (⟨S3x128, .f32⟩ : BufTy).Contents (Elt F)) :
    (⟨S1x128, .f32⟩ : BufTy).Contents (Elt F) :=
  shapeCast S1x128 (bvec off hs b3) shapeCasts_S128_S1x128

/-! ## What a stretch leaves alone -/

/-- A buffer that no operation of the stretch writes keeps its contents. -/
local macro "keep_tac" ops:ident : tactic => `(tactic|
  exact StableHlo.after_of_forall_not_mem _ _ (List.forall_iff_forall_mem.mp (by
    simp only [$ops:ident, List.Forall, StableHlo.nullary_writes, StableHlo.unary_writes, StableHlo.binary_writes,
      StableHlo.ternary_writes, StableHlo.reshape_writes, Finset.mem_singleton]
    repeat' apply And.intro
    all_goals exact StableHlo.devRef_ne_of_ne (by decide))))

local macro "keep_thm" n:ident ops:ident b:ident : command => `(
  theorem $n {F : FTy → Type} [FloatOps F] (W : Valuation τ sig (Elt F)) :
      StableHlo.after ($ops : List (HloOp τ sig (Elt F))) W (Proc.devRef .tc $b) = W (Proc.devRef .tc $b) := by keep_tac $ops)

keep_thm k0_arg0 hostOps0 main_arg0
keep_thm k0_arg3 hostOps0 main_arg3
keep_thm k0_arg4 hostOps0 main_arg4
keep_thm k0_arg5 hostOps0 main_arg5
keep_thm k0_arg6 hostOps0 main_arg6
keep_thm k0_arg7 hostOps0 main_arg7
keep_thm k0_arg8 hostOps0 main_arg8
keep_thm k1_v24 hostOps1 main_v24
keep_thm k1_v1 hostOps1 main_v1
keep_thm k1_v3 hostOps1 main_v3
keep_thm k1_arg3 hostOps1 main_arg3
keep_thm k1_arg4 hostOps1 main_arg4
keep_thm k1_arg5 hostOps1 main_arg5
keep_thm k1_arg6 hostOps1 main_arg6
keep_thm k1_arg7 hostOps1 main_arg7
keep_thm k1_arg8 hostOps1 main_arg8
keep_thm k2_v45 hostOps2 main_v45
keep_thm k2_arg7 hostOps2 main_arg7
keep_thm k2_arg8 hostOps2 main_arg8
keep_thm k3_v66 hostOps3 main_v66
keep_thm k3_arg7 hostOps3 main_arg7

/-! ## What a stretch writes -/

section Writes
variable (W : Valuation τ sig (Elt F))

theorem h0_v1 : StableHlo.after hostOps0 W (Proc.devRef .tc main_v1) = endpoints ![0, 0] slices_S2x1600000_S1x1600000_0_0 (W (Proc.devRef .tc main_arg1)) := by
  after_results; rfl
theorem h0_v3 : StableHlo.after hostOps0 W (Proc.devRef .tc main_v3) = endpoints ![1, 0] slices_S2x1600000_S1x1600000_1_0 (W (Proc.devRef .tc main_arg1)) := by
  after_results; rfl
set_option maxHeartbeats 1000000 in
theorem h0_v13 : StableHlo.after hostOps0 W (Proc.devRef .tc main_v13)
    = agg (endpoints ![0, 0] slices_S2x1600000_S1x1600000_0_0 (W (Proc.devRef .tc main_arg1)))
        (endpoints ![1, 0] slices_S2x1600000_S1x1600000_1_0 (W (Proc.devRef .tc main_arg1))) (W (Proc.devRef .tc main_arg0)) := by
  after_results; rfl
theorem h0_v15 : StableHlo.after hostOps0 W (Proc.devRef .tc main_v15) = wmat ![0, 0, 0] slices_S3x128x128_S1x128x128_0_0_0 (W (Proc.devRef .tc main_arg3)) := by
  after_results; rfl
theorem h0_v22 : StableHlo.after hostOps0 W (Proc.devRef .tc main_v22) = brow ![0, 0] slices_S3x128_S1x128_0_0 (W (Proc.devRef .tc main_arg4)) := by
  after_results; rfl
theorem h0_v19 : StableHlo.after hostOps0 W (Proc.devRef .tc main_v19) = wmat ![0, 0, 0] slices_S3x128x128_S1x128x128_0_0_0 (W (Proc.devRef .tc main_arg5)) := by
  after_results; rfl
theorem h0_v23 : StableHlo.after hostOps0 W (Proc.devRef .tc main_v23) = brow ![0, 0] slices_S3x128_S1x128_0_0 (W (Proc.devRef .tc main_arg6)) := by
  after_results; rfl

set_option maxHeartbeats 1000000 in
theorem h1_v34 : StableHlo.after hostOps1 W (Proc.devRef .tc main_v34)
    = agg (W (Proc.devRef .tc main_v1)) (W (Proc.devRef .tc main_v3)) (W (Proc.devRef .tc main_v24)) := by
  after_results; rfl
theorem h1_v36 : StableHlo.after hostOps1 W (Proc.devRef .tc main_v36) = wmat ![1, 0, 0] slices_S3x128x128_S1x128x128_1_0_0 (W (Proc.devRef .tc main_arg3)) := by
  after_results; rfl
theorem h1_v43 : StableHlo.after hostOps1 W (Proc.devRef .tc main_v43) = brow ![1, 0] slices_S3x128_S1x128_1_0 (W (Proc.devRef .tc main_arg4)) := by
  after_results; rfl
theorem h1_v40 : StableHlo.after hostOps1 W (Proc.devRef .tc main_v40) = wmat ![1, 0, 0] slices_S3x128x128_S1x128x128_1_0_0 (W (Proc.devRef .tc main_arg5)) := by
  after_results; rfl
theorem h1_v44 : StableHlo.after hostOps1 W (Proc.devRef .tc main_v44) = brow ![1, 0] slices_S3x128_S1x128_1_0 (W (Proc.devRef .tc main_arg6)) := by
  after_results; rfl

set_option maxHeartbeats 1000000 in
theorem h2_v55 : StableHlo.after hostOps2 W (Proc.devRef .tc main_v55)
    = agg (W (Proc.devRef .tc main_v1)) (W (Proc.devRef .tc main_v3)) (W (Proc.devRef .tc main_v45)) := by
  after_results; rfl
theorem h2_v57 : StableHlo.after hostOps2 W (Proc.devRef .tc main_v57) = wmat ![2, 0, 0] slices_S3x128x128_S1x128x128_2_0_0 (W (Proc.devRef .tc main_arg3)) := by
  after_results; rfl
theorem h2_v64 : StableHlo.after hostOps2 W (Proc.devRef .tc main_v64) = brow ![2, 0] slices_S3x128_S1x128_2_0 (W (Proc.devRef .tc main_arg4)) := by
  after_results; rfl
theorem h2_v61 : StableHlo.after hostOps2 W (Proc.devRef .tc main_v61) = wmat ![2, 0, 0] slices_S3x128x128_S1x128x128_2_0_0 (W (Proc.devRef .tc main_arg5)) := by
  after_results; rfl
theorem h2_v65 : StableHlo.after hostOps2 W (Proc.devRef .tc main_v65) = brow ![2, 0] slices_S3x128_S1x128_2_0 (W (Proc.devRef .tc main_arg6)) := by
  after_results; rfl

theorem h3_v67 : StableHlo.after hostOps3 W (Proc.devRef .tc main_v67)
    = (shapeCast S1x10 (W (Proc.devRef .tc main_arg8)) shapeCasts_S10_S1x10 : (⟨S1x10, .f32⟩ : BufTy).Contents (Elt F)) := by
  after_results; rfl

end Writes

end Cert.KernelIdeal.GinWalk

end
-- ==== Proof.KernelPayload.lean ====
/-
  The arithmetic of one row block, entry by entry, on the extended reals.

  A perceptron block takes 4000 rows of node features and of neighbour sums, adds them, multiplies by a
  128 x 128 matrix, adds a bias row, applies ELU, and does the same once more.  Narrowing to a shorter
  format is the identity on the extended reals, a product into a zero accumulator is the plain finite sum
  over the 128 contracted features, and a bias row broadcast over the rows reads its column.  ELU is
  written as a choice on the sign: the value itself above zero, e^v - 1 otherwise.  The head block is one
  product into 10 columns plus a bias row.
-/
import proofs.«108478_j44753559224362_1_alg».proof.Proof.Spec
import proofs.«108478_j44753559224362_1_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

namespace Cert.KernelIdeal.GinValue

open Idealize.ShloMosaic Idealize.ShloMosaic.ValueIdx
open Cert.KernelIdeal Cert.KernelIdeal.Gen

/-! ## A product of a 4000-row block with a matrix, at an entry -/

/-- Entry (p, q) of a 4000 x 128 block times a 128 x 128 matrix, into a zero accumulator: the sum over the
    contracted feature of the products of the entries. -/
theorem mm128_apply {φ₁ φ₂ : FTy} (A : FVec Ideal S4000x128 φ₁) (B : FVec Ideal S128x128 φ₂) (p : Fin 4000) (q : Fin 128) :
    matmul dot_S4000x128_S128x128_S4000x128_1_0_0_1_n_n none A B (constant S4000x128 .f32 0x00000000#32) (ix2 p q)
      = ∑ k : Fin 128, A (ix2 p k) * B (ix2 k q) := by
  show FloatOps.matmul _ none A B _ (ix2 p q) = _
  rw [Ideal.matmul_constant_zero_apply,
    ← Equiv.sum_comp (contrEquiv1 dot_S4000x128_S128x128_S4000x128_1_0_0_1_n_n 128 rfl rfl).symm]
  refine Finset.sum_congr rfl fun c _ => ?_
  have c2 := contrEquiv1_symm_val dot_S4000x128_S128x128_S4000x128_1_0_0_1_n_n 128 rfl rfl c
  have l2 : dot_S4000x128_S128x128_S4000x128_1_0_0_1_n_n.lhsIdx (ix2 p q) ((contrEquiv1 _ 128 rfl rfl).symm c) = ix2 p c := by
    funext ax; apply Fin.ext
    match ax with
    | ⟨0, _⟩ => simp [DotDims.lhsIdx, dot_S4000x128_S128x128_S4000x128_1_0_0_1_n_n]; rfl
    | ⟨1, _⟩ => simp [DotDims.lhsIdx, dot_S4000x128_S128x128_S4000x128_1_0_0_1_n_n]; exact c2
  have r2 : dot_S4000x128_S128x128_S4000x128_1_0_0_1_n_n.rhsIdx (ix2 p q) ((contrEquiv1 _ 128 rfl rfl).symm c) = ix2 c q := by
    funext ax; apply Fin.ext
    match ax with
    | ⟨0, _⟩ => simp [DotDims.rhsIdx, dot_S4000x128_S128x128_S4000x128_1_0_0_1_n_n]; exact c2
    | ⟨1, _⟩ => simp [DotDims.rhsIdx, dot_S4000x128_S128x128_S4000x128_1_0_0_1_n_n]; rfl
  rw [l2, r2]

/-- Entry (p, q) of a 4000 x 128 block times a 128 x 10 matrix, into a zero accumulator. -/
theorem mm10_apply {φ₁ φ₂ : FTy} (A : FVec Ideal S4000x128 φ₁) (B : FVec Ideal S128x10 φ₂) (p : Fin 4000) (q : Fin 10) :
    matmul dot_S4000x128_S128x10_S4000x10_1_0_0_1_n_n none A B (constant S4000x10 .f32 0x00000000#32) (ix2 p q)
      = ∑ k : Fin 128, A (ix2 p k) * B (ix2 k q) := by
  show FloatOps.matmul _ none A B _ (ix2 p q) = _
  rw [Ideal.matmul_constant_zero_apply,
    ← Equiv.sum_comp (contrEquiv1 dot_S4000x128_S128x10_S4000x10_1_0_0_1_n_n 128 rfl rfl).symm]
  refine Finset.sum_congr rfl fun c _ => ?_
  have c2 := contrEquiv1_symm_val dot_S4000x128_S128x10_S4000x10_1_0_0_1_n_n 128 rfl rfl c
  have l2 : dot_S4000x128_S128x10_S4000x10_1_0_0_1_n_n.lhsIdx (ix2 p q) ((contrEquiv1 _ 128 rfl rfl).symm c) = ix2 p c := by
    funext ax; apply Fin.ext
    match ax with
    | ⟨0, _⟩ => simp [DotDims.lhsIdx, dot_S4000x128_S128x10_S4000x10_1_0_0_1_n_n]; rfl
    | ⟨1, _⟩ => simp [DotDims.lhsIdx, dot_S4000x128_S128x10_S4000x10_1_0_0_1_n_n]; exact c2
  have r2 : dot_S4000x128_S128x10_S4000x10_1_0_0_1_n_n.rhsIdx (ix2 p q) ((contrEquiv1 _ 128 rfl rfl).symm c) = ix2 c q := by
    funext ax; apply Fin.ext
    match ax with
    | ⟨0, _⟩ => simp [DotDims.rhsIdx, dot_S4000x128_S128x10_S4000x10_1_0_0_1_n_n]; exact c2
    | ⟨1, _⟩ => simp [DotDims.rhsIdx, dot_S4000x128_S128x10_S4000x10_1_0_0_1_n_n]; rfl
  rw [l2, r2]

/-! ## ELU as a choice on the sign -/

/-- The choice "v if v > 0, else e^v - 1", with 0 and 1 given by their bit patterns, is ELU. -/
theorem elu_select (v : EReal) :
    Scalar.select (FloatOps.cmpf (F := Ideal) (φ := .f32) .ogt v (Scalar.ofBits (F := Ideal) .f32 0x00000000#32)) v
        (FloatOps.subf (F := Ideal) (φ := .f32) (FloatOps.exp (F := Ideal) (φ := .f32) v) (Scalar.ofBits (F := Ideal) .f32 0x3F800000#32))
      = Cert.Gin.elu v := by
  have h0 : (Scalar.ofBits (F := Ideal) .f32 0x00000000#32 : Ideal .f32) = (0 : EReal) := IdealRules.sign_bit.ideal_zero .f32
  have h1 : (Scalar.ofBits (F := Ideal) .f32 0x3F800000#32 : Ideal .f32) = (1 : EReal) := IdealRules.sign_bit.ideal_onePat .f32
  rw [h0, h1, Ideal.cmpf_def]
  unfold Cert.Gin.elu Ideal.cmp
  by_cases h : (0 : EReal) < v
  · rw [if_pos h]
    have : BitVec.ofBool (decide ((0 : EReal) < v)) = 1#1 := by rw [decide_eq_true h]; rfl
    rw [this, select_one]
  · rw [if_neg h]
    have : BitVec.ofBool (decide ((0 : EReal) < v)) = 0#1 := by rw [decide_eq_false h]; rfl
    rw [this, select_zero]
    rfl

/-! ## One dense step and ELU on a block, at an entry -/

/-- ELU written as a choice on the sign over a whole block, read at an entry. -/
theorem eluVec_apply (v : FVec Ideal S4000x128 .f32) (i : S4000x128.Idx) :
    select (cmpf .ogt v (broadcast S4000x128 (Scalar.ofBits (F := Ideal) .f32 0x00000000#32))) v
        (subf (exp v) (broadcast S4000x128 (Scalar.ofBits (F := Ideal) .f32 0x3F800000#32))) i
      = Cert.Gin.elu (v i) := elu_select (v i)

/-- A block times a 128 x 128 matrix plus a bias row, read at entry (p, q): narrowing the operands changes nothing. -/
theorem denseVec_apply (X : FVec Ideal S4000x128 .f32) (W : FVec Ideal S128x128 .f32) (b : FVec Ideal S1x128 .f32)
    (p : Fin 4000) (q : Fin 128) :
    addf (matmul dot_S4000x128_S128x128_S4000x128_1_0_0_1_n_n none (truncf .bf16 X bitsLt_bf16_f32) (truncf .bf16 W bitsLt_bf16_f32)
          (constant S4000x128 .f32 0x00000000#32)) (broadcastTo S4000x128 b broadcasts_S1x128_S4000x128) (ix2 p q)
      = (∑ k : Fin 128, X (ix2 p k) * W (ix2 k q)) + b (ix2 0 q) := by
  rw [addf_apply, mm128_apply, broadcastTo_1b_ab_apply]
  rfl

/-- A block times a 128 x 10 matrix plus a bias row, read at entry (p, q). -/
theorem headVec_apply (X : FVec Ideal S4000x128 .f32) (W : FVec Ideal S128x10 .f32) (b : FVec Ideal S1x10 .f32)
    (p : Fin 4000) (q : Fin 10) :
    addf (matmul dot_S4000x128_S128x10_S4000x10_1_0_0_1_n_n none (truncf .bf16 X bitsLt_bf16_f32) (truncf .bf16 W bitsLt_bf16_f32)
          (constant S4000x10 .f32 0x00000000#32)) (broadcastTo S4000x10 b broadcasts_S1x10_S4000x10) (ix2 p q)
      = (∑ k : Fin 128, X (ix2 p k) * W (ix2 k q)) + b (ix2 0 q) := by
  rw [addf_apply, mm10_apply, broadcastTo_1b_ab_apply]
  rfl

/-- Two dense steps with ELU after each, on the sum of two blocks, read at entry (p, q): the perceptron on row p. -/
theorem mlpVec_apply (x0 x1 : FVec Ideal S4000x128 .f32) (x2 : FVec Ideal S128x128 .f32) (x3 : FVec Ideal S1x128 .f32)
    (x4 : FVec Ideal S128x128 .f32) (x5 : FVec Ideal S1x128 .f32) (p : Fin 4000) (q : Fin 128) :
    Cert.Gin.elu ((∑ k : Fin 128,
        Cert.Gin.elu ((∑ j : Fin 128, (addf x0 x1) (ix2 p j) * x2 (ix2 j k)) + x3 (ix2 0 k)) * x4 (ix2 k q)) + x5 (ix2 0 q))
      = Cert.Gin.mlp (fun j => x0 (ix2 p j) + x1 (ix2 p j)) (fun j k => x2 (ix2 j k)) (fun k => x3 (ix2 0 k))
          (fun k q' => x4 (ix2 k q')) (fun q' => x5 (ix2 0 q')) q := rfl

/-! ## The blocks' payloads at an entry -/

theorem pay0_apply (x0 x1 : Vec Ideal S4000x128 .f32) (x2 : Vec Ideal S128x128 .f32) (x3 : Vec Ideal S1x128 .f32)
    (x4 : Vec Ideal S128x128 .f32) (x5 : Vec Ideal S1x128 .f32) (p : Fin 4000) (q : Fin 128) :
    Gen.k0_pay1 (F := Ideal) x0 x1 x2 x3 x4 x5 (ix2 p q)
      = Cert.Gin.mlp (fun j => x0 (ix2 p j) + x1 (ix2 p j)) (fun j k => x2 (ix2 j k)) (fun k => x3 (ix2 0 k))
          (fun k q' => x4 (ix2 k q')) (fun q' => x5 (ix2 0 q')) q := by
  unfold Gen.k0_pay1
  simp only [shapeCast_self]
  rw [eluVec_apply, denseVec_apply]
  simp only [eluVec_apply, denseVec_apply]
  exact mlpVec_apply x0 x1 x2 x3 x4 x5 p q

theorem pay1_apply (x0 x1 : Vec Ideal S4000x128 .f32) (x2 : Vec Ideal S128x128 .f32) (x3 : Vec Ideal S1x128 .f32)
    (x4 : Vec Ideal S128x128 .f32) (x5 : Vec Ideal S1x128 .f32) (p : Fin 4000) (q : Fin 128) :
    Gen.k1_pay1 (F := Ideal) x0 x1 x2 x3 x4 x5 (ix2 p q)
      = Cert.Gin.mlp (fun j => x0 (ix2 p j) + x1 (ix2 p j)) (fun j k => x2 (ix2 j k)) (fun k => x3 (ix2 0 k))
          (fun k q' => x4 (ix2 k q')) (fun q' => x5 (ix2 0 q')) q := by
  unfold Gen.k1_pay1
  simp only [shapeCast_self]
  rw [eluVec_apply, denseVec_apply]
  simp only [eluVec_apply, denseVec_apply]
  exact mlpVec_apply x0 x1 x2 x3 x4 x5 p q

theorem pay2_apply (x0 x1 : Vec Ideal S4000x128 .f32) (x2 : Vec Ideal S128x128 .f32) (x3 : Vec Ideal S1x128 .f32)
    (x4 : Vec Ideal S128x128 .f32) (x5 : Vec Ideal S1x128 .f32) (p : Fin 4000) (q : Fin 128) :
    Gen.k2_pay1 (F := Ideal) x0 x1 x2 x3 x4 x5 (ix2 p q)
      = Cert.Gin.mlp (fun j => x0 (ix2 p j) + x1 (ix2 p j)) (fun j k => x2 (ix2 j k)) (fun k => x3 (ix2 0 k))
          (fun k q' => x4 (ix2 k q')) (fun q' => x5 (ix2 0 q')) q := by
  unfold Gen.k2_pay1
  simp only [shapeCast_self]
  rw [eluVec_apply, denseVec_apply]
  simp only [eluVec_apply, denseVec_apply]
  exact mlpVec_apply x0 x1 x2 x3 x4 x5 p q

theorem pay3_apply (x0 : Vec Ideal S4000x128 .f32) (x1 : Vec Ideal S128x10 .f32) (x2 : Vec Ideal S1x10 .f32)
    (p : Fin 4000) (q : Fin 10) :
    Gen.k3_pay1 (F := Ideal) x0 x1 x2 (ix2 p q) = (∑ k : Fin 128, x0 (ix2 p k) * x1 (ix2 k q)) + x2 (ix2 0 q) := by
  unfold Gen.k3_pay1
  simp only [shapeCast_self]
  exact headVec_apply x0 x1 x2 p q

/-! ## What a block's one whole-block store leaves, at an entry -/

/-- The zero offsets of a whole-block access. -/
theorem zero_offsets : (![0, 0] : Fin 2 → Nat) = fun _ => 0 := funext fun a => by fin_cases a <;> rfl

/-- Perceptron region 0: entry (p, q) of the output block is the perceptron's output q on row p of the sum of the two
    input blocks. -/
theorem out0_6_apply (x0 x1 : Vec Ideal S4000x128 .f32) (x2 : Vec Ideal S128x128 .f32) (x3 : Vec Ideal S1x128 .f32)
    (x4 : Vec Ideal S128x128 .f32) (x5 : Vec Ideal S1x128 .f32) (p : Fin 4000) (q : Fin 128) :
    Gen.out0_6 (F := Ideal) x0 x1 x2 x3 x4 x5 (ix2 p q)
      = Cert.Gin.mlp (fun j => x0 (ix2 p j) + x1 (ix2 p j)) (fun j k => x2 (ix2 j k)) (fun k => x3 (ix2 0 k))
          (fun k q' => x4 (ix2 k q')) (fun q' => x5 (ix2 0 q')) q := by
  unfold Gen.out0_6
  rw [View.canon_unit_zero zero_offsets]
  simp only [View.ld_unit_zero (S := S4000x128) zero_offsets, View.ld_unit_zero (S := S128x128) zero_offsets,
    View.ld_unit_zero (S := S1x128) zero_offsets]
  exact pay0_apply x0 x1 x2 x3 x4 x5 p q

/-- Perceptron region 1: entry (p, q) of the output block is the perceptron's output q on row p of the sum of the two
    input blocks. -/
theorem out1_6_apply (x0 x1 : Vec Ideal S4000x128 .f32) (x2 : Vec Ideal S128x128 .f32) (x3 : Vec Ideal S1x128 .f32)
    (x4 : Vec Ideal S128x128 .f32) (x5 : Vec Ideal S1x128 .f32) (p : Fin 4000) (q : Fin 128) :
    Gen.out1_6 (F := Ideal) x0 x1 x2 x3 x4 x5 (ix2 p q)
      = Cert.Gin.mlp (fun j => x0 (ix2 p j) + x1 (ix2 p j)) (fun j k => x2 (ix2 j k)) (fun k => x3 (ix2 0 k))
          (fun k q' => x4 (ix2 k q')) (fun q' => x5 (ix2 0 q')) q := by
  unfold Gen.out1_6
  rw [View.canon_unit_zero zero_offsets]
  simp only [View.ld_unit_zero (S := S4000x128) zero_offsets, View.ld_unit_zero (S := S128x128) zero_offsets,
    View.ld_unit_zero (S := S1x128) zero_offsets]
  exact pay1_apply x0 x1 x2 x3 x4 x5 p q

/-- Perceptron region 2: entry (p, q) of the output block is the perceptron's output q on row p of the sum of the two
    input blocks. -/
theorem out2_6_apply (x0 x1 : Vec Ideal S4000x128 .f32) (x2 : Vec Ideal S128x128 .f32) (x3 : Vec Ideal S1x128 .f32)
    (x4 : Vec Ideal S128x128 .f32) (x5 : Vec Ideal S1x128 .f32) (p : Fin 4000) (q : Fin 128) :
    Gen.out2_6 (F := Ideal) x0 x1 x2 x3 x4 x5 (ix2 p q)
      = Cert.Gin.mlp (fun j => x0 (ix2 p j) + x1 (ix2 p j)) (fun j k => x2 (ix2 j k)) (fun k => x3 (ix2 0 k))
          (fun k q' => x4 (ix2 k q')) (fun q' => x5 (ix2 0 q')) q := by
  unfold Gen.out2_6
  rw [View.canon_unit_zero zero_offsets]
  simp only [View.ld_unit_zero (S := S4000x128) zero_offsets, View.ld_unit_zero (S := S128x128) zero_offsets,
    View.ld_unit_zero (S := S1x128) zero_offsets]
  exact pay2_apply x0 x1 x2 x3 x4 x5 p q

/-- The head region: entry (p, q) of the output block is row p of the input block against column q of the matrix, plus
    the bias. -/
theorem out3_3_apply (x0 : Vec Ideal S4000x128 .f32) (x1 : Vec Ideal S128x10 .f32) (x2 : Vec Ideal S1x10 .f32)
    (p : Fin 4000) (q : Fin 10) :
    Gen.out3_3 (F := Ideal) x0 x1 x2 (ix2 p q) = (∑ k : Fin 128, x0 (ix2 p k) * x1 (ix2 k q)) + x2 (ix2 0 q) := by
  unfold Gen.out3_3
  rw [View.canon_unit_zero zero_offsets]
  simp only [View.ld_unit_zero (S := S4000x128) zero_offsets, View.ld_unit_zero (S := S128x10) zero_offsets,
    View.ld_unit_zero (S := S1x10) zero_offsets]
  exact pay3_apply x0 x1 x2 p q

end Cert.KernelIdeal.GinValue

end
-- ==== Proof.KernelBlocks.lean ====
/-
  From row blocks to the whole arrays.

  Each region walks 25 grid points; point t works on rows 4000 t .. 4000 t + 3999 of the node arrays and
  on the whole of the weight and bias arrays.  Entry (p, q) of the block a point writes back is therefore
  entry (4000 t + p, q) of one whole-array function of the arrays the region finds on entry: a layer of
  the network for the three perceptron regions, the classification head for the last.  Row r lies in the
  block of point r / 4000, so the 25 blocks cover the array, and the array ends holding that function.
-/
import proofs.«108478_j44753559224362_1_alg».proof.Proof.KernelPayload
import Idealize.ShloMosaic.Lib.Pipeline.Value

set_option maxRecDepth 16384

noncomputable section

namespace Cert.KernelIdeal.GinValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-! ## Perceptron region 0 -/

/-- The layer of the network on the arrays region 0 finds on entry. -/
abbrev layer0 (c : Dev nD) : S100000x128.Idx → EReal :=
  Cert.Gin.layer (V c (Pipeline.arrRef spec0 0)) (V c (Pipeline.arrRef spec0 1))
    (fun j k => V c (Pipeline.arrRef spec0 2) (ix2 j k)) (fun k => V c (Pipeline.arrRef spec0 3) (ix2 0 k))
    (fun k q => V c (Pipeline.arrRef spec0 4) (ix2 k q)) (fun q => V c (Pipeline.arrRef spec0 5) (ix2 0 q))

/-- The block indices at grid point t: the node arrays and the output move to row block t, the weights and
    biases stay at block 0. -/
theorem block_index0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Entry (p, k) of the block of window 0 at point t is entry (4000 t + p, k) of its array. -/
theorem read0_0 (c : Dev nD) (t : Fin cfg0.N) (p : Fin 4000) (k : Fin 128) (n : Fin 100000)
    (hn : n.val = t.val * 4000 + p.val) :
    Gen.iblk0 V c 0 t (ix2 p k) = V c (Pipeline.arrRef spec0 0) (ix2 n k) := by
  obtain ⟨e0, e1⟩ : win0_0.index t (0 : Fin 2) = t.val ∧ win0_0.index t (1 : Fin 2) = 0 := ⟨(block_index0 t).1, (block_index0 t).2.1⟩
  show V c (Pipeline.arrRef spec0 0) (((cfg0.win 0).blk t).view.emb (ix2 p k)) = _
  congr 1; funext a; apply Fin.ext
  match a with
  | ⟨0, _⟩ => show win0_0.index t (0 : Fin 2) * 4000 + 1 * p.val = n.val; omega
  | ⟨1, _⟩ => show win0_0.index t (1 : Fin 2) * 128 + 1 * k.val = k.val; omega

/-- Entry (p, k) of the block of window 1 at point t is entry (4000 t + p, k) of its array. -/
theorem read0_1 (c : Dev nD) (t : Fin cfg0.N) (p : Fin 4000) (k : Fin 128) (n : Fin 100000)
    (hn : n.val = t.val * 4000 + p.val) :
    Gen.iblk0 V c 1 t (ix2 p k) = V c (Pipeline.arrRef spec0 1) (ix2 n k) := by
  obtain ⟨e0, e1⟩ : win0_1.index t (0 : Fin 2) = t.val ∧ win0_1.index t (1 : Fin 2) = 0 := ⟨(block_index0 t).2.2.1, (block_index0 t).2.2.2.1⟩
  show V c (Pipeline.arrRef spec0 1) (((cfg0.win 1).blk t).view.emb (ix2 p k)) = _
  congr 1; funext a; apply Fin.ext
  match a with
  | ⟨0, _⟩ => show win0_1.index t (0 : Fin 2) * 4000 + 1 * p.val = n.val; omega
  | ⟨1, _⟩ => show win0_1.index t (1 : Fin 2) * 128 + 1 * k.val = k.val; omega

/-- The block of window 2 at any point is the whole of its array. -/
theorem read0_2 (c : Dev nD) (t : Fin cfg0.N) (j : Fin 128) (k : Fin 128) :
    Gen.iblk0 V c 2 t (ix2 j k) = V c (Pipeline.arrRef spec0 2) (ix2 j k) := by
  obtain ⟨e0, e1⟩ : win0_2.index t (0 : Fin 2) = 0 ∧ win0_2.index t (1 : Fin 2) = 0 := ⟨(block_index0 t).2.2.2.2.1, (block_index0 t).2.2.2.2.2.1⟩
  show V c (Pipeline.arrRef spec0 2) (((cfg0.win 2).blk t).view.emb (ix2 j k)) = _
  congr 1; funext a; apply Fin.ext
  match a with
  | ⟨0, _⟩ => show win0_2.index t (0 : Fin 2) * 128 + 1 * j.val = j.val; omega
  | ⟨1, _⟩ => show win0_2.index t (1 : Fin 2) * 128 + 1 * k.val = k.val; omega

/-- The block of window 3 at any point is the whole of its one-row array. -/
theorem read0_3 (c : Dev nD) (t : Fin cfg0.N) (k : Fin 128) :
    Gen.iblk0 V c 3 t (ix2 0 k) = V c (Pipeline.arrRef spec0 3) (ix2 0 k) := by
  obtain ⟨e0, e1⟩ : win0_3.index t (0 : Fin 2) = 0 ∧ win0_3.index t (1 : Fin 2) = 0 := ⟨(block_index0 t).2.2.2.2.2.2.1, (block_index0 t).2.2.2.2.2.2.2.1⟩
  show V c (Pipeline.arrRef spec0 3) (((cfg0.win 3).blk t).view.emb (ix2 (0 : Fin 1) k)) = _
  congr 1; funext a; apply Fin.ext
  match a with
  | ⟨0, _⟩ => show win0_3.index t (0 : Fin 2) * 1 + 1 * 0 = 0; omega
  | ⟨1, _⟩ => show win0_3.index t (1 : Fin 2) * 128 + 1 * k.val = k.val; omega

/-- The block of window 4 at any point is the whole of its array. -/
theorem read0_4 (c : Dev nD) (t : Fin cfg0.N) (j : Fin 128) (k : Fin 128) :
    Gen.iblk0 V c 4 t (ix2 j k) = V c (Pipeline.arrRef spec0 4) (ix2 j k) := by
  obtain ⟨e0, e1⟩ : win0_4.index t (0 : Fin 2) = 0 ∧ win0_4.index t (1 : Fin 2) = 0 := ⟨(block_index0 t).2.2.2.2.2.2.2.2.1, (block_index0 t).2.2.2.2.2.2.2.2.2.1⟩
  show V c (Pipeline.arrRef spec0 4) (((cfg0.win 4).blk t).view.emb (ix2 j k)) = _
  congr 1; funext a; apply Fin.ext
  match a with
  | ⟨0, _⟩ => show win0_4.index t (0 : Fin 2) * 128 + 1 * j.val = j.val; omega
  | ⟨1, _⟩ => show win0_4.index t (1 : Fin 2) * 128 + 1 * k.val = k.val; omega

/-- The block of window 5 at any point is the whole of its one-row array. -/
theorem read0_5 (c : Dev nD) (t : Fin cfg0.N) (k : Fin 128) :
    Gen.iblk0 V c 5 t (ix2 0 k) = V c (Pipeline.arrRef spec0 5) (ix2 0 k) := by
  obtain ⟨e0, e1⟩ : win0_5.index t (0 : Fin 2) = 0 ∧ win0_5.index t (1 : Fin 2) = 0 := ⟨(block_index0 t).2.2.2.2.2.2.2.2.2.2.1, (block_index0 t).2.2.2.2.2.2.2.2.2.2.2.1⟩
  show V c (Pipeline.arrRef spec0 5) (((cfg0.win 5).blk t).view.emb (ix2 (0 : Fin 1) k)) = _
  congr 1; funext a; apply Fin.ext
  match a with
  | ⟨0, _⟩ => show win0_5.index t (0 : Fin 2) * 1 + 1 * 0 = 0; omega
  | ⟨1, _⟩ => show win0_5.index t (1 : Fin 2) * 128 + 1 * k.val = k.val; omega

/-- What point t writes back is block t of the layer. -/
theorem flushed0_eq (c : Dev nD) (t : Fin cfg0.N) :
    (Gen.dat0 (F := Ideal) V c).flushed 6 t = ((cfg0.win 6).blk t).view.read (Elt Ideal) (layer0 V c) := by
  show (cfg0.win 6).cut (grid0.coords t) ((Gen.dat0 (F := Ideal) V c).after 6 t) = _
  rw [Gen.after0_6]
  obtain ⟨e60, e61⟩ : win0_6.index t (0 : Fin 2) = t.val ∧ win0_6.index t (1 : Fin 2) = 0 := ⟨(block_index0 t).2.2.2.2.2.2.2.2.2.2.2.2.1, (block_index0 t).2.2.2.2.2.2.2.2.2.2.2.2.2⟩
  have ht : t.val < 25 := lt_of_lt_of_eq t.isLt Gen.N_0
  refine funext fun (j : S4000x128.Idx) => ?_
  obtain ⟨p, q, rfl⟩ : ∃ (p : Fin 4000) (q : Fin 128), j = ix2 p q := ⟨j 0, j 1, eq_ix2 j⟩
  have hp : p.val < 4000 := p.isLt
  show Gen.out0_6 (F := Ideal) (Gen.iblk0 V c 0 t) (Gen.iblk0 V c 1 t) (Gen.iblk0 V c 2 t) (Gen.iblk0 V c 3 t)
      (Gen.iblk0 V c 4 t) (Gen.iblk0 V c 5 t) (ix2 p q)
    = layer0 V c (((cfg0.win 6).blk t).view.emb (ix2 p q))
  have hrow : ((cfg0.win 6).blk t).view.emb (ix2 p q) = ix2 (⟨t.val * 4000 + p.val, by omega⟩ : Fin 100000) q := by
    funext a; apply Fin.ext
    match a with
    | ⟨0, _⟩ => show win0_6.index t (0 : Fin 2) * 4000 + 1 * p.val = t.val * 4000 + p.val; omega
    | ⟨1, _⟩ => show win0_6.index t (1 : Fin 2) * 128 + 1 * q.val = q.val; omega
  rw [hrow, out0_6_apply]
  refine Eq.trans ?_ (Cert.Gin.layer_apply _ _ _ _ _ _ _ _).symm
  simp only [read0_0 V c t p _ ⟨t.val * 4000 + p.val, by omega⟩ rfl, read0_1 V c t p _ ⟨t.val * 4000 + p.val, by omega⟩ rfl,
    read0_2 V c t, read0_3 V c t, read0_4 V c t, read0_5 V c t]

/-- An index of the array is in point t's block iff each coordinate is in the block's range on its axis. -/
theorem mem_blk0 (t : Fin cfg0.N) (i : S100000x128.Idx) :
    i ∈ ((cfg0.win 6).blk t).view.set ↔ ∀ a : Fin 2, win0_6.index t a * S4000x128.size a ≤ (i a).val
      ∧ (i a).val < win0_6.index t a * S4000x128.size a + S4000x128.size a := by
  show i ∈ ((View.whole main_v24).slice (win0_6.rect t)).set ↔ _
  rw [View.set_slice_whole, Rect.mem_set_unit]
  exact Iff.rfl

/-- Row r lies in the block of point r / 4000. -/
theorem cover0 (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have hN : cfg0.N = 25 := Gen.N_0
  let t : Fin cfg0.N := ⟨(i 0).val / 4000, by rw [hN]; omega⟩
  have htv : t.val = (i 0).val / 4000 := rfl
  obtain ⟨e60, e61⟩ : win0_6.index t (0 : Fin 2) = t.val ∧ win0_6.index t (1 : Fin 2) = 0 := ⟨(block_index0 t).2.2.2.2.2.2.2.2.2.2.2.2.1, (block_index0 t).2.2.2.2.2.2.2.2.2.2.2.2.2⟩
  refine ⟨t, Gen.flush0_6 t, ?_⟩
  rw [mem_blk0]
  intro a
  match a with
  | ⟨0, _⟩ =>
    show win0_6.index t (0 : Fin 2) * 4000 ≤ (i 0).val ∧ (i 0).val < win0_6.index t (0 : Fin 2) * 4000 + 4000
    omega
  | ⟨1, _⟩ =>
    show win0_6.index t (1 : Fin 2) * 128 ≤ (i 1).val ∧ (i 1).val < win0_6.index t (1 : Fin 2) * 128 + 128
    omega

/-- The output array of region 0 ends holding the layer of the arrays the region finds on entry. -/
theorem arr0 (c : Dev nD) :
    (Gen.dat0 (F := Ideal) V c).arrAt 6 cfg0.N
      = Cert.Gin.layer (V c (Pipeline.arrRef spec0 0)) (V c (Pipeline.arrRef spec0 1))
          (fun j k => V c (Pipeline.arrRef spec0 2) (ix2 j k)) (fun k => V c (Pipeline.arrRef spec0 3) (ix2 0 k))
          (fun k q => V c (Pipeline.arrRef spec0 4) (ix2 k q)) (fun q => V c (Pipeline.arrRef spec0 5) (ix2 0 q)) :=
  (Gen.dat0 (F := Ideal) V c).arrAt_eq_of_cover 6 (layer0 V c) (fun t _ => flushed0_eq V c t) (cover0)

/-! ## Perceptron region 1 -/

/-- The layer of the network on the arrays region 1 finds on entry. -/
abbrev layer1 (c : Dev nD) : S100000x128.Idx → EReal :=
  Cert.Gin.layer (V c (Pipeline.arrRef spec1 0)) (V c (Pipeline.arrRef spec1 1))
    (fun j k => V c (Pipeline.arrRef spec1 2) (ix2 j k)) (fun k => V c (Pipeline.arrRef spec1 3) (ix2 0 k))
    (fun k q => V c (Pipeline.arrRef spec1 4) (ix2 k q)) (fun q => V c (Pipeline.arrRef spec1 5) (ix2 0 q))

/-- The block indices at grid point t: the node arrays and the output move to row block t, the weights and
    biases stay at block 0. -/
theorem block_index1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Entry (p, k) of the block of window 0 at point t is entry (4000 t + p, k) of its array. -/
theorem read1_0 (c : Dev nD) (t : Fin cfg1.N) (p : Fin 4000) (k : Fin 128) (n : Fin 100000)
    (hn : n.val = t.val * 4000 + p.val) :
    Gen.iblk1 V c 0 t (ix2 p k) = V c (Pipeline.arrRef spec1 0) (ix2 n k) := by
  obtain ⟨e0, e1⟩ : win1_0.index t (0 : Fin 2) = t.val ∧ win1_0.index t (1 : Fin 2) = 0 := ⟨(block_index1 t).1, (block_index1 t).2.1⟩
  show V c (Pipeline.arrRef spec1 0) (((cfg1.win 0).blk t).view.emb (ix2 p k)) = _
  congr 1; funext a; apply Fin.ext
  match a with
  | ⟨0, _⟩ => show win1_0.index t (0 : Fin 2) * 4000 + 1 * p.val = n.val; omega
  | ⟨1, _⟩ => show win1_0.index t (1 : Fin 2) * 128 + 1 * k.val = k.val; omega

/-- Entry (p, k) of the block of window 1 at point t is entry (4000 t + p, k) of its array. -/
theorem read1_1 (c : Dev nD) (t : Fin cfg1.N) (p : Fin 4000) (k : Fin 128) (n : Fin 100000)
    (hn : n.val = t.val * 4000 + p.val) :
    Gen.iblk1 V c 1 t (ix2 p k) = V c (Pipeline.arrRef spec1 1) (ix2 n k) := by
  obtain ⟨e0, e1⟩ : win1_1.index t (0 : Fin 2) = t.val ∧ win1_1.index t (1 : Fin 2) = 0 := ⟨(block_index1 t).2.2.1, (block_index1 t).2.2.2.1⟩
  show V c (Pipeline.arrRef spec1 1) (((cfg1.win 1).blk t).view.emb (ix2 p k)) = _
  congr 1; funext a; apply Fin.ext
  match a with
  | ⟨0, _⟩ => show win1_1.index t (0 : Fin 2) * 4000 + 1 * p.val = n.val; omega
  | ⟨1, _⟩ => show win1_1.index t (1 : Fin 2) * 128 + 1 * k.val = k.val; omega

/-- The block of window 2 at any point is the whole of its array. -/
theorem read1_2 (c : Dev nD) (t : Fin cfg1.N) (j : Fin 128) (k : Fin 128) :
    Gen.iblk1 V c 2 t (ix2 j k) = V c (Pipeline.arrRef spec1 2) (ix2 j k) := by
  obtain ⟨e0, e1⟩ : win1_2.index t (0 : Fin 2) = 0 ∧ win1_2.index t (1 : Fin 2) = 0 := ⟨(block_index1 t).2.2.2.2.1, (block_index1 t).2.2.2.2.2.1⟩
  show V c (Pipeline.arrRef spec1 2) (((cfg1.win 2).blk t).view.emb (ix2 j k)) = _
  congr 1; funext a; apply Fin.ext
  match a with
  | ⟨0, _⟩ => show win1_2.index t (0 : Fin 2) * 128 + 1 * j.val = j.val; omega
  | ⟨1, _⟩ => show win1_2.index t (1 : Fin 2) * 128 + 1 * k.val = k.val; omega

/-- The block of window 3 at any point is the whole of its one-row array. -/
theorem read1_3 (c : Dev nD) (t : Fin cfg1.N) (k : Fin 128) :
    Gen.iblk1 V c 3 t (ix2 0 k) = V c (Pipeline.arrRef spec1 3) (ix2 0 k) := by
  obtain ⟨e0, e1⟩ : win1_3.index t (0 : Fin 2) = 0 ∧ win1_3.index t (1 : Fin 2) = 0 := ⟨(block_index1 t).2.2.2.2.2.2.1, (block_index1 t).2.2.2.2.2.2.2.1⟩
  show V c (Pipeline.arrRef spec1 3) (((cfg1.win 3).blk t).view.emb (ix2 (0 : Fin 1) k)) = _
  congr 1; funext a; apply Fin.ext
  match a with
  | ⟨0, _⟩ => show win1_3.index t (0 : Fin 2) * 1 + 1 * 0 = 0; omega
  | ⟨1, _⟩ => show win1_3.index t (1 : Fin 2) * 128 + 1 * k.val = k.val; omega

/-- The block of window 4 at any point is the whole of its array. -/
theorem read1_4 (c : Dev nD) (t : Fin cfg1.N) (j : Fin 128) (k : Fin 128) :
    Gen.iblk1 V c 4 t (ix2 j k) = V c (Pipeline.arrRef spec1 4) (ix2 j k) := by
  obtain ⟨e0, e1⟩ : win1_4.index t (0 : Fin 2) = 0 ∧ win1_4.index t (1 : Fin 2) = 0 := ⟨(block_index1 t).2.2.2.2.2.2.2.2.1, (block_index1 t).2.2.2.2.2.2.2.2.2.1⟩
  show V c (Pipeline.arrRef spec1 4) (((cfg1.win 4).blk t).view.emb (ix2 j k)) = _
  congr 1; funext a; apply Fin.ext
  match a with
  | ⟨0, _⟩ => show win1_4.index t (0 : Fin 2) * 128 + 1 * j.val = j.val; omega
  | ⟨1, _⟩ => show win1_4.index t (1 : Fin 2) * 128 + 1 * k.val = k.val; omega

/-- The block of window 5 at any point is the whole of its one-row array. -/
theorem read1_5 (c : Dev nD) (t : Fin cfg1.N) (k : Fin 128) :
    Gen.iblk1 V c 5 t (ix2 0 k) = V c (Pipeline.arrRef spec1 5) (ix2 0 k) := by
  obtain ⟨e0, e1⟩ : win1_5.index t (0 : Fin 2) = 0 ∧ win1_5.index t (1 : Fin 2) = 0 := ⟨(block_index1 t).2.2.2.2.2.2.2.2.2.2.1, (block_index1 t).2.2.2.2.2.2.2.2.2.2.2.1⟩
  show V c (Pipeline.arrRef spec1 5) (((cfg1.win 5).blk t).view.emb (ix2 (0 : Fin 1) k)) = _
  congr 1; funext a; apply Fin.ext
  match a with
  | ⟨0, _⟩ => show win1_5.index t (0 : Fin 2) * 1 + 1 * 0 = 0; omega
  | ⟨1, _⟩ => show win1_5.index t (1 : Fin 2) * 128 + 1 * k.val = k.val; omega

/-- What point t writes back is block t of the layer. -/
theorem flushed1_eq (c : Dev nD) (t : Fin cfg1.N) :
    (Gen.dat1 (F := Ideal) V c).flushed 6 t = ((cfg1.win 6).blk t).view.read (Elt Ideal) (layer1 V c) := by
  show (cfg1.win 6).cut (grid1.coords t) ((Gen.dat1 (F := Ideal) V c).after 6 t) = _
  rw [Gen.after1_6]
  obtain ⟨e60, e61⟩ : win1_6.index t (0 : Fin 2) = t.val ∧ win1_6.index t (1 : Fin 2) = 0 := ⟨(block_index1 t).2.2.2.2.2.2.2.2.2.2.2.2.1, (block_index1 t).2.2.2.2.2.2.2.2.2.2.2.2.2⟩
  have ht : t.val < 25 := lt_of_lt_of_eq t.isLt Gen.N_1
  refine funext fun (j : S4000x128.Idx) => ?_
  obtain ⟨p, q, rfl⟩ : ∃ (p : Fin 4000) (q : Fin 128), j = ix2 p q := ⟨j 0, j 1, eq_ix2 j⟩
  have hp : p.val < 4000 := p.isLt
  show Gen.out1_6 (F := Ideal) (Gen.iblk1 V c 0 t) (Gen.iblk1 V c 1 t) (Gen.iblk1 V c 2 t) (Gen.iblk1 V c 3 t)
      (Gen.iblk1 V c 4 t) (Gen.iblk1 V c 5 t) (ix2 p q)
    = layer1 V c (((cfg1.win 6).blk t).view.emb (ix2 p q))
  have hrow : ((cfg1.win 6).blk t).view.emb (ix2 p q) = ix2 (⟨t.val * 4000 + p.val, by omega⟩ : Fin 100000) q := by
    funext a; apply Fin.ext
    match a with
    | ⟨0, _⟩ => show win1_6.index t (0 : Fin 2) * 4000 + 1 * p.val = t.val * 4000 + p.val; omega
    | ⟨1, _⟩ => show win1_6.index t (1 : Fin 2) * 128 + 1 * q.val = q.val; omega
  rw [hrow, out1_6_apply]
  refine Eq.trans ?_ (Cert.Gin.layer_apply _ _ _ _ _ _ _ _).symm
  simp only [read1_0 V c t p _ ⟨t.val * 4000 + p.val, by omega⟩ rfl, read1_1 V c t p _ ⟨t.val * 4000 + p.val, by omega⟩ rfl,
    read1_2 V c t, read1_3 V c t, read1_4 V c t, read1_5 V c t]

/-- An index of the array is in point t's block iff each coordinate is in the block's range on its axis. -/
theorem mem_blk1 (t : Fin cfg1.N) (i : S100000x128.Idx) :
    i ∈ ((cfg1.win 6).blk t).view.set ↔ ∀ a : Fin 2, win1_6.index t a * S4000x128.size a ≤ (i a).val
      ∧ (i a).val < win1_6.index t a * S4000x128.size a + S4000x128.size a := by
  show i ∈ ((View.whole main_v45).slice (win1_6.rect t)).set ↔ _
  rw [View.set_slice_whole, Rect.mem_set_unit]
  exact Iff.rfl

/-- Row r lies in the block of point r / 4000. -/
theorem cover1 (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  have hN : cfg1.N = 25 := Gen.N_1
  let t : Fin cfg1.N := ⟨(i 0).val / 4000, by rw [hN]; omega⟩
  have htv : t.val = (i 0).val / 4000 := rfl
  obtain ⟨e60, e61⟩ : win1_6.index t (0 : Fin 2) = t.val ∧ win1_6.index t (1 : Fin 2) = 0 := ⟨(block_index1 t).2.2.2.2.2.2.2.2.2.2.2.2.1, (block_index1 t).2.2.2.2.2.2.2.2.2.2.2.2.2⟩
  refine ⟨t, Gen.flush1_6 t, ?_⟩
  rw [mem_blk1]
  intro a
  match a with
  | ⟨0, _⟩ =>
    show win1_6.index t (0 : Fin 2) * 4000 ≤ (i 0).val ∧ (i 0).val < win1_6.index t (0 : Fin 2) * 4000 + 4000
    omega
  | ⟨1, _⟩ =>
    show win1_6.index t (1 : Fin 2) * 128 ≤ (i 1).val ∧ (i 1).val < win1_6.index t (1 : Fin 2) * 128 + 128
    omega

/-- The output array of region 1 ends holding the layer of the arrays the region finds on entry. -/
theorem arr1 (c : Dev nD) :
    (Gen.dat1 (F := Ideal) V c).arrAt 6 cfg1.N
      = Cert.Gin.layer (V c (Pipeline.arrRef spec1 0)) (V c (Pipeline.arrRef spec1 1))
          (fun j k => V c (Pipeline.arrRef spec1 2) (ix2 j k)) (fun k => V c (Pipeline.arrRef spec1 3) (ix2 0 k))
          (fun k q => V c (Pipeline.arrRef spec1 4) (ix2 k q)) (fun q => V c (Pipeline.arrRef spec1 5) (ix2 0 q)) :=
  (Gen.dat1 (F := Ideal) V c).arrAt_eq_of_cover 6 (layer1 V c) (fun t _ => flushed1_eq V c t) (cover1)

/-! ## Perceptron region 2 -/

/-- The layer of the network on the arrays region 2 finds on entry. -/
abbrev layer2 (c : Dev nD) : S100000x128.Idx → EReal :=
  Cert.Gin.layer (V c (Pipeline.arrRef spec2 0)) (V c (Pipeline.arrRef spec2 1))
    (fun j k => V c (Pipeline.arrRef spec2 2) (ix2 j k)) (fun k => V c (Pipeline.arrRef spec2 3) (ix2 0 k))
    (fun k q => V c (Pipeline.arrRef spec2 4) (ix2 k q)) (fun q => V c (Pipeline.arrRef spec2 5) (ix2 0 q))

/-- The block indices at grid point t: the node arrays and the output move to row block t, the weights and
    biases stay at block 0. -/
theorem block_index2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- Entry (p, k) of the block of window 0 at point t is entry (4000 t + p, k) of its array. -/
theorem read2_0 (c : Dev nD) (t : Fin cfg2.N) (p : Fin 4000) (k : Fin 128) (n : Fin 100000)
    (hn : n.val = t.val * 4000 + p.val) :
    Gen.iblk2 V c 0 t (ix2 p k) = V c (Pipeline.arrRef spec2 0) (ix2 n k) := by
  obtain ⟨e0, e1⟩ : win2_0.index t (0 : Fin 2) = t.val ∧ win2_0.index t (1 : Fin 2) = 0 := ⟨(block_index2 t).1, (block_index2 t).2.1⟩
  show V c (Pipeline.arrRef spec2 0) (((cfg2.win 0).blk t).view.emb (ix2 p k)) = _
  congr 1; funext a; apply Fin.ext
  match a with
  | ⟨0, _⟩ => show win2_0.index t (0 : Fin 2) * 4000 + 1 * p.val = n.val; omega
  | ⟨1, _⟩ => show win2_0.index t (1 : Fin 2) * 128 + 1 * k.val = k.val; omega

/-- Entry (p, k) of the block of window 1 at point t is entry (4000 t + p, k) of its array. -/
theorem read2_1 (c : Dev nD) (t : Fin cfg2.N) (p : Fin 4000) (k : Fin 128) (n : Fin 100000)
    (hn : n.val = t.val * 4000 + p.val) :
    Gen.iblk2 V c 1 t (ix2 p k) = V c (Pipeline.arrRef spec2 1) (ix2 n k) := by
  obtain ⟨e0, e1⟩ : win2_1.index t (0 : Fin 2) = t.val ∧ win2_1.index t (1 : Fin 2) = 0 := ⟨(block_index2 t).2.2.1, (block_index2 t).2.2.2.1⟩
  show V c (Pipeline.arrRef spec2 1) (((cfg2.win 1).blk t).view.emb (ix2 p k)) = _
  congr 1; funext a; apply Fin.ext
  match a with
  | ⟨0, _⟩ => show win2_1.index t (0 : Fin 2) * 4000 + 1 * p.val = n.val; omega
  | ⟨1, _⟩ => show win2_1.index t (1 : Fin 2) * 128 + 1 * k.val = k.val; omega

/-- The block of window 2 at any point is the whole of its array. -/
theorem read2_2 (c : Dev nD) (t : Fin cfg2.N) (j : Fin 128) (k : Fin 128) :
    Gen.iblk2 V c 2 t (ix2 j k) = V c (Pipeline.arrRef spec2 2) (ix2 j k) := by
  obtain ⟨e0, e1⟩ : win2_2.index t (0 : Fin 2) = 0 ∧ win2_2.index t (1 : Fin 2) = 0 := ⟨(block_index2 t).2.2.2.2.1, (block_index2 t).2.2.2.2.2.1⟩
  show V c (Pipeline.arrRef spec2 2) (((cfg2.win 2).blk t).view.emb (ix2 j k)) = _
  congr 1; funext a; apply Fin.ext
  match a with
  | ⟨0, _⟩ => show win2_2.index t (0 : Fin 2) * 128 + 1 * j.val = j.val; omega
  | ⟨1, _⟩ => show win2_2.index t (1 : Fin 2) * 128 + 1 * k.val = k.val; omega

/-- The block of window 3 at any point is the whole of its one-row array. -/
theorem read2_3 (c : Dev nD) (t : Fin cfg2.N) (k : Fin 128) :
    Gen.iblk2 V c 3 t (ix2 0 k) = V c (Pipeline.arrRef spec2 3) (ix2 0 k) := by
  obtain ⟨e0, e1⟩ : win2_3.index t (0 : Fin 2) = 0 ∧ win2_3.index t (1 : Fin 2) = 0 := ⟨(block_index2 t).2.2.2.2.2.2.1, (block_index2 t).2.2.2.2.2.2.2.1⟩
  show V c (Pipeline.arrRef spec2 3) (((cfg2.win 3).blk t).view.emb (ix2 (0 : Fin 1) k)) = _
  congr 1; funext a; apply Fin.ext
  match a with
  | ⟨0, _⟩ => show win2_3.index t (0 : Fin 2) * 1 + 1 * 0 = 0; omega
  | ⟨1, _⟩ => show win2_3.index t (1 : Fin 2) * 128 + 1 * k.val = k.val; omega

/-- The block of window 4 at any point is the whole of its array. -/
theorem read2_4 (c : Dev nD) (t : Fin cfg2.N) (j : Fin 128) (k : Fin 128) :
    Gen.iblk2 V c 4 t (ix2 j k) = V c (Pipeline.arrRef spec2 4) (ix2 j k) := by
  obtain ⟨e0, e1⟩ : win2_4.index t (0 : Fin 2) = 0 ∧ win2_4.index t (1 : Fin 2) = 0 := ⟨(block_index2 t).2.2.2.2.2.2.2.2.1, (block_index2 t).2.2.2.2.2.2.2.2.2.1⟩
  show V c (Pipeline.arrRef spec2 4) (((cfg2.win 4).blk t).view.emb (ix2 j k)) = _
  congr 1; funext a; apply Fin.ext
  match a with
  | ⟨0, _⟩ => show win2_4.index t (0 : Fin 2) * 128 + 1 * j.val = j.val; omega
  | ⟨1, _⟩ => show win2_4.index t (1 : Fin 2) * 128 + 1 * k.val = k.val; omega

/-- The block of window 5 at any point is the whole of its one-row array. -/
theorem read2_5 (c : Dev nD) (t : Fin cfg2.N) (k : Fin 128) :
    Gen.iblk2 V c 5 t (ix2 0 k) = V c (Pipeline.arrRef spec2 5) (ix2 0 k) := by
  obtain ⟨e0, e1⟩ : win2_5.index t (0 : Fin 2) = 0 ∧ win2_5.index t (1 : Fin 2) = 0 := ⟨(block_index2 t).2.2.2.2.2.2.2.2.2.2.1, (block_index2 t).2.2.2.2.2.2.2.2.2.2.2.1⟩
  show V c (Pipeline.arrRef spec2 5) (((cfg2.win 5).blk t).view.emb (ix2 (0 : Fin 1) k)) = _
  congr 1; funext a; apply Fin.ext
  match a with
  | ⟨0, _⟩ => show win2_5.index t (0 : Fin 2) * 1 + 1 * 0 = 0; omega
  | ⟨1, _⟩ => show win2_5.index t (1 : Fin 2) * 128 + 1 * k.val = k.val; omega

/-- What point t writes back is block t of the layer. -/
theorem flushed2_eq (c : Dev nD) (t : Fin cfg2.N) :
    (Gen.dat2 (F := Ideal) V c).flushed 6 t = ((cfg2.win 6).blk t).view.read (Elt Ideal) (layer2 V c) := by
  show (cfg2.win 6).cut (grid2.coords t) ((Gen.dat2 (F := Ideal) V c).after 6 t) = _
  rw [Gen.after2_6]
  obtain ⟨e60, e61⟩ : win2_6.index t (0 : Fin 2) = t.val ∧ win2_6.index t (1 : Fin 2) = 0 := ⟨(block_index2 t).2.2.2.2.2.2.2.2.2.2.2.2.1, (block_index2 t).2.2.2.2.2.2.2.2.2.2.2.2.2⟩
  have ht : t.val < 25 := lt_of_lt_of_eq t.isLt Gen.N_2
  refine funext fun (j : S4000x128.Idx) => ?_
  obtain ⟨p, q, rfl⟩ : ∃ (p : Fin 4000) (q : Fin 128), j = ix2 p q := ⟨j 0, j 1, eq_ix2 j⟩
  have hp : p.val < 4000 := p.isLt
  show Gen.out2_6 (F := Ideal) (Gen.iblk2 V c 0 t) (Gen.iblk2 V c 1 t) (Gen.iblk2 V c 2 t) (Gen.iblk2 V c 3 t)
      (Gen.iblk2 V c 4 t) (Gen.iblk2 V c 5 t) (ix2 p q)
    = layer2 V c (((cfg2.win 6).blk t).view.emb (ix2 p q))
  have hrow : ((cfg2.win 6).blk t).view.emb (ix2 p q) = ix2 (⟨t.val * 4000 + p.val, by omega⟩ : Fin 100000) q := by
    funext a; apply Fin.ext
    match a with
    | ⟨0, _⟩ => show win2_6.index t (0 : Fin 2) * 4000 + 1 * p.val = t.val * 4000 + p.val; omega
    | ⟨1, _⟩ => show win2_6.index t (1 : Fin 2) * 128 + 1 * q.val = q.val; omega
  rw [hrow, out2_6_apply]
  refine Eq.trans ?_ (Cert.Gin.layer_apply _ _ _ _ _ _ _ _).symm
  simp only [read2_0 V c t p _ ⟨t.val * 4000 + p.val, by omega⟩ rfl, read2_1 V c t p _ ⟨t.val * 4000 + p.val, by omega⟩ rfl,
    read2_2 V c t, read2_3 V c t, read2_4 V c t, read2_5 V c t]

/-- An index of the array is in point t's block iff each coordinate is in the block's range on its axis. -/
theorem mem_blk2 (t : Fin cfg2.N) (i : S100000x128.Idx) :
    i ∈ ((cfg2.win 6).blk t).view.set ↔ ∀ a : Fin 2, win2_6.index t a * S4000x128.size a ≤ (i a).val
      ∧ (i a).val < win2_6.index t a * S4000x128.size a + S4000x128.size a := by
  show i ∈ ((View.whole main_v66).slice (win2_6.rect t)).set ↔ _
  rw [View.set_slice_whole, Rect.mem_set_unit]
  exact Iff.rfl

/-- Row r lies in the block of point r / 4000. -/
theorem cover2 (i : S100000x128.Idx) :
    ∃ t : Fin cfg2.N, (cfg2.win 6).flush t = true ∧ i ∈ ((cfg2.win 6).blk t).view.set := by
  have hi0 : (i 0).val < 100000 := (i 0).isLt
  have hi1 : (i 1).val < 128 := (i 1).isLt
  have hN : cfg2.N = 25 := Gen.N_2
  let t : Fin cfg2.N := ⟨(i 0).val / 4000, by rw [hN]; omega⟩
  have htv : t.val = (i 0).val / 4000 := rfl
  obtain ⟨e60, e61⟩ : win2_6.index t (0 : Fin 2) = t.val ∧ win2_6.index t (1 : Fin 2) = 0 := ⟨(block_index2 t).2.2.2.2.2.2.2.2.2.2.2.2.1, (block_index2 t).2.2.2.2.2.2.2.2.2.2.2.2.2⟩
  refine ⟨t, Gen.flush2_6 t, ?_⟩
  rw [mem_blk2]
  intro a
  match a with
  | ⟨0, _⟩ =>
    show win2_6.index t (0 : Fin 2) * 4000 ≤ (i 0).val ∧ (i 0).val < win2_6.index t (0 : Fin 2) * 4000 + 4000
    omega
  | ⟨1, _⟩ =>
    show win2_6.index t (1 : Fin 2) * 128 ≤ (i 1).val ∧ (i 1).val < win2_6.index t (1 : Fin 2) * 128 + 128
    omega

/-- The output array of region 2 ends holding the layer of the arrays the region finds on entry. -/
theorem arr2 (c : Dev nD) :
    (Gen.dat2 (F := Ideal) V c).arrAt 6 cfg2.N
      = Cert.Gin.layer (V c (Pipeline.arrRef spec2 0)) (V c (Pipeline.arrRef spec2 1))
          (fun j k => V c (Pipeline.arrRef spec2 2) (ix2 j k)) (fun k => V c (Pipeline.arrRef spec2 3) (ix2 0 k))
          (fun k q => V c (Pipeline.arrRef spec2 4) (ix2 k q)) (fun q => V c (Pipeline.arrRef spec2 5) (ix2 0 q)) :=
  (Gen.dat2 (F := Ideal) V c).arrAt_eq_of_cover 6 (layer2 V c) (fun t _ => flushed2_eq V c t) (cover2)

/-! ## The head region -/

/-- The classification head on the arrays the last region finds on entry. -/
abbrev head3 (c : Dev nD) : S100000x10.Idx → EReal :=
  Cert.Gin.head (V c (Pipeline.arrRef spec3 0)) (fun k q => V c (Pipeline.arrRef spec3 1) (ix2 k q))
    (fun q => V c (Pipeline.arrRef spec3 2) (ix2 0 q))

/-- The block indices at grid point t: the node array and the output move to row block t, the matrix and the
    bias stay at block 0. -/
theorem block_index3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Entry (p, k) of the block of window 0 at point t is entry (4000 t + p, k) of its array. -/
theorem read3_0 (c : Dev nD) (t : Fin cfg3.N) (p : Fin 4000) (k : Fin 128) (n : Fin 100000)
    (hn : n.val = t.val * 4000 + p.val) :
    Gen.iblk3 V c 0 t (ix2 p k) = V c (Pipeline.arrRef spec3 0) (ix2 n k) := by
  obtain ⟨e0, e1⟩ : win3_0.index t (0 : Fin 2) = t.val ∧ win3_0.index t (1 : Fin 2) = 0 := ⟨(block_index3 t).1, (block_index3 t).2.1⟩
  show V c (Pipeline.arrRef spec3 0) (((cfg3.win 0).blk t).view.emb (ix2 p k)) = _
  congr 1; funext a; apply Fin.ext
  match a with
  | ⟨0, _⟩ => show win3_0.index t (0 : Fin 2) * 4000 + 1 * p.val = n.val; omega
  | ⟨1, _⟩ => show win3_0.index t (1 : Fin 2) * 128 + 1 * k.val = k.val; omega

/-- The block of window 1 at any point is the whole of its array. -/
theorem read3_1 (c : Dev nD) (t : Fin cfg3.N) (j : Fin 128) (k : Fin 10) :
    Gen.iblk3 V c 1 t (ix2 j k) = V c (Pipeline.arrRef spec3 1) (ix2 j k) := by
  obtain ⟨e0, e1⟩ : win3_1.index t (0 : Fin 2) = 0 ∧ win3_1.index t (1 : Fin 2) = 0 := ⟨(block_index3 t).2.2.1, (block_index3 t).2.2.2.1⟩
  show V c (Pipeline.arrRef spec3 1) (((cfg3.win 1).blk t).view.emb (ix2 j k)) = _
  congr 1; funext a; apply Fin.ext
  match a with
  | ⟨0, _⟩ => show win3_1.index t (0 : Fin 2) * 128 + 1 * j.val = j.val; omega
  | ⟨1, _⟩ => show win3_1.index t (1 : Fin 2) * 10 + 1 * k.val = k.val; omega

/-- The block of window 2 at any point is the whole of its one-row array. -/
theorem read3_2 (c : Dev nD) (t : Fin cfg3.N) (k : Fin 10) :
    Gen.iblk3 V c 2 t (ix2 0 k) = V c (Pipeline.arrRef spec3 2) (ix2 0 k) := by
  obtain ⟨e0, e1⟩ : win3_2.index t (0 : Fin 2) = 0 ∧ win3_2.index t (1 : Fin 2) = 0 := ⟨(block_index3 t).2.2.2.2.1, (block_index3 t).2.2.2.2.2.1⟩
  show V c (Pipeline.arrRef spec3 2) (((cfg3.win 2).blk t).view.emb (ix2 (0 : Fin 1) k)) = _
  congr 1; funext a; apply Fin.ext
  match a with
  | ⟨0, _⟩ => show win3_2.index t (0 : Fin 2) * 1 + 1 * 0 = 0; omega
  | ⟨1, _⟩ => show win3_2.index t (1 : Fin 2) * 10 + 1 * k.val = k.val; omega

/-- What point t writes back is block t of the head's scores. -/
theorem flushed3_eq (c : Dev nD) (t : Fin cfg3.N) :
    (Gen.dat3 (F := Ideal) V c).flushed 3 t = ((cfg3.win 3).blk t).view.read (Elt Ideal) (head3 V c) := by
  show (cfg3.win 3).cut (grid3.coords t) ((Gen.dat3 (F := Ideal) V c).after 3 t) = _
  rw [Gen.after3_3]
  obtain ⟨e30, e31⟩ : win3_3.index t (0 : Fin 2) = t.val ∧ win3_3.index t (1 : Fin 2) = 0 := ⟨(block_index3 t).2.2.2.2.2.2.1, (block_index3 t).2.2.2.2.2.2.2⟩
  have ht : t.val < 25 := lt_of_lt_of_eq t.isLt Gen.N_3
  refine funext fun (j : S4000x10.Idx) => ?_
  obtain ⟨p, q, rfl⟩ : ∃ (p : Fin 4000) (q : Fin 10), j = ix2 p q := ⟨j 0, j 1, eq_ix2 j⟩
  have hp : p.val < 4000 := p.isLt
  show Gen.out3_3 (F := Ideal) (Gen.iblk3 V c 0 t) (Gen.iblk3 V c 1 t) (Gen.iblk3 V c 2 t) (ix2 p q)
    = head3 V c (((cfg3.win 3).blk t).view.emb (ix2 p q))
  have hrow : ((cfg3.win 3).blk t).view.emb (ix2 p q) = ix2 (⟨t.val * 4000 + p.val, by omega⟩ : Fin 100000) q := by
    funext a; apply Fin.ext
    match a with
    | ⟨0, _⟩ => show win3_3.index t (0 : Fin 2) * 4000 + 1 * p.val = t.val * 4000 + p.val; omega
    | ⟨1, _⟩ => show win3_3.index t (1 : Fin 2) * 10 + 1 * q.val = q.val; omega
  rw [hrow, out3_3_apply]
  refine Eq.trans ?_ (Cert.Gin.head_apply _ _ _ _ _).symm
  simp only [read3_0 V c t p _ ⟨t.val * 4000 + p.val, by omega⟩ rfl, read3_1 V c t, read3_2 V c t]

/-- An index of the scores is in point t's block iff each coordinate is in the block's range on its axis. -/
theorem mem_blk3 (t : Fin cfg3.N) (i : S100000x10.Idx) :
    i ∈ ((cfg3.win 3).blk t).view.set ↔ ∀ a : Fin 2, win3_3.index t a * S4000x10.size a ≤ (i a).val
      ∧ (i a).val < win3_3.index t a * S4000x10.size a + S4000x10.size a := by
  show i ∈ ((View.whole main_v68).slice (win3_3.rect t)).set ↔ _
  rw [View.set_slice_whole, Rect.mem_set_unit]
  exact Iff.rfl

/-- Row r lies in the block of point r / 4000. -/
theorem cover3 (i : S100000x10.Idx) :
    ∃ t : Fin cfg3.N, (cfg3.win 3).flush t = true ∧ i ∈ ((cfg3.win 3).blk t).view.set := by
  have hi0 : (i 0).val < 100000 := (i 0).isLt
  have hi1 : (i 1).val < 10 := (i 1).isLt
  have hN : cfg3.N = 25 := Gen.N_3
  let t : Fin cfg3.N := ⟨(i 0).val / 4000, by rw [hN]; omega⟩
  have htv : t.val = (i 0).val / 4000 := rfl
  obtain ⟨e30, e31⟩ : win3_3.index t (0 : Fin 2) = t.val ∧ win3_3.index t (1 : Fin 2) = 0 := ⟨(block_index3 t).2.2.2.2.2.2.1, (block_index3 t).2.2.2.2.2.2.2⟩
  refine ⟨t, Gen.flush3_3 t, ?_⟩
  rw [mem_blk3]
  intro a
  match a with
  | ⟨0, _⟩ =>
    show win3_3.index t (0 : Fin 2) * 4000 ≤ (i 0).val ∧ (i 0).val < win3_3.index t (0 : Fin 2) * 4000 + 4000
    omega
  | ⟨1, _⟩ =>
    show win3_3.index t (1 : Fin 2) * 10 ≤ (i 1).val ∧ (i 1).val < win3_3.index t (1 : Fin 2) * 10 + 10
    omega

/-- The scores array ends holding the head of the arrays the last region finds on entry. -/
theorem arr3 (c : Dev nD) :
    (Gen.dat3 (F := Ideal) V c).arrAt 3 cfg3.N
      = Cert.Gin.head (V c (Pipeline.arrRef spec3 0)) (fun k q => V c (Pipeline.arrRef spec3 1) (ix2 k q))
          (fun q => V c (Pipeline.arrRef spec3 2) (ix2 0 q)) :=
  (Gen.dat3 (F := Ideal) V c).arrAt_eq_of_cover 3 (head3 V c) (fun t _ => flushed3_eq V c t) (cover3)

end Cert.KernelIdeal.GinValue

end
-- ==== Proof.KernelValue.lean ====
/-
  The idealized kernel's result as one function of its arguments.

  Walking the boundary contents from the launch memory: the first stretch of host operations cuts the
  edge list into its two endpoint vectors and the stacked parameters into layer 0's matrices and bias
  rows, and forms the neighbour sums of the input features; region 0 then leaves in its output array
  the layer function of those (row block by row block, together the whole array); the next stretch
  forms the neighbour sums of THAT array and cuts out layer 1's parameters; and so on through three
  layers, after which the last region leaves the classification head of the third layer's features.
  Buffers a stretch or a region does not write are carried along unchanged, which is how the endpoint
  vectors and the stacked parameters reach the later layers.
-/
import proofs.«108478_j44753559224362_1_alg».proof.Proof.Gen.KernelIdeal.Frame
import proofs.«108478_j44753559224362_1_alg».proof.Proof.Spec
import proofs.«108478_j44753559224362_1_alg».proof.Proof.KernelWalk
import proofs.«108478_j44753559224362_1_alg».proof.Proof.KernelBlocks

noncomputable section

namespace Cert.KernelIdeal.GinNet

open Cert.KernelIdeal Cert.KernelIdeal.Gen Cert.KernelIdeal.GinWalk Cert.KernelIdeal.GinValue
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

/-! ## The arguments as launched, and the stages built from them -/

abbrev a0 : (⟨S100000x128, .f32⟩ : BufTy).Contents (Elt Ideal) := m ((c : Thread nD τ).loc main_arg0)
abbrev a1 : (⟨S2x1600000, .i32⟩ : BufTy).Contents (Elt Ideal) := m ((c : Thread nD τ).loc main_arg1)
abbrev a3 : (⟨S3x128x128, .f32⟩ : BufTy).Contents (Elt Ideal) := m ((c : Thread nD τ).loc main_arg3)
abbrev a4 : (⟨S3x128, .f32⟩ : BufTy).Contents (Elt Ideal) := m ((c : Thread nD τ).loc main_arg4)
abbrev a5 : (⟨S3x128x128, .f32⟩ : BufTy).Contents (Elt Ideal) := m ((c : Thread nD τ).loc main_arg5)
abbrev a6 : (⟨S3x128, .f32⟩ : BufTy).Contents (Elt Ideal) := m ((c : Thread nD τ).loc main_arg6)
abbrev a7 : (⟨S128x10, .f32⟩ : BufTy).Contents (Elt Ideal) := m ((c : Thread nD τ).loc main_arg7)
abbrev a8 : (⟨S10, .f32⟩ : BufTy).Contents (Elt Ideal) := m ((c : Thread nD τ).loc main_arg8)

/-- The edges' source endpoints. -/
def srcV : (⟨S1600000, .i32⟩ : BufTy).Contents (Elt Ideal) := endpoints ![0, 0] slices_S2x1600000_S1x1600000_0_0 (a1 m c)
/-- The edges' destination endpoints. -/
def dstV : (⟨S1600000, .i32⟩ : BufTy).Contents (Elt Ideal) := endpoints ![1, 0] slices_S2x1600000_S1x1600000_1_0 (a1 m c)
/-- The features after layer 0. -/
def hid1 : Cert.Gin.Nodes.Idx → EReal := Cert.Gin.layer (a0 m c) (agg (srcV m c) (dstV m c) (a0 m c)) (fun j k => wmat ![0, 0, 0] slices_S3x128x128_S1x128x128_0_0_0 (a3 m c) (ix2 j k)) (fun k => brow ![0, 0] slices_S3x128_S1x128_0_0 (a4 m c) (ix2 0 k)) (fun k q => wmat ![0, 0, 0] slices_S3x128x128_S1x128x128_0_0_0 (a5 m c) (ix2 k q)) (fun q => brow ![0, 0] slices_S3x128_S1x128_0_0 (a6 m c) (ix2 0 q))
/-- The features after layer 1. -/
def hid2 : Cert.Gin.Nodes.Idx → EReal := Cert.Gin.layer (hid1 m c) (agg (srcV m c) (dstV m c) (hid1 m c)) (fun j k => wmat ![1, 0, 0] slices_S3x128x128_S1x128x128_1_0_0 (a3 m c) (ix2 j k)) (fun k => brow ![1, 0] slices_S3x128_S1x128_1_0 (a4 m c) (ix2 0 k)) (fun k q => wmat ![1, 0, 0] slices_S3x128x128_S1x128x128_1_0_0 (a5 m c) (ix2 k q)) (fun q => brow ![1, 0] slices_S3x128_S1x128_1_0 (a6 m c) (ix2 0 q))
/-- The features after layer 2. -/
def hid3 : Cert.Gin.Nodes.Idx → EReal := Cert.Gin.layer (hid2 m c) (agg (srcV m c) (dstV m c) (hid2 m c)) (fun j k => wmat ![2, 0, 0] slices_S3x128x128_S1x128x128_2_0_0 (a3 m c) (ix2 j k)) (fun k => brow ![2, 0] slices_S3x128_S1x128_2_0 (a4 m c) (ix2 0 k)) (fun k q => wmat ![2, 0, 0] slices_S3x128x128_S1x128x128_2_0_0 (a5 m c) (ix2 k q)) (fun q => brow ![2, 0] slices_S3x128_S1x128_2_0 (a6 m c) (ix2 0 q))
/-- The class scores. -/
def outV : Cert.Gin.Scores.Idx → EReal :=
  Cert.Gin.head (hid3 m c) (fun k q => a7 m c (ix2 k q)) (fun q => (shapeCast S1x10 (a8 m c) shapeCasts_S10_S1x10 : (⟨S1x10, .f32⟩ : BufTy).Contents (Elt Ideal)) (ix2 0 q))

/-! ## The contents at each boundary -/

theorem l1_v1 : W1 m ρ c (Proc.devRef .tc main_v1) = srcV m c := h0_v1 _
theorem l1_v3 : W1 m ρ c (Proc.devRef .tc main_v3) = dstV m c := h0_v3 _
theorem l1_a0 : W1 m ρ c (Proc.devRef .tc main_arg0) = a0 m c := k0_arg0 _
theorem l1_v13 : W1 m ρ c (Proc.devRef .tc main_v13) = agg (srcV m c) (dstV m c) (a0 m c) := h0_v13 _
theorem l1_v15 : W1 m ρ c (Proc.devRef .tc main_v15) = wmat ![0, 0, 0] slices_S3x128x128_S1x128x128_0_0_0 (a3 m c) := h0_v15 _
theorem l1_v22 : W1 m ρ c (Proc.devRef .tc main_v22) = brow ![0, 0] slices_S3x128_S1x128_0_0 (a4 m c) := h0_v22 _
theorem l1_v19 : W1 m ρ c (Proc.devRef .tc main_v19) = wmat ![0, 0, 0] slices_S3x128x128_S1x128x128_0_0_0 (a5 m c) := h0_v19 _
theorem l1_v23 : W1 m ρ c (Proc.devRef .tc main_v23) = brow ![0, 0] slices_S3x128_S1x128_0_0 (a6 m c) := h0_v23 _
theorem l1_a3 : W1 m ρ c (Proc.devRef .tc main_arg3) = a3 m c := k0_arg3 _
theorem l1_a4 : W1 m ρ c (Proc.devRef .tc main_arg4) = a4 m c := k0_arg4 _
theorem l1_a5 : W1 m ρ c (Proc.devRef .tc main_arg5) = a5 m c := k0_arg5 _
theorem l1_a6 : W1 m ρ c (Proc.devRef .tc main_arg6) = a6 m c := k0_arg6 _
theorem l1_a7 : W1 m ρ c (Proc.devRef .tc main_arg7) = a7 m c := k0_arg7 _
theorem l1_a8 : W1 m ρ c (Proc.devRef .tc main_arg8) = a8 m c := k0_arg8 _
theorem l2_v24 : W2 m ρ c (Proc.devRef .tc main_v24) = hid1 m c := by
  refine (W2_arr m ρ c 6).trans ?_
  refine (arr0 (V1 m ρ) c).trans ?_
  show Cert.Gin.layer (W1 m ρ c (Proc.devRef .tc main_arg0)) (W1 m ρ c (Proc.devRef .tc main_v13)) (fun j k => W1 m ρ c (Proc.devRef .tc main_v15) (ix2 j k)) (fun k => W1 m ρ c (Proc.devRef .tc main_v22) (ix2 0 k)) (fun k q => W1 m ρ c (Proc.devRef .tc main_v19) (ix2 k q)) (fun q => W1 m ρ c (Proc.devRef .tc main_v23) (ix2 0 q)) = _
  rw [l1_a0, l1_v13, l1_v15, l1_v22, l1_v19, l1_v23]
  rfl
theorem l2_v1 : W2 m ρ c (Proc.devRef .tc main_v1) = srcV m c := (W2_of_ne m ρ c main_v1 (by decide)).trans (l1_v1 m ρ c)
theorem l2_v3 : W2 m ρ c (Proc.devRef .tc main_v3) = dstV m c := (W2_of_ne m ρ c main_v3 (by decide)).trans (l1_v3 m ρ c)
theorem l2_a3 : W2 m ρ c (Proc.devRef .tc main_arg3) = a3 m c := (W2_of_ne m ρ c main_arg3 (by decide)).trans (l1_a3 m ρ c)
theorem l2_a4 : W2 m ρ c (Proc.devRef .tc main_arg4) = a4 m c := (W2_of_ne m ρ c main_arg4 (by decide)).trans (l1_a4 m ρ c)
theorem l2_a5 : W2 m ρ c (Proc.devRef .tc main_arg5) = a5 m c := (W2_of_ne m ρ c main_arg5 (by decide)).trans (l1_a5 m ρ c)
theorem l2_a6 : W2 m ρ c (Proc.devRef .tc main_arg6) = a6 m c := (W2_of_ne m ρ c main_arg6 (by decide)).trans (l1_a6 m ρ c)
theorem l2_a7 : W2 m ρ c (Proc.devRef .tc main_arg7) = a7 m c := (W2_of_ne m ρ c main_arg7 (by decide)).trans (l1_a7 m ρ c)
theorem l2_a8 : W2 m ρ c (Proc.devRef .tc main_arg8) = a8 m c := (W2_of_ne m ρ c main_arg8 (by decide)).trans (l1_a8 m ρ c)
theorem l3_v1 : W3 m ρ c (Proc.devRef .tc main_v1) = srcV m c := (k1_v1 _).trans (l2_v1 m ρ c)
theorem l3_v3 : W3 m ρ c (Proc.devRef .tc main_v3) = dstV m c := (k1_v3 _).trans (l2_v3 m ρ c)
theorem l3_a3 : W3 m ρ c (Proc.devRef .tc main_arg3) = a3 m c := (k1_arg3 _).trans (l2_a3 m ρ c)
theorem l3_a4 : W3 m ρ c (Proc.devRef .tc main_arg4) = a4 m c := (k1_arg4 _).trans (l2_a4 m ρ c)
theorem l3_a5 : W3 m ρ c (Proc.devRef .tc main_arg5) = a5 m c := (k1_arg5 _).trans (l2_a5 m ρ c)
theorem l3_a6 : W3 m ρ c (Proc.devRef .tc main_arg6) = a6 m c := (k1_arg6 _).trans (l2_a6 m ρ c)
theorem l3_a7 : W3 m ρ c (Proc.devRef .tc main_arg7) = a7 m c := (k1_arg7 _).trans (l2_a7 m ρ c)
theorem l3_a8 : W3 m ρ c (Proc.devRef .tc main_arg8) = a8 m c := (k1_arg8 _).trans (l2_a8 m ρ c)
theorem l3_v24 : W3 m ρ c (Proc.devRef .tc main_v24) = hid1 m c := (k1_v24 _).trans (l2_v24 m ρ c)
theorem l3_v34 : W3 m ρ c (Proc.devRef .tc main_v34) = agg (srcV m c) (dstV m c) (hid1 m c) := (h1_v34 _).trans (by rw [l2_v1, l2_v3, l2_v24])
theorem l3_v36 : W3 m ρ c (Proc.devRef .tc main_v36) = wmat ![1, 0, 0] slices_S3x128x128_S1x128x128_1_0_0 (a3 m c) := (h1_v36 _).trans (by rw [l2_a3])
theorem l3_v43 : W3 m ρ c (Proc.devRef .tc main_v43) = brow ![1, 0] slices_S3x128_S1x128_1_0 (a4 m c) := (h1_v43 _).trans (by rw [l2_a4])
theorem l3_v40 : W3 m ρ c (Proc.devRef .tc main_v40) = wmat ![1, 0, 0] slices_S3x128x128_S1x128x128_1_0_0 (a5 m c) := (h1_v40 _).trans (by rw [l2_a5])
theorem l3_v44 : W3 m ρ c (Proc.devRef .tc main_v44) = brow ![1, 0] slices_S3x128_S1x128_1_0 (a6 m c) := (h1_v44 _).trans (by rw [l2_a6])
theorem l4_v45 : W4 m ρ c (Proc.devRef .tc main_v45) = hid2 m c := by
  refine (W4_arr m ρ c 6).trans ?_
  refine (arr1 (V3 m ρ) c).trans ?_
  show Cert.Gin.layer (W3 m ρ c (Proc.devRef .tc main_v24)) (W3 m ρ c (Proc.devRef .tc main_v34)) (fun j k => W3 m ρ c (Proc.devRef .tc main_v36) (ix2 j k)) (fun k => W3 m ρ c (Proc.devRef .tc main_v43) (ix2 0 k)) (fun k q => W3 m ρ c (Proc.devRef .tc main_v40) (ix2 k q)) (fun q => W3 m ρ c (Proc.devRef .tc main_v44) (ix2 0 q)) = _
  rw [l3_v24, l3_v34, l3_v36, l3_v43, l3_v40, l3_v44]
  rfl
theorem l4_v1 : W4 m ρ c (Proc.devRef .tc main_v1) = srcV m c := (W4_of_ne m ρ c main_v1 (by decide)).trans (l3_v1 m ρ c)
theorem l4_v3 : W4 m ρ c (Proc.devRef .tc main_v3) = dstV m c := (W4_of_ne m ρ c main_v3 (by decide)).trans (l3_v3 m ρ c)
theorem l4_a3 : W4 m ρ c (Proc.devRef .tc main_arg3) = a3 m c := (W4_of_ne m ρ c main_arg3 (by decide)).trans (l3_a3 m ρ c)
theorem l4_a4 : W4 m ρ c (Proc.devRef .tc main_arg4) = a4 m c := (W4_of_ne m ρ c main_arg4 (by decide)).trans (l3_a4 m ρ c)
theorem l4_a5 : W4 m ρ c (Proc.devRef .tc main_arg5) = a5 m c := (W4_of_ne m ρ c main_arg5 (by decide)).trans (l3_a5 m ρ c)
theorem l4_a6 : W4 m ρ c (Proc.devRef .tc main_arg6) = a6 m c := (W4_of_ne m ρ c main_arg6 (by decide)).trans (l3_a6 m ρ c)
theorem l4_a7 : W4 m ρ c (Proc.devRef .tc main_arg7) = a7 m c := (W4_of_ne m ρ c main_arg7 (by decide)).trans (l3_a7 m ρ c)
theorem l4_a8 : W4 m ρ c (Proc.devRef .tc main_arg8) = a8 m c := (W4_of_ne m ρ c main_arg8 (by decide)).trans (l3_a8 m ρ c)
theorem l5_v45 : W5 m ρ c (Proc.devRef .tc main_v45) = hid2 m c := (k2_v45 _).trans (l4_v45 m ρ c)
theorem l5_v55 : W5 m ρ c (Proc.devRef .tc main_v55) = agg (srcV m c) (dstV m c) (hid2 m c) := (h2_v55 _).trans (by rw [l4_v1, l4_v3, l4_v45])
theorem l5_v57 : W5 m ρ c (Proc.devRef .tc main_v57) = wmat ![2, 0, 0] slices_S3x128x128_S1x128x128_2_0_0 (a3 m c) := (h2_v57 _).trans (by rw [l4_a3])
theorem l5_v64 : W5 m ρ c (Proc.devRef .tc main_v64) = brow ![2, 0] slices_S3x128_S1x128_2_0 (a4 m c) := (h2_v64 _).trans (by rw [l4_a4])
theorem l5_v61 : W5 m ρ c (Proc.devRef .tc main_v61) = wmat ![2, 0, 0] slices_S3x128x128_S1x128x128_2_0_0 (a5 m c) := (h2_v61 _).trans (by rw [l4_a5])
theorem l5_v65 : W5 m ρ c (Proc.devRef .tc main_v65) = brow ![2, 0] slices_S3x128_S1x128_2_0 (a6 m c) := (h2_v65 _).trans (by rw [l4_a6])
theorem l5_a7 : W5 m ρ c (Proc.devRef .tc main_arg7) = a7 m c := (k2_arg7 _).trans (l4_a7 m ρ c)
theorem l5_a8 : W5 m ρ c (Proc.devRef .tc main_arg8) = a8 m c := (k2_arg8 _).trans (l4_a8 m ρ c)
theorem l6_v66 : W6 m ρ c (Proc.devRef .tc main_v66) = hid3 m c := by
  refine (W6_arr m ρ c 6).trans ?_
  refine (arr2 (V5 m ρ) c).trans ?_
  show Cert.Gin.layer (W5 m ρ c (Proc.devRef .tc main_v45)) (W5 m ρ c (Proc.devRef .tc main_v55)) (fun j k => W5 m ρ c (Proc.devRef .tc main_v57) (ix2 j k)) (fun k => W5 m ρ c (Proc.devRef .tc main_v64) (ix2 0 k)) (fun k q => W5 m ρ c (Proc.devRef .tc main_v61) (ix2 k q)) (fun q => W5 m ρ c (Proc.devRef .tc main_v65) (ix2 0 q)) = _
  rw [l5_v45, l5_v55, l5_v57, l5_v64, l5_v61, l5_v65]
  rfl
theorem l6_a7 : W6 m ρ c (Proc.devRef .tc main_arg7) = a7 m c := (W6_of_ne m ρ c main_arg7 (by decide)).trans (l5_a7 m ρ c)
theorem l6_a8 : W6 m ρ c (Proc.devRef .tc main_arg8) = a8 m c := (W6_of_ne m ρ c main_arg8 (by decide)).trans (l5_a8 m ρ c)
theorem l7_v66 : W7 m ρ c (Proc.devRef .tc main_v66) = hid3 m c := (k3_v66 _).trans (l6_v66 m ρ c)
theorem l7_a7 : W7 m ρ c (Proc.devRef .tc main_arg7) = a7 m c := (k3_arg7 _).trans (l6_a7 m ρ c)
theorem l7_v67 : W7 m ρ c (Proc.devRef .tc main_v67) = (shapeCast S1x10 (a8 m c) shapeCasts_S10_S1x10 : (⟨S1x10, .f32⟩ : BufTy).Contents (Elt Ideal)) := (h3_v67 _).trans (by rw [l6_a8])
theorem l8_v68 : W8 m ρ c (Proc.devRef .tc main_v68) = outV m c := by
  refine (W8_arr m ρ c 3).trans ?_
  refine (arr3 (V7 m ρ) c).trans ?_
  show Cert.Gin.head (W7 m ρ c (Proc.devRef .tc main_v66)) (fun k q => W7 m ρ c (Proc.devRef .tc main_arg7) (ix2 k q)) (fun q => W7 m ρ c (Proc.devRef .tc main_v67) (ix2 0 q)) = _
  rw [l7_v66, l7_a7, l7_v67]
  rfl

end Cert.KernelIdeal.GinNet

end
-- ==== Proof.RefOps.lean ====
/-
  The reference program as a straight line of host operations, and its run.

  The program is a graph network of three layers followed by a linear head.  Its statements, with each call of the
  ELU helper replaced by the fifteen operations of that helper's body (the two selection helpers it calls in turn
  included), form one list.  The list is cut into five consecutive stages: the two index vectors (sources and
  destinations of the edges), the three layers, and the head.  Every weakly fair execution of the program
  terminates with each buffer holding the fold of the list over the launch contents; a fold over a concatenation
  is the fold of the second part over the fold of the first, which is what lets the value be read stage by stage.
-/
import proofs.«108478_j44753559224362_1_alg».proof.Proof.Gen.ReferenceIdeal
import Idealize.ShloMosaic.Lib.StableHlo.Run

noncomputable section

namespace Cert.ReferenceIdeal.GinRun

open Cert.ReferenceIdeal Cert.ReferenceIdeal.Gen Idealize.ShloMosaic Idealize.ShloMosaic.TcCoe Idealize.SL.Sem Idealize.ShloMosaic.StableHlo

variable {F : FTy → Type} [FloatOps F]

/-- The fold over a concatenation: the second list's fold from where the first one's ends. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- The edge lists: row 0 of the index table is the sources, row 1 the destinations, each flattened to a vector. -/
abbrev pre : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000 ]

/-- Layer 0: wrap negative sources, gather the source rows, add them up at the destinations, add the node's own row,
    then the two affine maps, each followed by ELU. -/
abbrev L0 : List (HloOp τ sig (Elt F)) :=
  [ StableHlo.nullary main_c (constantI S_ 32 0#32),
    StableHlo.unary main_c main_v4 (broadcastInDim S1600000 ![] bcast_S_S1600000 : (⟨S_, .i32⟩ : BufTy).Contents (Elt F) → (⟨S1600000, .i32⟩ : BufTy).Contents (Elt F)),
    StableHlo.binary main_v1 main_v4 main_v5 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v6 (broadcastInDim S1600000 ![] bcast_S_S1600000 : (⟨S_, .i32⟩ : BufTy).Contents (Elt F) → (⟨S1600000, .i32⟩ : BufTy).Contents (Elt F)),
    StableHlo.binary main_v1 main_v6 main_v7 (addi : (⟨S1600000, .i32⟩ : BufTy).Contents (Elt F) → (⟨S1600000, .i32⟩ : BufTy).Contents (Elt F) → (⟨S1600000, .i32⟩ : BufTy).Contents (Elt F)),
    StableHlo.ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v8 main_v9 (broadcastInDim S1600000x1 ![0] bcast_S1600000_S1600000x1_0 : (⟨S1600000, .i32⟩ : BufTy).Contents (Elt F) → (⟨S1600000x1, .i32⟩ : BufTy).Contents (Elt F)),
    StableHlo.binary main_arg0 main_v9 main_v10 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst (constant S_ .f32 0x00000000#32),
    StableHlo.unary main_cst main_v11 (broadcastInDim S100000x128 ![] bcast_S_S100000x128 : (⟨S_, .f32⟩ : BufTy).Contents (Elt F) → (⟨S100000x128, .f32⟩ : BufTy).Contents (Elt F)),
    StableHlo.unary main_v3 main_v12 (broadcastInDim S1600000x1 ![0] bcast_S1600000_S1600000x1_0 : (⟨S1600000, .i32⟩ : BufTy).Contents (Elt F) → (⟨S1600000x1, .i32⟩ : BufTy).Contents (Elt F)),
    StableHlo.ternary main_v11 main_v12 main_v10 main_v13 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_arg0 main_v13 main_v14 (addf : (⟨S100000x128, .f32⟩ : BufTy).Contents (Elt F) → (⟨S100000x128, .f32⟩ : BufTy).Contents (Elt F) → (⟨S100000x128, .f32⟩ : BufTy).Contents (Elt F)),
    StableHlo.unary main_arg3 main_v15 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v15 main_v16 rfl shapeCasts_S1x128x128_S128x128,
    StableHlo.binary main_v14 main_v16 main_v17 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg4 main_v18 ((extractStridedSlice S1x128 ![0, 0] · slices_S3x128_S1x128_0_0) : (⟨S3x128, .f32⟩ : BufTy).Contents (Elt F) → (⟨S1x128, .f32⟩ : BufTy).Contents (Elt F)),
    StableHlo.reshape main_v18 main_v19 rfl shapeCasts_S1x128_S128,
    StableHlo.unary main_v19 main_v20 (broadcastInDim S1x128 ![1] bcast_S128_S1x128_1 : (⟨S128, .f32⟩ : BufTy).Contents (Elt F) → (⟨S1x128, .f32⟩ : BufTy).Contents (Elt F)),
    StableHlo.unary main_v20 main_v21 (broadcastInDim S100000x128 ![0, 1] bcast_S1x128_S100000x128_0_1 : (⟨S1x128, .f32⟩ : BufTy).Contents (Elt F) → (⟨S100000x128, .f32⟩ : BufTy).Contents (Elt F)),
    StableHlo.binary main_v17 main_v21 main_v22 (addf : (⟨S100000x128, .f32⟩ : BufTy).Contents (Elt F) → (⟨S100000x128, .f32⟩ : BufTy).Contents (Elt F) → (⟨S100000x128, .f32⟩ : BufTy).Contents (Elt F)),
    TRef.nullary main_call0.cst (constant S_ .f32 0x00000000#32),
    TRef.unary main_call0.cst main_call0.v0 (broadcastInDim S100000x128 ![] bcast_S_S100000x128),
    TRef.binary (.of main_v22) main_call0.v0 main_call0.v1 (cmpf .ogt),
    TRef.nullary main_call0.cst_0 (constant S_ .f32 0x00000000#32),
    TRef.unary main_call0.cst_0 main_call0.v2 (broadcastInDim S100000x128 ![] bcast_S_S100000x128),
    TRef.binary (.of main_v22) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S100000x128 ![] bcast_S_S100000x128),
    TRef.ternary main_call0.v3 main_call0.call0.v1 (.of main_v22) main_call0.call0.v2 select,
    TRef.unary main_call0.call0.v2 main_call0.v5 Host.expm1,
    TRef.nullary main_call0.cst_2 (constant S_ .f32 0x3F800000#32),
    TRef.unary main_call0.cst_2 main_call0.v6 (broadcastInDim S100000x128 ![] bcast_S_S100000x128),
    TRef.binary main_call0.v6 main_call0.v5 main_call0.v7 mulf,
    TRef.ternary main_call0.v1 (.of main_v22) main_call0.v7 main_call0.call1.v0 select,
    StableHlo.unary main_arg5 main_v24 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v24 main_v25 rfl shapeCasts_S1x128x128_S128x128,
    StableHlo.binary main_v23 main_v25 main_v26 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg6 main_v27 ((extractStridedSlice S1x128 ![0, 0] · slices_S3x128_S1x128_0_0) : (⟨S3x128, .f32⟩ : BufTy).Contents (Elt F) → (⟨S1x128, .f32⟩ : BufTy).Contents (Elt F)),
    StableHlo.reshape main_v27 main_v28 rfl shapeCasts_S1x128_S128,
    StableHlo.unary main_v28 main_v29 (broadcastInDim S1x128 ![1] bcast_S128_S1x128_1 : (⟨S128, .f32⟩ : BufTy).Contents (Elt F) → (⟨S1x128, .f32⟩ : BufTy).Contents (Elt F)),
    StableHlo.unary main_v29 main_v30 (broadcastInDim S100000x128 ![0, 1] bcast_S1x128_S100000x128_0_1 : (⟨S1x128, .f32⟩ : BufTy).Contents (Elt F) → (⟨S100000x128, .f32⟩ : BufTy).Contents (Elt F)),
    StableHlo.binary main_v26 main_v30 main_v31 (addf : (⟨S100000x128, .f32⟩ : BufTy).Contents (Elt F) → (⟨S100000x128, .f32⟩ : BufTy).Contents (Elt F) → (⟨S100000x128, .f32⟩ : BufTy).Contents (Elt F)),
    TRef.nullary main_call1.cst (constant S_ .f32 0x00000000#32),
    TRef.unary main_call1.cst main_call1.v0 (broadcastInDim S100000x128 ![] bcast_S_S100000x128),
    TRef.binary (.of main_v31) main_call1.v0 main_call1.v1 (cmpf .ogt),
    TRef.nullary main_call1.cst_0 (constant S_ .f32 0x00000000#32),
    TRef.unary main_call1.cst_0 main_call1.v2 (broadcastInDim S100000x128 ![] bcast_S_S100000x128),
    TRef.binary (.of main_v31) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S100000x128 ![] bcast_S_S100000x128),
    TRef.ternary main_call1.v3 main_call1.call0.v1 (.of main_v31) main_call1.call0.v2 select,
    TRef.unary main_call1.call0.v2 main_call1.v5 Host.expm1,
    TRef.nullary main_call1.cst_2 (constant S_ .f32 0x3F800000#32),
    TRef.unary main_call1.cst_2 main_call1.v6 (broadcastInDim S100000x128 ![] bcast_S_S100000x128),
    TRef.binary main_call1.v6 main_call1.v5 main_call1.v7 mulf,
    TRef.ternary main_call1.v1 (.of main_v31) main_call1.v7 main_call1.call1.v0 select ]

/-- Layer 1: the same on layer 0's output, with the second slices of the parameters. -/
abbrev L1 : List (HloOp τ sig (Elt F)) :=
  [ StableHlo.nullary main_c_1 (constantI S_ 32 0#32),
    StableHlo.unary main_c_1 main_v33 (broadcastInDim S1600000 ![] bcast_S_S1600000 : (⟨S_, .i32⟩ : BufTy).Contents (Elt F) → (⟨S1600000, .i32⟩ : BufTy).Contents (Elt F)),
    StableHlo.binary main_v1 main_v33 main_v34 (cmpi .slt : (⟨S1600000, .i32⟩ : BufTy).Contents (Elt F) → (⟨S1600000, .i32⟩ : BufTy).Contents (Elt F) → (⟨S1600000, .i1⟩ : BufTy).Contents (Elt F)),
    StableHlo.nullary main_c_2 (constantI S_ 32 100000#32),
    StableHlo.unary main_c_2 main_v35 (broadcastInDim S1600000 ![] bcast_S_S1600000 : (⟨S_, .i32⟩ : BufTy).Contents (Elt F) → (⟨S1600000, .i32⟩ : BufTy).Contents (Elt F)),
    StableHlo.binary main_v1 main_v35 main_v36 (addi : (⟨S1600000, .i32⟩ : BufTy).Contents (Elt F) → (⟨S1600000, .i32⟩ : BufTy).Contents (Elt F) → (⟨S1600000, .i32⟩ : BufTy).Contents (Elt F)),
    StableHlo.ternary main_v34 main_v36 main_v1 main_v37 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v37 main_v38 (broadcastInDim S1600000x1 ![0] bcast_S1600000_S1600000x1_0 : (⟨S1600000, .i32⟩ : BufTy).Contents (Elt F) → (⟨S1600000x1, .i32⟩ : BufTy).Contents (Elt F)),
    StableHlo.binary main_v32 main_v38 main_v39 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_3 (constant S_ .f32 0x00000000#32),
    StableHlo.unary main_cst_3 main_v40 (broadcastInDim S100000x128 ![] bcast_S_S100000x128 : (⟨S_, .f32⟩ : BufTy).Contents (Elt F) → (⟨S100000x128, .f32⟩ : BufTy).Contents (Elt F)),
    StableHlo.unary main_v3 main_v41 (broadcastInDim S1600000x1 ![0] bcast_S1600000_S1600000x1_0 : (⟨S1600000, .i32⟩ : BufTy).Contents (Elt F) → (⟨S1600000x1, .i32⟩ : BufTy).Contents (Elt F)),
    StableHlo.ternary main_v40 main_v41 main_v39 main_v42 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_v32 main_v42 main_v43 (addf : (⟨S100000x128, .f32⟩ : BufTy).Contents (Elt F) → (⟨S100000x128, .f32⟩ : BufTy).Contents (Elt F) → (⟨S100000x128, .f32⟩ : BufTy).Contents (Elt F)),
    StableHlo.unary main_arg3 main_v44 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v44 main_v45 rfl shapeCasts_S1x128x128_S128x128,
    StableHlo.binary main_v43 main_v45 main_v46 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg4 main_v47 ((extractStridedSlice S1x128 ![1, 0] · slices_S3x128_S1x128_1_0) : (⟨S3x128, .f32⟩ : BufTy).Contents (Elt F) → (⟨S1x128, .f32⟩ : BufTy).Contents (Elt F)),
    StableHlo.reshape main_v47 main_v48 rfl shapeCasts_S1x128_S128,
    StableHlo.unary main_v48 main_v49 (broadcastInDim S1x128 ![1] bcast_S128_S1x128_1 : (⟨S128, .f32⟩ : BufTy).Contents (Elt F) → (⟨S1x128, .f32⟩ : BufTy).Contents (Elt F)),
    StableHlo.unary main_v49 main_v50 (broadcastInDim S100000x128 ![0, 1] bcast_S1x128_S100000x128_0_1 : (⟨S1x128, .f32⟩ : BufTy).Contents (Elt F) → (⟨S100000x128, .f32⟩ : BufTy).Contents (Elt F)),
    StableHlo.binary main_v46 main_v50 main_v51 (addf : (⟨S100000x128, .f32⟩ : BufTy).Contents (Elt F) → (⟨S100000x128, .f32⟩ : BufTy).Contents (Elt F) → (⟨S100000x128, .f32⟩ : BufTy).Contents (Elt F)),
    TRef.nullary main_call2.cst (constant S_ .f32 0x00000000#32),
    TRef.unary main_call2.cst main_call2.v0 (broadcastInDim S100000x128 ![] bcast_S_S100000x128),
    TRef.binary (.of main_v51) main_call2.v0 main_call2.v1 (cmpf .ogt),
    TRef.nullary main_call2.cst_0 (constant S_ .f32 0x00000000#32),
    TRef.unary main_call2.cst_0 main_call2.v2 (broadcastInDim S100000x128 ![] bcast_S_S100000x128),
    TRef.binary (.of main_v51) main_call2.v2 main_call2.v3 (cmpf .ogt),
    TRef.nullary main_call2.cst_1 (constant S_ .f32 0x00000000#32),
    TRef.unary main_call2.cst_1 main_call2.call0.v0 id,
    TRef.unary main_call2.call0.v0 main_call2.call0.v1 (broadcastInDim S100000x128 ![] bcast_S_S100000x128),
    TRef.ternary main_call2.v3 main_call2.call0.v1 (.of main_v51) main_call2.call0.v2 select,
    TRef.unary main_call2.call0.v2 main_call2.v5 Host.expm1,
    TRef.nullary main_call2.cst_2 (constant S_ .f32 0x3F800000#32),
    TRef.unary main_call2.cst_2 main_call2.v6 (broadcastInDim S100000x128 ![] bcast_S_S100000x128),
    TRef.binary main_call2.v6 main_call2.v5 main_call2.v7 mulf,
    TRef.ternary main_call2.v1 (.of main_v51) main_call2.v7 main_call2.call1.v0 select,
    StableHlo.unary main_arg5 main_v53 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v53 main_v54 rfl shapeCasts_S1x128x128_S128x128,
    StableHlo.binary main_v52 main_v54 main_v55 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg6 main_v56 ((extractStridedSlice S1x128 ![1, 0] · slices_S3x128_S1x128_1_0) : (⟨S3x128, .f32⟩ : BufTy).Contents (Elt F) → (⟨S1x128, .f32⟩ : BufTy).Contents (Elt F)),
    StableHlo.reshape main_v56 main_v57 rfl shapeCasts_S1x128_S128,
    StableHlo.unary main_v57 main_v58 (broadcastInDim S1x128 ![1] bcast_S128_S1x128_1 : (⟨S128, .f32⟩ : BufTy).Contents (Elt F) → (⟨S1x128, .f32⟩ : BufTy).Contents (Elt F)),
    StableHlo.unary main_v58 main_v59 (broadcastInDim S100000x128 ![0, 1] bcast_S1x128_S100000x128_0_1 : (⟨S1x128, .f32⟩ : BufTy).Contents (Elt F) → (⟨S100000x128, .f32⟩ : BufTy).Contents (Elt F)),
    StableHlo.binary main_v55 main_v59 main_v60 (addf : (⟨S100000x128, .f32⟩ : BufTy).Contents (Elt F) → (⟨S100000x128, .f32⟩ : BufTy).Contents (Elt F) → (⟨S100000x128, .f32⟩ : BufTy).Contents (Elt F)),
    TRef.nullary main_call3.cst (constant S_ .f32 0x00000000#32),
    TRef.unary main_call3.cst main_call3.v0 (broadcastInDim S100000x128 ![] bcast_S_S100000x128),
    TRef.binary (.of main_v60) main_call3.v0 main_call3.v1 (cmpf .ogt),
    TRef.nullary main_call3.cst_0 (constant S_ .f32 0x00000000#32),
    TRef.unary main_call3.cst_0 main_call3.v2 (broadcastInDim S100000x128 ![] bcast_S_S100000x128),
    TRef.binary (.of main_v60) main_call3.v2 main_call3.v3 (cmpf .ogt),
    TRef.nullary main_call3.cst_1 (constant S_ .f32 0x00000000#32),
    TRef.unary main_call3.cst_1 main_call3.call0.v0 id,
    TRef.unary main_call3.call0.v0 main_call3.call0.v1 (broadcastInDim S100000x128 ![] bcast_S_S100000x128),
    TRef.ternary main_call3.v3 main_call3.call0.v1 (.of main_v60) main_call3.call0.v2 select,
    TRef.unary main_call3.call0.v2 main_call3.v5 Host.expm1,
    TRef.nullary main_call3.cst_2 (constant S_ .f32 0x3F800000#32),
    TRef.unary main_call3.cst_2 main_call3.v6 (broadcastInDim S100000x128 ![] bcast_S_S100000x128),
    TRef.binary main_call3.v6 main_call3.v5 main_call3.v7 mulf,
    TRef.ternary main_call3.v1 (.of main_v60) main_call3.v7 main_call3.call1.v0 select ]

/-- Layer 2: the same on layer 1's output, with the third slices of the parameters. -/
abbrev L2 : List (HloOp τ sig (Elt F)) :=
  [ StableHlo.nullary main_c_4 (constantI S_ 32 0#32),
    StableHlo.unary main_c_4 main_v62 (broadcastInDim S1600000 ![] bcast_S_S1600000 : (⟨S_, .i32⟩ : BufTy).Contents (Elt F) → (⟨S1600000, .i32⟩ : BufTy).Contents (Elt F)),
    StableHlo.binary main_v1 main_v62 main_v63 (cmpi .slt : (⟨S1600000, .i32⟩ : BufTy).Contents (Elt F) → (⟨S1600000, .i32⟩ : BufTy).Contents (Elt F) → (⟨S1600000, .i1⟩ : BufTy).Contents (Elt F)),
    StableHlo.nullary main_c_5 (constantI S_ 32 100000#32),
    StableHlo.unary main_c_5 main_v64 (broadcastInDim S1600000 ![] bcast_S_S1600000 : (⟨S_, .i32⟩ : BufTy).Contents (Elt F) → (⟨S1600000, .i32⟩ : BufTy).Contents (Elt F)),
    StableHlo.binary main_v1 main_v64 main_v65 (addi : (⟨S1600000, .i32⟩ : BufTy).Contents (Elt F) → (⟨S1600000, .i32⟩ : BufTy).Contents (Elt F) → (⟨S1600000, .i32⟩ : BufTy).Contents (Elt F)),
    StableHlo.ternary main_v63 main_v65 main_v1 main_v66 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v66 main_v67 (broadcastInDim S1600000x1 ![0] bcast_S1600000_S1600000x1_0 : (⟨S1600000, .i32⟩ : BufTy).Contents (Elt F) → (⟨S1600000x1, .i32⟩ : BufTy).Contents (Elt F)),
    StableHlo.binary main_v61 main_v67 main_v68 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_6 (constant S_ .f32 0x00000000#32),
    StableHlo.unary main_cst_6 main_v69 (broadcastInDim S100000x128 ![] bcast_S_S100000x128 : (⟨S_, .f32⟩ : BufTy).Contents (Elt F) → (⟨S100000x128, .f32⟩ : BufTy).Contents (Elt F)),
    StableHlo.unary main_v3 main_v70 (broadcastInDim S1600000x1 ![0] bcast_S1600000_S1600000x1_0 : (⟨S1600000, .i32⟩ : BufTy).Contents (Elt F) → (⟨S1600000x1, .i32⟩ : BufTy).Contents (Elt F)),
    StableHlo.ternary main_v69 main_v70 main_v68 main_v71 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_v61 main_v71 main_v72 (addf : (⟨S100000x128, .f32⟩ : BufTy).Contents (Elt F) → (⟨S100000x128, .f32⟩ : BufTy).Contents (Elt F) → (⟨S100000x128, .f32⟩ : BufTy).Contents (Elt F)),
    StableHlo.unary main_arg3 main_v73 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v73 main_v74 rfl shapeCasts_S1x128x128_S128x128,
    StableHlo.binary main_v72 main_v74 main_v75 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg4 main_v76 ((extractStridedSlice S1x128 ![2, 0] · slices_S3x128_S1x128_2_0) : (⟨S3x128, .f32⟩ : BufTy).Contents (Elt F) → (⟨S1x128, .f32⟩ : BufTy).Contents (Elt F)),
    StableHlo.reshape main_v76 main_v77 rfl shapeCasts_S1x128_S128,
    StableHlo.unary main_v77 main_v78 (broadcastInDim S1x128 ![1] bcast_S128_S1x128_1 : (⟨S128, .f32⟩ : BufTy).Contents (Elt F) → (⟨S1x128, .f32⟩ : BufTy).Contents (Elt F)),
    StableHlo.unary main_v78 main_v79 (broadcastInDim S100000x128 ![0, 1] bcast_S1x128_S100000x128_0_1 : (⟨S1x128, .f32⟩ : BufTy).Contents (Elt F) → (⟨S100000x128, .f32⟩ : BufTy).Contents (Elt F)),
    StableHlo.binary main_v75 main_v79 main_v80 (addf : (⟨S100000x128, .f32⟩ : BufTy).Contents (Elt F) → (⟨S100000x128, .f32⟩ : BufTy).Contents (Elt F) → (⟨S100000x128, .f32⟩ : BufTy).Contents (Elt F)),
    TRef.nullary main_call4.cst (constant S_ .f32 0x00000000#32),
    TRef.unary main_call4.cst main_call4.v0 (broadcastInDim S100000x128 ![] bcast_S_S100000x128),
    TRef.binary (.of main_v80) main_call4.v0 main_call4.v1 (cmpf .ogt),
    TRef.nullary main_call4.cst_0 (constant S_ .f32 0x00000000#32),
    TRef.unary main_call4.cst_0 main_call4.v2 (broadcastInDim S100000x128 ![] bcast_S_S100000x128),
    TRef.binary (.of main_v80) main_call4.v2 main_call4.v3 (cmpf .ogt),
    TRef.nullary main_call4.cst_1 (constant S_ .f32 0x00000000#32),
    TRef.unary main_call4.cst_1 main_call4.call0.v0 id,
    TRef.unary main_call4.call0.v0 main_call4.call0.v1 (broadcastInDim S100000x128 ![] bcast_S_S100000x128),
    TRef.ternary main_call4.v3 main_call4.call0.v1 (.of main_v80) main_call4.call0.v2 select,
    TRef.unary main_call4.call0.v2 main_call4.v5 Host.expm1,
    TRef.nullary main_call4.cst_2 (constant S_ .f32 0x3F800000#32),
    TRef.unary main_call4.cst_2 main_call4.v6 (broadcastInDim S100000x128 ![] bcast_S_S100000x128),
    TRef.binary main_call4.v6 main_call4.v5 main_call4.v7 mulf,
    TRef.ternary main_call4.v1 (.of main_v80) main_call4.v7 main_call4.call1.v0 select,
    StableHlo.unary main_arg5 main_v82 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v82 main_v83 rfl shapeCasts_S1x128x128_S128x128,
    StableHlo.binary main_v81 main_v83 main_v84 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg6 main_v85 ((extractStridedSlice S1x128 ![2, 0] · slices_S3x128_S1x128_2_0) : (⟨S3x128, .f32⟩ : BufTy).Contents (Elt F) → (⟨S1x128, .f32⟩ : BufTy).Contents (Elt F)),
    StableHlo.reshape main_v85 main_v86 rfl shapeCasts_S1x128_S128,
    StableHlo.unary main_v86 main_v87 (broadcastInDim S1x128 ![1] bcast_S128_S1x128_1 : (⟨S128, .f32⟩ : BufTy).Contents (Elt F) → (⟨S1x128, .f32⟩ : BufTy).Contents (Elt F)),
    StableHlo.unary main_v87 main_v88 (broadcastInDim S100000x128 ![0, 1] bcast_S1x128_S100000x128_0_1 : (⟨S1x128, .f32⟩ : BufTy).Contents (Elt F) → (⟨S100000x128, .f32⟩ : BufTy).Contents (Elt F)),
    StableHlo.binary main_v84 main_v88 main_v89 (addf : (⟨S100000x128, .f32⟩ : BufTy).Contents (Elt F) → (⟨S100000x128, .f32⟩ : BufTy).Contents (Elt F) → (⟨S100000x128, .f32⟩ : BufTy).Contents (Elt F)),
    TRef.nullary main_call5.cst (constant S_ .f32 0x00000000#32),
    TRef.unary main_call5.cst main_call5.v0 (broadcastInDim S100000x128 ![] bcast_S_S100000x128),
    TRef.binary (.of main_v89) main_call5.v0 main_call5.v1 (cmpf .ogt),
    TRef.nullary main_call5.cst_0 (constant S_ .f32 0x00000000#32),
    TRef.unary main_call5.cst_0 main_call5.v2 (broadcastInDim S100000x128 ![] bcast_S_S100000x128),
    TRef.binary (.of main_v89) main_call5.v2 main_call5.v3 (cmpf .ogt),
    TRef.nullary main_call5.cst_1 (constant S_ .f32 0x00000000#32),
    TRef.unary main_call5.cst_1 main_call5.call0.v0 id,
    TRef.unary main_call5.call0.v0 main_call5.call0.v1 (broadcastInDim S100000x128 ![] bcast_S_S100000x128),
    TRef.ternary main_call5.v3 main_call5.call0.v1 (.of main_v89) main_call5.call0.v2 select,
    TRef.unary main_call5.call0.v2 main_call5.v5 Host.expm1,
    TRef.nullary main_call5.cst_2 (constant S_ .f32 0x3F800000#32),
    TRef.unary main_call5.cst_2 main_call5.v6 (broadcastInDim S100000x128 ![] bcast_S_S100000x128),
    TRef.binary main_call5.v6 main_call5.v5 main_call5.v7 mulf,
    TRef.ternary main_call5.v1 (.of main_v89) main_call5.v7 main_call5.call1.v0 select ]

/-- The head: one affine map into the ten classes. -/
abbrev fc : List (HloOp τ sig (Elt F)) :=
  [ StableHlo.binary main_v90 main_arg7 main_v91 ((fun l r => Host.dotGeneral dot_S100000x128_S128x10_S100000x10_1_0_0_1_n_n none l r) : (⟨S100000x128, .f32⟩ : BufTy).Contents (Elt F) → (⟨S128x10, .f32⟩ : BufTy).Contents (Elt F) → (⟨S100000x10, .f32⟩ : BufTy).Contents (Elt F)),
    StableHlo.unary main_arg8 main_v92 (broadcastInDim S1x10 ![1] bcast_S10_S1x10_1 : (⟨S10, .f32⟩ : BufTy).Contents (Elt F) → (⟨S1x10, .f32⟩ : BufTy).Contents (Elt F)),
    StableHlo.unary main_v92 main_v93 (broadcastInDim S100000x10 ![0, 1] bcast_S1x10_S100000x10_0_1 : (⟨S1x10, .f32⟩ : BufTy).Contents (Elt F) → (⟨S100000x10, .f32⟩ : BufTy).Contents (Elt F)),
    StableHlo.binary main_v91 main_v93 main_v94 (addf : (⟨S100000x10, .f32⟩ : BufTy).Contents (Elt F) → (⟨S100000x10, .f32⟩ : BufTy).Contents (Elt F) → (⟨S100000x10, .f32⟩ : BufTy).Contents (Elt F)) ]

/-- All 188 operations, in order. -/
abbrev ops : List (HloOp τ sig (Elt F)) := pre ++ (L0 ++ (L1 ++ (L2 ++ fc)))

set_option maxRecDepth 65536 in
set_option maxHeartbeats 4000000 in
/-- The program is that straight line: the helpers unfolded at their calls, both sides are one chain of steps
    once sequencing is reassociated. -/
theorem main_eq (c : Dev nD) : main (F := F) c = seq ops := by
  simp only [main, main_part0, main_part1, fn_elu.body, fn_where.body, fn_where_0.body, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

/-- A property of every element of two lists holds of every element of their concatenation. -/
theorem forall_append {α : Type} {p : α → Prop} {l₁ l₂ : List α} (h₁ : l₁.Forall p) (h₂ : l₂.Forall p) : (l₁ ++ l₂).Forall p :=
  List.forall_iff_forall_mem.mpr fun a ha =>
    (List.mem_append.mp ha).elim (List.forall_iff_forall_mem.mp h₁ a) (List.forall_iff_forall_mem.mp h₂ a)

theorem pre_sub : (pre : List (HloOp τ sig (Elt F))).Forall fun op => op.bufs ⊆ tcRefs τ sig :=
  ⟨unary_bufs_sub .., reshape_bufs_sub .., unary_bufs_sub .., reshape_bufs_sub ..⟩
theorem L0_sub : (L0 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., binary_bufs_sub .., unary_bufs_sub .., reshape_bufs_sub .., binary_bufs_sub .., unary_bufs_sub ..,
    reshape_bufs_sub .., unary_bufs_sub .., unary_bufs_sub .., binary_bufs_sub .., nullary_bufs_sub .., unary_bufs_sub ..,
    binary_bufs_sub .., nullary_bufs_sub .., unary_bufs_sub .., binary_bufs_sub .., nullary_bufs_sub .., unary_bufs_sub ..,
    unary_bufs_sub .., ternary_bufs_sub .., unary_bufs_sub .., nullary_bufs_sub .., unary_bufs_sub .., binary_bufs_sub ..,
    ternary_bufs_sub .., unary_bufs_sub .., reshape_bufs_sub .., binary_bufs_sub .., unary_bufs_sub .., reshape_bufs_sub ..,
    unary_bufs_sub .., unary_bufs_sub .., binary_bufs_sub .., nullary_bufs_sub .., unary_bufs_sub .., binary_bufs_sub ..,
    nullary_bufs_sub .., unary_bufs_sub .., binary_bufs_sub .., nullary_bufs_sub .., unary_bufs_sub .., unary_bufs_sub ..,
    ternary_bufs_sub .., unary_bufs_sub .., nullary_bufs_sub .., unary_bufs_sub .., binary_bufs_sub .., ternary_bufs_sub ..⟩
theorem L1_sub : (L1 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., binary_bufs_sub .., unary_bufs_sub .., reshape_bufs_sub .., binary_bufs_sub .., unary_bufs_sub ..,
    reshape_bufs_sub .., unary_bufs_sub .., unary_bufs_sub .., binary_bufs_sub .., nullary_bufs_sub .., unary_bufs_sub ..,
    binary_bufs_sub .., nullary_bufs_sub .., unary_bufs_sub .., binary_bufs_sub .., nullary_bufs_sub .., unary_bufs_sub ..,
    unary_bufs_sub .., ternary_bufs_sub .., unary_bufs_sub .., nullary_bufs_sub .., unary_bufs_sub .., binary_bufs_sub ..,
    ternary_bufs_sub .., unary_bufs_sub .., reshape_bufs_sub .., binary_bufs_sub .., unary_bufs_sub .., reshape_bufs_sub ..,
    unary_bufs_sub .., unary_bufs_sub .., binary_bufs_sub .., nullary_bufs_sub .., unary_bufs_sub .., binary_bufs_sub ..,
    nullary_bufs_sub .., unary_bufs_sub .., binary_bufs_sub .., nullary_bufs_sub .., unary_bufs_sub .., unary_bufs_sub ..,
    ternary_bufs_sub .., unary_bufs_sub .., nullary_bufs_sub .., unary_bufs_sub .., binary_bufs_sub .., ternary_bufs_sub ..⟩
theorem L2_sub : (L2 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., binary_bufs_sub .., unary_bufs_sub .., reshape_bufs_sub .., binary_bufs_sub .., unary_bufs_sub ..,
    reshape_bufs_sub .., unary_bufs_sub .., unary_bufs_sub .., binary_bufs_sub .., nullary_bufs_sub .., unary_bufs_sub ..,
    binary_bufs_sub .., nullary_bufs_sub .., unary_bufs_sub .., binary_bufs_sub .., nullary_bufs_sub .., unary_bufs_sub ..,
    unary_bufs_sub .., ternary_bufs_sub .., unary_bufs_sub .., nullary_bufs_sub .., unary_bufs_sub .., binary_bufs_sub ..,
    ternary_bufs_sub .., unary_bufs_sub .., reshape_bufs_sub .., binary_bufs_sub .., unary_bufs_sub .., reshape_bufs_sub ..,
    unary_bufs_sub .., unary_bufs_sub .., binary_bufs_sub .., nullary_bufs_sub .., unary_bufs_sub .., binary_bufs_sub ..,
    nullary_bufs_sub .., unary_bufs_sub .., binary_bufs_sub .., nullary_bufs_sub .., unary_bufs_sub .., unary_bufs_sub ..,
    ternary_bufs_sub .., unary_bufs_sub .., nullary_bufs_sub .., unary_bufs_sub .., binary_bufs_sub .., ternary_bufs_sub ..⟩
theorem fc_sub : (fc : List (HloOp τ sig (Elt F))).Forall fun op => op.bufs ⊆ tcRefs τ sig :=
  ⟨binary_bufs_sub .., unary_bufs_sub .., unary_bufs_sub .., binary_bufs_sub ..⟩

theorem ops_sub : (ops : List (HloOp τ sig (Elt F))).Forall fun op => op.bufs ⊆ tcRefs τ sig :=
  forall_append pre_sub (forall_append L0_sub (forall_append L1_sub (forall_append L2_sub fc_sub)))

/-- On every device, for any float values, from any memory with zero counters: every weakly fair execution of the
    program terminates, and every final state has each buffer at the fold of the operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.GinRun

end
-- ==== Proof.RefStages.lean ====
/-
  The reference program's value, stage by stage.

  Each stage of the straight line is named as a function of what it reads: the edge sources and destinations
  (row 0 and row 1 of the index table), the neighbour sum (gather the source rows, add them up at the destination
  rows), the reference's ELU, a layer (two affine maps, each followed by ELU, on the node features plus the neighbour
  sum), and the head.  The fold of each stage's operations at its result buffer is that function of the contents
  the stage starts from, and the buffers a later stage still reads are left as they were.  Composed, the program's
  result is three layers and the head applied to the arguments.
-/
import proofs.«108478_j44753559224362_1_alg».proof.Proof.RefOps

noncomputable section

namespace Cert.ReferenceIdeal.GinRun

open Cert.ReferenceIdeal Cert.ReferenceIdeal.Gen Idealize.ShloMosaic Idealize.ShloMosaic.TcCoe Idealize.SL.Sem Idealize.ShloMosaic.StableHlo

variable {F : FTy → Type} [FloatOps F]

/-! ## The stages as functions -/

/-- The edge sources: row 0 of the index table, as a vector. -/
def srcIdx (ei : IVec S2x1600000 32) : IVec S1600000 32 :=
  shapeCast S1600000 (extractStridedSlice S1x1600000 ![0, 0] ei slices_S2x1600000_S1x1600000_0_0) shapeCasts_S1x1600000_S1600000

/-- The edge destinations: row 1 of the index table, as a vector. -/
def dstIdx (ei : IVec S2x1600000 32) : IVec S1600000 32 :=
  shapeCast S1600000 (extractStridedSlice S1x1600000 ![1, 0] ei slices_S2x1600000_S1x1600000_1_0) shapeCasts_S1x1600000_S1600000

/-- The gather's start indices: a negative source counts from the end (100000 is added to it), then one column. -/
def gatherIdxOf (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- The neighbour sum from the two edge vectors: the source rows of `h`, added up at the destination rows from zero. -/
def aggOf (src dst : IVec S1600000 32) (h : FVec F S100000x128 .f32) : FVec F S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dst)
    (Host.gather gather_S100000x128_S1600000x1_S1600000x128_1_0_n_n_0_1_1128 h (gatherIdxOf src))

/-- The neighbour sum from the index table. -/
def agg (ei : IVec S2x1600000 32) (h : FVec F S100000x128 .f32) : FVec F S100000x128 .f32 :=
  aggOf (srcIdx ei) (dstIdx ei) h

/-- The reference's ELU: `v` where `v > 0`, elsewhere `1 * expm1 w` with `w` equal to `0` where `v > 0` and to `v` elsewhere. -/
def eluR (v : FVec F S100000x128 .f32) : FVec F S100000x128 .f32 :=
  select (cmpf .ogt v (broadcastInDim S100000x128 ![] bcast_S_S100000x128 (constant S_ .f32 0x00000000#32))) v
    (mulf (broadcastInDim S100000x128 ![] bcast_S_S100000x128 (constant S_ .f32 0x3F800000#32))
      (Host.expm1 (select (cmpf .ogt v (broadcastInDim S100000x128 ![] bcast_S_S100000x128 (constant S_ .f32 0x00000000#32)))
        (broadcastInDim S100000x128 ![] bcast_S_S100000x128 (constant S_ .f32 0x00000000#32)) v)))

/-- A bias vector along the feature axis of every node. -/
def biasRows (b : FVec F S128 .f32) : FVec F S100000x128 .f32 :=
  broadcastInDim S100000x128 ![0, 1] bcast_S1x128_S100000x128_0_1 (broadcastInDim S1x128 ![1] bcast_S128_S1x128_1 b)

/-- One layer from the two edge vectors: ELU of the second affine map of ELU of the first affine map of `h` plus its
    neighbour sum. -/
def layerOf (W : FVec F S128x128 .f32) (b : FVec F S128 .f32) (W' : FVec F S128x128 .f32) (b' : FVec F S128 .f32)
    (src dst : IVec S1600000 32) (h : FVec F S100000x128 .f32) : FVec F S100000x128 .f32 :=
  eluR (addf (Host.dotGeneral dot_S100000x128_S128x128_S100000x128_1_0_0_1_n_n none
      (eluR (addf (Host.dotGeneral dot_S100000x128_S128x128_S100000x128_1_0_0_1_n_n none (addf h (aggOf src dst h)) W) (biasRows b))) W')
    (biasRows b'))

/-- One layer from the index table. -/
def layerR (W : FVec F S128x128 .f32) (b : FVec F S128 .f32) (W' : FVec F S128x128 .f32) (b' : FVec F S128 .f32)
    (ei : IVec S2x1600000 32) (h : FVec F S100000x128 .f32) : FVec F S100000x128 .f32 :=
  layerOf W b W' b' (srcIdx ei) (dstIdx ei) h

/-- The head: the affine map into the ten classes. -/
def fcStage (h : FVec F S100000x128 .f32) (fcW : FVec F S128x10 .f32) (fcb : FVec F S10 .f32) : FVec F S100000x10 .f32 :=
  addf (Host.dotGeneral dot_S100000x128_S128x10_S100000x10_1_0_0_1_n_n none h fcW)
    (broadcastInDim S100000x10 ![0, 1] bcast_S1x10_S100000x10_0_1 (broadcastInDim S1x10 ![1] bcast_S10_S1x10_1 fcb))

/-- Layer 0's matrix out of a stack of three: the slice at 0, with the unit axis dropped. -/
abbrev wSlice0 (W : FVec F S3x128x128 .f32) : FVec F S128x128 .f32 :=
  shapeCast S128x128 (extractStridedSlice S1x128x128 ![0, 0, 0] W slices_S3x128x128_S1x128x128_0_0_0) shapeCasts_S1x128x128_S128x128
/-- Layer 1's matrix. -/
abbrev wSlice1 (W : FVec F S3x128x128 .f32) : FVec F S128x128 .f32 :=
  shapeCast S128x128 (extractStridedSlice S1x128x128 ![1, 0, 0] W slices_S3x128x128_S1x128x128_1_0_0) shapeCasts_S1x128x128_S128x128
/-- Layer 2's matrix. -/
abbrev wSlice2 (W : FVec F S3x128x128 .f32) : FVec F S128x128 .f32 :=
  shapeCast S128x128 (extractStridedSlice S1x128x128 ![2, 0, 0] W slices_S3x128x128_S1x128x128_2_0_0) shapeCasts_S1x128x128_S128x128
/-- Layer 0's bias out of a stack of three. -/
abbrev bSlice0 (b : FVec F S3x128 .f32) : FVec F S128 .f32 :=
  shapeCast S128 (extractStridedSlice S1x128 ![0, 0] b slices_S3x128_S1x128_0_0) shapeCasts_S1x128_S128
/-- Layer 1's bias. -/
abbrev bSlice1 (b : FVec F S3x128 .f32) : FVec F S128 .f32 :=
  shapeCast S128 (extractStridedSlice S1x128 ![1, 0] b slices_S3x128_S1x128_1_0) shapeCasts_S1x128_S128
/-- Layer 2's bias. -/
abbrev bSlice2 (b : FVec F S3x128 .f32) : FVec F S128 .f32 :=
  shapeCast S128 (extractStridedSlice S1x128 ![2, 0] b slices_S3x128_S1x128_2_0) shapeCasts_S1x128_S128

/-- The whole program's result as a function of its arguments. -/
def result (x : FVec F S100000x128 .f32) (ei : IVec S2x1600000 32) (Wa : FVec F S3x128x128 .f32) (ba : FVec F S3x128 .f32)
    (Wb : FVec F S3x128x128 .f32) (bb : FVec F S3x128 .f32) (fcW : FVec F S128x10 .f32) (fcb : FVec F S10 .f32) : FVec F S100000x10 .f32 :=
  fcStage (layerR (wSlice2 Wa) (bSlice2 ba) (wSlice2 Wb) (bSlice2 bb) ei
    (layerR (wSlice1 Wa) (bSlice1 ba) (wSlice1 Wb) (bSlice1 bb) ei
      (layerR (wSlice0 Wa) (bSlice0 ba) (wSlice0 Wb) (bSlice0 bb) ei x))) fcW fcb

/-! ## The stages' folds

The neighbour sum's two host operations are kept folded: nothing here looks inside them. -/

attribute [local irreducible] Host.gather Host.scatterAdd

theorem pre_src (V : Valuation τ sig (Elt F)) :
    after pre V (main_v1 : DevRef τ sig) = srcIdx (V (main_arg1 : DevRef τ sig)) := by
  unfold pre; after_results_simp <;> rfl

theorem pre_dst (V : Valuation τ sig (Elt F)) :
    after pre V (main_v3 : DevRef τ sig) = dstIdx (V (main_arg1 : DevRef τ sig)) := by
  unfold pre; after_results_simp <;> rfl

set_option maxHeartbeats 4000000 in
theorem pre_arg0 (V : Valuation τ sig (Elt F)) : after pre V (main_arg0 : DevRef τ sig) = V (main_arg0 : DevRef τ sig) := by
  unfold pre; after_results_simp
set_option maxHeartbeats 4000000 in
theorem pre_arg1 (V : Valuation τ sig (Elt F)) : after pre V (main_arg1 : DevRef τ sig) = V (main_arg1 : DevRef τ sig) := by
  unfold pre; after_results_simp
set_option maxHeartbeats 4000000 in
theorem pre_arg2 (V : Valuation τ sig (Elt F)) : after pre V (main_arg2 : DevRef τ sig) = V (main_arg2 : DevRef τ sig) := by
  unfold pre; after_results_simp
set_option maxHeartbeats 4000000 in
theorem pre_arg3 (V : Valuation τ sig (Elt F)) : after pre V (main_arg3 : DevRef τ sig) = V (main_arg3 : DevRef τ sig) := by
  unfold pre; after_results_simp
set_option maxHeartbeats 4000000 in
theorem pre_arg4 (V : Valuation τ sig (Elt F)) : after pre V (main_arg4 : DevRef τ sig) = V (main_arg4 : DevRef τ sig) := by
  unfold pre; after_results_simp
set_option maxHeartbeats 4000000 in
theorem pre_arg5 (V : Valuation τ sig (Elt F)) : after pre V (main_arg5 : DevRef τ sig) = V (main_arg5 : DevRef τ sig) := by
  unfold pre; after_results_simp
set_option maxHeartbeats 4000000 in
theorem pre_arg6 (V : Valuation τ sig (Elt F)) : after pre V (main_arg6 : DevRef τ sig) = V (main_arg6 : DevRef τ sig) := by
  unfold pre; after_results_simp
set_option maxHeartbeats 4000000 in
theorem pre_arg7 (V : Valuation τ sig (Elt F)) : after pre V (main_arg7 : DevRef τ sig) = V (main_arg7 : DevRef τ sig) := by
  unfold pre; after_results_simp
set_option maxHeartbeats 4000000 in
theorem pre_arg8 (V : Valuation τ sig (Elt F)) : after pre V (main_arg8 : DevRef τ sig) = V (main_arg8 : DevRef τ sig) := by
  unfold pre; after_results_simp

set_option maxHeartbeats 4000000 in
/-- Layer 0's fold at its result: the layer function of layer 0's slices of the stacked parameters, the two edge vectors and the input features. -/
theorem L0_out (V : Valuation τ sig (Elt F)) :
    after L0 V (main_v32 : DevRef τ sig) =
      layerOf (wSlice0 (V (main_arg3 : DevRef τ sig))) (bSlice0 (V (main_arg4 : DevRef τ sig)))
        (wSlice0 (V (main_arg5 : DevRef τ sig))) (bSlice0 (V (main_arg6 : DevRef τ sig)))
        (V (main_v1 : DevRef τ sig)) (V (main_v3 : DevRef τ sig)) (V (main_arg0 : DevRef τ sig)) := by
  unfold L0; after_results_simp <;> rfl
set_option maxHeartbeats 4000000 in
theorem L0_v1 (V : Valuation τ sig (Elt F)) : after L0 V (main_v1 : DevRef τ sig) = V (main_v1 : DevRef τ sig) := by
  unfold L0; after_results_simp
set_option maxHeartbeats 4000000 in
theorem L0_v3 (V : Valuation τ sig (Elt F)) : after L0 V (main_v3 : DevRef τ sig) = V (main_v3 : DevRef τ sig) := by
  unfold L0; after_results_simp
set_option maxHeartbeats 4000000 in
theorem L0_arg0 (V : Valuation τ sig (Elt F)) : after L0 V (main_arg0 : DevRef τ sig) = V (main_arg0 : DevRef τ sig) := by
  unfold L0; after_results_simp
set_option maxHeartbeats 4000000 in
theorem L0_arg1 (V : Valuation τ sig (Elt F)) : after L0 V (main_arg1 : DevRef τ sig) = V (main_arg1 : DevRef τ sig) := by
  unfold L0; after_results_simp
set_option maxHeartbeats 4000000 in
theorem L0_arg2 (V : Valuation τ sig (Elt F)) : after L0 V (main_arg2 : DevRef τ sig) = V (main_arg2 : DevRef τ sig) := by
  unfold L0; after_results_simp
set_option maxHeartbeats 4000000 in
theorem L0_arg3 (V : Valuation τ sig (Elt F)) : after L0 V (main_arg3 : DevRef τ sig) = V (main_arg3 : DevRef τ sig) := by
  unfold L0; after_results_simp
set_option maxHeartbeats 4000000 in
theorem L0_arg4 (V : Valuation τ sig (Elt F)) : after L0 V (main_arg4 : DevRef τ sig) = V (main_arg4 : DevRef τ sig) := by
  unfold L0; after_results_simp
set_option maxHeartbeats 4000000 in
theorem L0_arg5 (V : Valuation τ sig (Elt F)) : after L0 V (main_arg5 : DevRef τ sig) = V (main_arg5 : DevRef τ sig) := by
  unfold L0; after_results_simp
set_option maxHeartbeats 4000000 in
theorem L0_arg6 (V : Valuation τ sig (Elt F)) : after L0 V (main_arg6 : DevRef τ sig) = V (main_arg6 : DevRef τ sig) := by
  unfold L0; after_results_simp
set_option maxHeartbeats 4000000 in
theorem L0_arg7 (V : Valuation τ sig (Elt F)) : after L0 V (main_arg7 : DevRef τ sig) = V (main_arg7 : DevRef τ sig) := by
  unfold L0; after_results_simp
set_option maxHeartbeats 4000000 in
theorem L0_arg8 (V : Valuation τ sig (Elt F)) : after L0 V (main_arg8 : DevRef τ sig) = V (main_arg8 : DevRef τ sig) := by
  unfold L0; after_results_simp

set_option maxHeartbeats 4000000 in
/-- Layer 1's fold at its result: the layer function of layer 1's slices of the stacked parameters, the two edge vectors and the input features. -/
theorem L1_out (V : Valuation τ sig (Elt F)) :
    after L1 V (main_v61 : DevRef τ sig) =
      layerOf (wSlice1 (V (main_arg3 : DevRef τ sig))) (bSlice1 (V (main_arg4 : DevRef τ sig)))
        (wSlice1 (V (main_arg5 : DevRef τ sig))) (bSlice1 (V (main_arg6 : DevRef τ sig)))
        (V (main_v1 : DevRef τ sig)) (V (main_v3 : DevRef τ sig)) (V (main_v32 : DevRef τ sig)) := by
  unfold L1; after_results_simp <;> rfl
set_option maxHeartbeats 4000000 in
theorem L1_v1 (V : Valuation τ sig (Elt F)) : after L1 V (main_v1 : DevRef τ sig) = V (main_v1 : DevRef τ sig) := by
  unfold L1; after_results_simp
set_option maxHeartbeats 4000000 in
theorem L1_v3 (V : Valuation τ sig (Elt F)) : after L1 V (main_v3 : DevRef τ sig) = V (main_v3 : DevRef τ sig) := by
  unfold L1; after_results_simp
set_option maxHeartbeats 4000000 in
theorem L1_arg0 (V : Valuation τ sig (Elt F)) : after L1 V (main_arg0 : DevRef τ sig) = V (main_arg0 : DevRef τ sig) := by
  unfold L1; after_results_simp
set_option maxHeartbeats 4000000 in
theorem L1_arg1 (V : Valuation τ sig (Elt F)) : after L1 V (main_arg1 : DevRef τ sig) = V (main_arg1 : DevRef τ sig) := by
  unfold L1; after_results_simp
set_option maxHeartbeats 4000000 in
theorem L1_arg2 (V : Valuation τ sig (Elt F)) : after L1 V (main_arg2 : DevRef τ sig) = V (main_arg2 : DevRef τ sig) := by
  unfold L1; after_results_simp
set_option maxHeartbeats 4000000 in
theorem L1_arg3 (V : Valuation τ sig (Elt F)) : after L1 V (main_arg3 : DevRef τ sig) = V (main_arg3 : DevRef τ sig) := by
  unfold L1; after_results_simp
set_option maxHeartbeats 4000000 in
theorem L1_arg4 (V : Valuation τ sig (Elt F)) : after L1 V (main_arg4 : DevRef τ sig) = V (main_arg4 : DevRef τ sig) := by
  unfold L1; after_results_simp
set_option maxHeartbeats 4000000 in
theorem L1_arg5 (V : Valuation τ sig (Elt F)) : after L1 V (main_arg5 : DevRef τ sig) = V (main_arg5 : DevRef τ sig) := by
  unfold L1; after_results_simp
set_option maxHeartbeats 4000000 in
theorem L1_arg6 (V : Valuation τ sig (Elt F)) : after L1 V (main_arg6 : DevRef τ sig) = V (main_arg6 : DevRef τ sig) := by
  unfold L1; after_results_simp
set_option maxHeartbeats 4000000 in
theorem L1_arg7 (V : Valuation τ sig (Elt F)) : after L1 V (main_arg7 : DevRef τ sig) = V (main_arg7 : DevRef τ sig) := by
  unfold L1; after_results_simp
set_option maxHeartbeats 4000000 in
theorem L1_arg8 (V : Valuation τ sig (Elt F)) : after L1 V (main_arg8 : DevRef τ sig) = V (main_arg8 : DevRef τ sig) := by
  unfold L1; after_results_simp

set_option maxHeartbeats 4000000 in
/-- Layer 2's fold at its result: the layer function of layer 2's slices of the stacked parameters, the two edge vectors and the input features. -/
theorem L2_out (V : Valuation τ sig (Elt F)) :
    after L2 V (main_v90 : DevRef τ sig) =
      layerOf (wSlice2 (V (main_arg3 : DevRef τ sig))) (bSlice2 (V (main_arg4 : DevRef τ sig)))
        (wSlice2 (V (main_arg5 : DevRef τ sig))) (bSlice2 (V (main_arg6 : DevRef τ sig)))
        (V (main_v1 : DevRef τ sig)) (V (main_v3 : DevRef τ sig)) (V (main_v61 : DevRef τ sig)) := by
  unfold L2; after_results_simp <;> rfl
set_option maxHeartbeats 4000000 in
theorem L2_arg0 (V : Valuation τ sig (Elt F)) : after L2 V (main_arg0 : DevRef τ sig) = V (main_arg0 : DevRef τ sig) := by
  unfold L2; after_results_simp
set_option maxHeartbeats 4000000 in
theorem L2_arg1 (V : Valuation τ sig (Elt F)) : after L2 V (main_arg1 : DevRef τ sig) = V (main_arg1 : DevRef τ sig) := by
  unfold L2; after_results_simp
set_option maxHeartbeats 4000000 in
theorem L2_arg2 (V : Valuation τ sig (Elt F)) : after L2 V (main_arg2 : DevRef τ sig) = V (main_arg2 : DevRef τ sig) := by
  unfold L2; after_results_simp
set_option maxHeartbeats 4000000 in
theorem L2_arg3 (V : Valuation τ sig (Elt F)) : after L2 V (main_arg3 : DevRef τ sig) = V (main_arg3 : DevRef τ sig) := by
  unfold L2; after_results_simp
set_option maxHeartbeats 4000000 in
theorem L2_arg4 (V : Valuation τ sig (Elt F)) : after L2 V (main_arg4 : DevRef τ sig) = V (main_arg4 : DevRef τ sig) := by
  unfold L2; after_results_simp
set_option maxHeartbeats 4000000 in
theorem L2_arg5 (V : Valuation τ sig (Elt F)) : after L2 V (main_arg5 : DevRef τ sig) = V (main_arg5 : DevRef τ sig) := by
  unfold L2; after_results_simp
set_option maxHeartbeats 4000000 in
theorem L2_arg6 (V : Valuation τ sig (Elt F)) : after L2 V (main_arg6 : DevRef τ sig) = V (main_arg6 : DevRef τ sig) := by
  unfold L2; after_results_simp
set_option maxHeartbeats 4000000 in
theorem L2_arg7 (V : Valuation τ sig (Elt F)) : after L2 V (main_arg7 : DevRef τ sig) = V (main_arg7 : DevRef τ sig) := by
  unfold L2; after_results_simp
set_option maxHeartbeats 4000000 in
theorem L2_arg8 (V : Valuation τ sig (Elt F)) : after L2 V (main_arg8 : DevRef τ sig) = V (main_arg8 : DevRef τ sig) := by
  unfold L2; after_results_simp

/-- The head's fold at the program's result. -/
theorem fc_out (V : Valuation τ sig (Elt F)) :
    after fc V (main_v94 : DevRef τ sig) = fcStage (V (main_v90 : DevRef τ sig)) (V (main_arg7 : DevRef τ sig)) (V (main_arg8 : DevRef τ sig)) := by
  unfold fc; after_results_simp <;> rfl
set_option maxHeartbeats 4000000 in
theorem fc_arg0 (V : Valuation τ sig (Elt F)) : after fc V (main_arg0 : DevRef τ sig) = V (main_arg0 : DevRef τ sig) := by
  unfold fc; after_results_simp
set_option maxHeartbeats 4000000 in
theorem fc_arg1 (V : Valuation τ sig (Elt F)) : after fc V (main_arg1 : DevRef τ sig) = V (main_arg1 : DevRef τ sig) := by
  unfold fc; after_results_simp
set_option maxHeartbeats 4000000 in
theorem fc_arg2 (V : Valuation τ sig (Elt F)) : after fc V (main_arg2 : DevRef τ sig) = V (main_arg2 : DevRef τ sig) := by
  unfold fc; after_results_simp
set_option maxHeartbeats 4000000 in
theorem fc_arg3 (V : Valuation τ sig (Elt F)) : after fc V (main_arg3 : DevRef τ sig) = V (main_arg3 : DevRef τ sig) := by
  unfold fc; after_results_simp
set_option maxHeartbeats 4000000 in
theorem fc_arg4 (V : Valuation τ sig (Elt F)) : after fc V (main_arg4 : DevRef τ sig) = V (main_arg4 : DevRef τ sig) := by
  unfold fc; after_results_simp
set_option maxHeartbeats 4000000 in
theorem fc_arg5 (V : Valuation τ sig (Elt F)) : after fc V (main_arg5 : DevRef τ sig) = V (main_arg5 : DevRef τ sig) := by
  unfold fc; after_results_simp
set_option maxHeartbeats 4000000 in
theorem fc_arg6 (V : Valuation τ sig (Elt F)) : after fc V (main_arg6 : DevRef τ sig) = V (main_arg6 : DevRef τ sig) := by
  unfold fc; after_results_simp
set_option maxHeartbeats 4000000 in
theorem fc_arg7 (V : Valuation τ sig (Elt F)) : after fc V (main_arg7 : DevRef τ sig) = V (main_arg7 : DevRef τ sig) := by
  unfold fc; after_results_simp
set_option maxHeartbeats 4000000 in
theorem fc_arg8 (V : Valuation τ sig (Elt F)) : after fc V (main_arg8 : DevRef τ sig) = V (main_arg8 : DevRef τ sig) := by
  unfold fc; after_results_simp

/-! ## The whole program -/

/-- The program's result buffer holds three layers and the head of the arguments. -/
theorem result_eq (V : Valuation τ sig (Elt F)) :
    after ops V (main_v94 : DevRef τ sig) =
      result (V (main_arg0 : DevRef τ sig)) (V (main_arg1 : DevRef τ sig)) (V (main_arg3 : DevRef τ sig)) (V (main_arg4 : DevRef τ sig))
        (V (main_arg5 : DevRef τ sig)) (V (main_arg6 : DevRef τ sig)) (V (main_arg7 : DevRef τ sig)) (V (main_arg8 : DevRef τ sig)) := by
  unfold ops
  rw [after_append, after_append, after_append, after_append]
  rw [fc_out]
  rw [L2_out, L2_arg7, L2_arg8]
  rw [L1_out, L1_v1, L1_v3, L1_arg3, L1_arg4, L1_arg5, L1_arg6, L1_arg7, L1_arg8]
  rw [L0_out, L0_v1, L0_v3, L0_arg3, L0_arg4, L0_arg5, L0_arg6, L0_arg7, L0_arg8]
  rw [pre_src, pre_dst, pre_arg0, pre_arg3, pre_arg4, pre_arg5, pre_arg6, pre_arg7, pre_arg8]
  rfl

/-- The program leaves argument 0 as it was. -/
theorem ops_arg0 (V : Valuation τ sig (Elt F)) : after ops V (main_arg0 : DevRef τ sig) = V (main_arg0 : DevRef τ sig) := by
  unfold ops
  rw [after_append, after_append, after_append, after_append, fc_arg0, L2_arg0, L1_arg0, L0_arg0, pre_arg0]

/-- The program leaves argument 1 as it was. -/
theorem ops_arg1 (V : Valuation τ sig (Elt F)) : after ops V (main_arg1 : DevRef τ sig) = V (main_arg1 : DevRef τ sig) := by
  unfold ops
  rw [after_append, after_append, after_append, after_append, fc_arg1, L2_arg1, L1_arg1, L0_arg1, pre_arg1]

/-- The program leaves argument 2 as it was. -/
theorem ops_arg2 (V : Valuation τ sig (Elt F)) : after ops V (main_arg2 : DevRef τ sig) = V (main_arg2 : DevRef τ sig) := by
  unfold ops
  rw [after_append, after_append, after_append, after_append, fc_arg2, L2_arg2, L1_arg2, L0_arg2, pre_arg2]

/-- The program leaves argument 3 as it was. -/
theorem ops_arg3 (V : Valuation τ sig (Elt F)) : after ops V (main_arg3 : DevRef τ sig) = V (main_arg3 : DevRef τ sig) := by
  unfold ops
  rw [after_append, after_append, after_append, after_append, fc_arg3, L2_arg3, L1_arg3, L0_arg3, pre_arg3]

/-- The program leaves argument 4 as it was. -/
theorem ops_arg4 (V : Valuation τ sig (Elt F)) : after ops V (main_arg4 : DevRef τ sig) = V (main_arg4 : DevRef τ sig) := by
  unfold ops
  rw [after_append, after_append, after_append, after_append, fc_arg4, L2_arg4, L1_arg4, L0_arg4, pre_arg4]

/-- The program leaves argument 5 as it was. -/
theorem ops_arg5 (V : Valuation τ sig (Elt F)) : after ops V (main_arg5 : DevRef τ sig) = V (main_arg5 : DevRef τ sig) := by
  unfold ops
  rw [after_append, after_append, after_append, after_append, fc_arg5, L2_arg5, L1_arg5, L0_arg5, pre_arg5]

/-- The program leaves argument 6 as it was. -/
theorem ops_arg6 (V : Valuation τ sig (Elt F)) : after ops V (main_arg6 : DevRef τ sig) = V (main_arg6 : DevRef τ sig) := by
  unfold ops
  rw [after_append, after_append, after_append, after_append, fc_arg6, L2_arg6, L1_arg6, L0_arg6, pre_arg6]

/-- The program leaves argument 7 as it was. -/
theorem ops_arg7 (V : Valuation τ sig (Elt F)) : after ops V (main_arg7 : DevRef τ sig) = V (main_arg7 : DevRef τ sig) := by
  unfold ops
  rw [after_append, after_append, after_append, after_append, fc_arg7, L2_arg7, L1_arg7, L0_arg7, pre_arg7]

/-- The program leaves argument 8 as it was. -/
theorem ops_arg8 (V : Valuation τ sig (Elt F)) : after ops V (main_arg8 : DevRef τ sig) = V (main_arg8 : DevRef τ sig) := by
  unfold ops
  rw [after_append, after_append, after_append, after_append, fc_arg8, L2_arg8, L1_arg8, L0_arg8, pre_arg8]

end Cert.ReferenceIdeal.GinRun

end
-- ==== Proof.RefIndex.lean ====
/-
  The reference's stages at the extended reals are the specification's, entry by entry.

  At the extended reals a product of matrices read at an entry is the finite sum over the contracted feature, a
  spread bias reads its own entry, and the reference's ELU — `v` where `v > 0`, elsewhere `1 * expm1 w` with `w = v`
  there — is `v` above zero and `e^v - 1` at and below it.  So a layer of the reference is the layer of the
  specification applied to the same features and the same neighbour sum, with the matrices and biases read at their
  indices, and likewise the head.  The neighbour sum itself is never opened: it is the same function on both sides.
-/
import proofs.«108478_j44753559224362_1_alg».proof.Proof.RefStages
import proofs.«108478_j44753559224362_1_alg».proof.Proof.Spec
import Idealize.ShloMosaic.Lib.ValueIdx
import Idealize.ShloMosaic.Lib.Pipeline.Value
import Idealize.ShloMosaic.PureOps.Ideal.Laws
import Idealize.ShloMosaic.PureOps.IdealRules

noncomputable section

namespace Cert.ReferenceIdeal.GinRun

open Cert.ReferenceIdeal Cert.ReferenceIdeal.Gen Idealize.ShloMosaic Idealize.ShloMosaic.TcCoe Idealize.SL.Sem Idealize.ShloMosaic.StableHlo
open Idealize.ShloMosaic.ValueIdx

variable {F : FTy → Type} [FloatOps F]

/-- The word of all zeros denotes 0 and the word 0x3F800000 denotes 1. -/
theorem ofBits_zero : Ideal.ofBits .f32 0x00000000#32 = 0 := Ideal.ofBits_zero_f32
theorem ofBits_one : Ideal.ofBits .f32 0x3F800000#32 = 1 := IdealRules.sign_bit.ideal_onePat .f32

/-- The reference's ELU at an entry is ELU of the entry: where `v > 0` both are `v`; elsewhere the inner selection
    returns `v` itself, so the reference computes `1 * (e^v - 1)`. -/
theorem eluR_apply (v : FVec Ideal S100000x128 .f32) (i : S100000x128.Idx) : eluR v i = Cert.Gin.elu (v i) := by
  show Scalar.select (Ideal.cmp .ogt (v i) (Ideal.ofBits .f32 0x00000000#32)) (v i)
      (Ideal.ofBits .f32 0x3F800000#32 * (Ideal.exp (Scalar.select (Ideal.cmp .ogt (v i) (Ideal.ofBits .f32 0x00000000#32))
        (Ideal.ofBits .f32 0x00000000#32) (v i)) - 1)) = if 0 < v i then v i else Ideal.exp (v i) - 1
  rw [ofBits_zero, ofBits_one, one_mul]
  by_cases h : (0 : EReal) < v i
  · have hc : Ideal.cmp .ogt (v i) 0 = 1#1 := by simp only [Ideal.cmp, h, decide_true]; rfl
    rw [hc, select_one, if_pos h]
  · have hc : Ideal.cmp .ogt (v i) 0 = 0#1 := by simp only [Ideal.cmp, h, decide_false]; rfl
    rw [hc, select_zero, select_zero, if_neg h]

/-- A bias vector spread along the nodes reads, at node `n` and feature `q`, its entry `q`. -/
theorem biasRows_apply (b : FVec F S128 .f32) (n : Fin 100000) (q : Fin 128) : biasRows b (ix2 n q) = b (ix1 q) := by
  unfold biasRows
  refine (broadcastInDim_apply ![0, 1] bcast_S1x128_S100000x128_0_1 _ (ix2 n q) (ix2 (0 : Fin 1) q) ?_).trans ?_
  · intro a; match a with | ⟨0, _⟩ => rfl | ⟨1, _⟩ => rfl
  · refine broadcastInDim_apply ![1] bcast_S128_S1x128_1 b (ix2 (0 : Fin 1) q) (ix1 q) ?_
    intro a; match a with | ⟨0, _⟩ => rfl

/-- The head's bias spread along the nodes reads, at node `n` and class `q`, its entry `q`. -/
theorem biasRows10_apply (b : FVec F S10 .f32) (n : Fin 100000) (q : Fin 10) :
    broadcastInDim S100000x10 ![0, 1] bcast_S1x10_S100000x10_0_1 (broadcastInDim S1x10 ![1] bcast_S10_S1x10_1 b) (ix2 n q) = b (ix1 q) := by
  refine (broadcastInDim_apply ![0, 1] bcast_S1x10_S100000x10_0_1 _ (ix2 n q) (ix2 (0 : Fin 1) q) ?_).trans ?_
  · intro a; match a with | ⟨0, _⟩ => rfl | ⟨1, _⟩ => rfl
  · refine broadcastInDim_apply ![1] bcast_S10_S1x10_1 b (ix2 (0 : Fin 1) q) (ix1 q) ?_
    intro a; match a with | ⟨0, _⟩ => rfl

/-- A product of the node features with a 128 by 128 matrix, at node `a` and feature `b`: the sum over the contracted feature. -/
theorem dot128_apply (A : FVec Ideal S100000x128 .f32) (B : FVec Ideal S128x128 .f32) (a : Fin 100000) (b : Fin 128) :
    Host.dotGeneral dot_S100000x128_S128x128_S100000x128_1_0_0_1_n_n none A B (ix2 a b) = ∑ c : Fin 128, A (ix2 a c) * B (ix2 c b) := by
  show FloatOps.dotGeneral _ none _ A B (ix2 a b) = _
  rw [Ideal.dotGeneral_apply, ← Equiv.sum_comp (contrEquiv1 dot_S100000x128_S128x128_S100000x128_1_0_0_1_n_n 128 rfl rfl).symm]
  refine Finset.sum_congr rfl fun c _ => ?_
  have c2 := contrEquiv1_symm_val dot_S100000x128_S128x128_S100000x128_1_0_0_1_n_n 128 rfl rfl c
  have l2 : (dot_S100000x128_S128x128_S100000x128_1_0_0_1_n_n).lhsIdx (ix2 a b) ((contrEquiv1 _ 128 rfl rfl).symm c) = ix2 a c := by
    funext ax; apply Fin.ext
    match ax with
    | ⟨0, _⟩ => simp [DotDims.lhsIdx, dot_S100000x128_S128x128_S100000x128_1_0_0_1_n_n]; rfl
    | ⟨1, _⟩ => simp [DotDims.lhsIdx, dot_S100000x128_S128x128_S100000x128_1_0_0_1_n_n]; exact c2
  have r2 : (dot_S100000x128_S128x128_S100000x128_1_0_0_1_n_n).rhsIdx (ix2 a b) ((contrEquiv1 _ 128 rfl rfl).symm c) = ix2 c b := by
    funext ax; apply Fin.ext
    match ax with
    | ⟨0, _⟩ => simp [DotDims.rhsIdx, dot_S100000x128_S128x128_S100000x128_1_0_0_1_n_n]; exact c2
    | ⟨1, _⟩ => simp [DotDims.rhsIdx, dot_S100000x128_S128x128_S100000x128_1_0_0_1_n_n]; rfl
  rw [l2, r2]

/-- The same with the 128 by 10 matrix of the head. -/
theorem dot10_apply (A : FVec Ideal S100000x128 .f32) (B : FVec Ideal S128x10 .f32) (a : Fin 100000) (b : Fin 10) :
    Host.dotGeneral dot_S100000x128_S128x10_S100000x10_1_0_0_1_n_n none A B (ix2 a b) = ∑ c : Fin 128, A (ix2 a c) * B (ix2 c b) := by
  show FloatOps.dotGeneral _ none _ A B (ix2 a b) = _
  rw [Ideal.dotGeneral_apply, ← Equiv.sum_comp (contrEquiv1 dot_S100000x128_S128x10_S100000x10_1_0_0_1_n_n 128 rfl rfl).symm]
  refine Finset.sum_congr rfl fun c _ => ?_
  have c2 := contrEquiv1_symm_val dot_S100000x128_S128x10_S100000x10_1_0_0_1_n_n 128 rfl rfl c
  have l2 : (dot_S100000x128_S128x10_S100000x10_1_0_0_1_n_n).lhsIdx (ix2 a b) ((contrEquiv1 _ 128 rfl rfl).symm c) = ix2 a c := by
    funext ax; apply Fin.ext
    match ax with
    | ⟨0, _⟩ => simp [DotDims.lhsIdx, dot_S100000x128_S128x10_S100000x10_1_0_0_1_n_n]; rfl
    | ⟨1, _⟩ => simp [DotDims.lhsIdx, dot_S100000x128_S128x10_S100000x10_1_0_0_1_n_n]; exact c2
  have r2 : (dot_S100000x128_S128x10_S100000x10_1_0_0_1_n_n).rhsIdx (ix2 a b) ((contrEquiv1 _ 128 rfl rfl).symm c) = ix2 c b := by
    funext ax; apply Fin.ext
    match ax with
    | ⟨0, _⟩ => simp [DotDims.rhsIdx, dot_S100000x128_S128x10_S100000x10_1_0_0_1_n_n]; exact c2
    | ⟨1, _⟩ => simp [DotDims.rhsIdx, dot_S100000x128_S128x10_S100000x10_1_0_0_1_n_n]; rfl
  rw [l2, r2]

/-- A layer of the reference is the layer of the specification, entry by entry: the neighbour sum is whatever the
    two host operations produce, the matrices and biases are read at their indices. -/
theorem layerOf_eq (W : FVec Ideal S128x128 .f32) (b : FVec Ideal S128 .f32) (W' : FVec Ideal S128x128 .f32) (b' : FVec Ideal S128 .f32)
    (src dst : IVec S1600000 32) (h : FVec Ideal S100000x128 .f32) :
    layerOf W b W' b' src dst h
      = Cert.Gin.layer h (aggOf src dst h) (fun j k => W (ix2 j k)) (fun k => b (ix1 k)) (fun k q => W' (ix2 k q)) (fun q => b' (ix1 q)) := by
  funext i
  obtain ⟨n, q, rfl⟩ : ∃ (n : Fin 100000) (q : Fin 128), i = ix2 n q := ⟨i 0, i 1, eq_ix2 i⟩
  rw [Cert.Gin.layer_apply]
  unfold layerOf Cert.Gin.mlp Cert.Gin.hid
  rw [eluR_apply, addf_apply, dot128_apply, biasRows_apply]
  refine congrArg Cert.Gin.elu (congrArg (· + b' (ix1 q)) (Finset.sum_congr rfl fun k _ => ?_))
  rw [eluR_apply, addf_apply, dot128_apply, biasRows_apply]
  refine congrArg (· * W' (ix2 k q)) (congrArg Cert.Gin.elu (congrArg (· + b (ix1 k)) (Finset.sum_congr rfl fun j _ => ?_)))
  rw [addf_apply]

/-- The same from the index table. -/
theorem layerR_eq (W : FVec Ideal S128x128 .f32) (b : FVec Ideal S128 .f32) (W' : FVec Ideal S128x128 .f32) (b' : FVec Ideal S128 .f32)
    (ei : IVec S2x1600000 32) (h : FVec Ideal S100000x128 .f32) :
    layerR W b W' b' ei h
      = Cert.Gin.layer h (agg ei h) (fun j k => W (ix2 j k)) (fun k => b (ix1 k)) (fun k q => W' (ix2 k q)) (fun q => b' (ix1 q)) :=
  layerOf_eq W b W' b' (srcIdx ei) (dstIdx ei) h

/-- The head of the reference is the head of the specification, entry by entry. -/
theorem fcStage_eq (h : FVec Ideal S100000x128 .f32) (fcW : FVec Ideal S128x10 .f32) (fcb : FVec Ideal S10 .f32) :
    fcStage h fcW fcb = Cert.Gin.head h (fun k q => fcW (ix2 k q)) (fun q => fcb (ix1 q)) := by
  funext i
  obtain ⟨n, q, rfl⟩ : ∃ (n : Fin 100000) (q : Fin 10), i = ix2 n q := ⟨i 0, i 1, eq_ix2 i⟩
  rw [Cert.Gin.head_apply]
  unfold fcStage
  rw [addf_apply, dot10_apply, biasRows10_apply]

end Cert.ReferenceIdeal.GinRun

end
-- ==== Proof.RefValue.lean ====
/-
  The reference program's run, read against the specification.

  Every weakly fair execution of the reference program ends with its result buffer holding the network of the
  specification — three layers and the head — applied to the arguments, each layer's neighbour sum being the
  reference's own gather and scatter-add of that layer's input, and each parameter the reference's own slice of the
  stacked argument; the nine arguments are left as they were.
-/
import proofs.«108478_j44753559224362_1_alg».proof.Proof.RefIndex

noncomputable section

namespace Cert.ReferenceIdeal.GinRun

open Cert.ReferenceIdeal Cert.ReferenceIdeal.Gen Idealize.ShloMosaic Idealize.ShloMosaic.TcCoe Idealize.SL.Sem Idealize.ShloMosaic.StableHlo
open Idealize.ShloMosaic.ValueIdx

/-- Layer 0 of the network on features `h`: the specification's layer on `h` and the reference's neighbour sum of `h`,
    with the first slices of the stacked parameters read at their indices. -/
def lay0 (Wa : FVec Ideal S3x128x128 .f32) (ba : FVec Ideal S3x128 .f32) (Wb : FVec Ideal S3x128x128 .f32) (bb : FVec Ideal S3x128 .f32)
    (ei : IVec S2x1600000 32) (h : FVec Ideal S100000x128 .f32) : FVec Ideal S100000x128 .f32 :=
  Cert.Gin.layer h (agg ei h) (fun j k => wSlice0 Wa (ix2 j k)) (fun k => bSlice0 ba (ix1 k))
    (fun k q => wSlice0 Wb (ix2 k q)) (fun q => bSlice0 bb (ix1 q))

/-- Layer 1, with the second slices. -/
def lay1 (Wa : FVec Ideal S3x128x128 .f32) (ba : FVec Ideal S3x128 .f32) (Wb : FVec Ideal S3x128x128 .f32) (bb : FVec Ideal S3x128 .f32)
    (ei : IVec S2x1600000 32) (h : FVec Ideal S100000x128 .f32) : FVec Ideal S100000x128 .f32 :=
  Cert.Gin.layer h (agg ei h) (fun j k => wSlice1 Wa (ix2 j k)) (fun k => bSlice1 ba (ix1 k))
    (fun k q => wSlice1 Wb (ix2 k q)) (fun q => bSlice1 bb (ix1 q))

/-- Layer 2, with the third slices. -/
def lay2 (Wa : FVec Ideal S3x128x128 .f32) (ba : FVec Ideal S3x128 .f32) (Wb : FVec Ideal S3x128x128 .f32) (bb : FVec Ideal S3x128 .f32)
    (ei : IVec S2x1600000 32) (h : FVec Ideal S100000x128 .f32) : FVec Ideal S100000x128 .f32 :=
  Cert.Gin.layer h (agg ei h) (fun j k => wSlice2 Wa (ix2 j k)) (fun k => bSlice2 ba (ix1 k))
    (fun k q => wSlice2 Wb (ix2 k q)) (fun q => bSlice2 bb (ix1 q))

/-- The network: the three layers in turn, then the head. -/
def net (x : FVec Ideal S100000x128 .f32) (ei : IVec S2x1600000 32) (Wa : FVec Ideal S3x128x128 .f32) (ba : FVec Ideal S3x128 .f32)
    (Wb : FVec Ideal S3x128x128 .f32) (bb : FVec Ideal S3x128 .f32) (fcW : FVec Ideal S128x10 .f32) (fcb : FVec Ideal S10 .f32) :
    FVec Ideal S100000x10 .f32 :=
  Cert.Gin.head (lay2 Wa ba Wb bb ei (lay1 Wa ba Wb bb ei (lay0 Wa ba Wb bb ei x))) (fun k q => fcW (ix2 k q)) (fun q => fcb (ix1 q))

/-- The reference's composed stages are the network. -/
theorem result_eq_net (x : FVec Ideal S100000x128 .f32) (ei : IVec S2x1600000 32) (Wa : FVec Ideal S3x128x128 .f32) (ba : FVec Ideal S3x128 .f32)
    (Wb : FVec Ideal S3x128x128 .f32) (bb : FVec Ideal S3x128 .f32) (fcW : FVec Ideal S128x10 .f32) (fcb : FVec Ideal S10 .f32) :
    result x ei Wa ba Wb bb fcW fcb = net x ei Wa ba Wb bb fcW fcb := by
  unfold result net lay2 lay1 lay0
  rw [fcStage_eq, layerR_eq, layerR_eq, layerR_eq]

/-- On every device, from any memory with zero counters: every weakly fair execution of the reference program at the
    extended reals terminates with the result buffer at the network of the arguments and the nine arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v94)
          = net (m ((c.tc : Thread nD τ).loc main_arg0)) (m ((c.tc : Thread nD τ).loc main_arg1))
              (m ((c.tc : Thread nD τ).loc main_arg3)) (m ((c.tc : Thread nD τ).loc main_arg4))
              (m ((c.tc : Thread nD τ).loc main_arg5)) (m ((c.tc : Thread nD τ).loc main_arg6))
              (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c =>
      ⟨(h c main_v94).trans ((result_eq (launchContents m c)).trans (result_eq_net _ _ _ _ _ _ _ _)),
       (h c main_arg0).trans (ops_arg0 _), (h c main_arg1).trans (ops_arg1 _), (h c main_arg2).trans (ops_arg2 _),
       (h c main_arg3).trans (ops_arg3 _), (h c main_arg4).trans (ops_arg4 _), (h c main_arg5).trans (ops_arg5 _),
       (h c main_arg6).trans (ops_arg6 _), (h c main_arg7).trans (ops_arg7 _), (h c main_arg8).trans (ops_arg8 _)⟩)
    (run_main m ρ)

end Cert.ReferenceIdeal.GinRun

end
-- ==== Proof.Bridge.lean ====
/-
  The two programs compute one function.

  Both results are the classification head of three layers of `Cert.Gin.layer`, each layer fed its own
  neighbour sums.  What remains to compare are the ingredients.  The neighbour sums are the same gather and
  scatter-add of the same endpoint vectors in both programs.  The weight matrices are the same slices of
  the stacked parameters.  The biases differ only in layout: the kernel passes each as one row of 128 (a
  vector recast with a leading axis of length one) and reads entry (0, k); the reference broadcasts the
  vector itself and reads entry k — the same number.  Likewise for the head's bias of 10.
-/
import proofs.«108478_j44753559224362_1_alg».proof.Proof.KernelValue
import proofs.«108478_j44753559224362_1_alg».proof.Proof.RefValue
import Idealize.ShloMosaic.Lib.ValueLayout

noncomputable section

namespace Cert.Proof.GinBridge

open Idealize.ShloMosaic Idealize.ShloMosaic.TcCoe Idealize.SL.Sem Idealize.ShloMosaic.ValueIdx
open Cert.KernelIdeal.GinWalk Cert.KernelIdeal.GinNet

/-- A vector of 128 laid out as one row, read at column `k` of its only row, is the vector at `k`. -/
theorem brow_row (off : Fin 2 → Nat) (hs : Cert.KernelIdeal.S3x128.Slices off Cert.KernelIdeal.S1x128)
    (b : (⟨Cert.KernelIdeal.S3x128, .f32⟩ : BufTy).Contents (Elt Ideal)) :
    (fun k : Fin 128 => brow (F := Ideal) off hs b (ix2 0 k)) = fun k => bvec (F := Ideal) off hs b (ix1 k) :=
  funext fun k => shapeCast_a_1a_apply _ _ 0 k

variable (m : (ℓ : Loc Cert.KernelIdeal.nD Cert.KernelIdeal.τ Cert.KernelIdeal.sig) → Buf (Elt Ideal) ℓ) (c : Dev Cert.KernelIdeal.nD)

theorem hid1_eq : hid1 m c = Cert.ReferenceIdeal.GinRun.lay0 (a3 m c) (a4 m c) (a5 m c) (a6 m c) (a1 m c) (a0 m c) := by
  unfold hid1 Cert.ReferenceIdeal.GinRun.lay0
  rw [brow_row, brow_row]
  rfl

theorem hid2_eq : hid2 m c = Cert.ReferenceIdeal.GinRun.lay1 (a3 m c) (a4 m c) (a5 m c) (a6 m c) (a1 m c) (hid1 m c) := by
  unfold hid2 Cert.ReferenceIdeal.GinRun.lay1
  rw [brow_row, brow_row]
  rfl

theorem hid3_eq : hid3 m c = Cert.ReferenceIdeal.GinRun.lay2 (a3 m c) (a4 m c) (a5 m c) (a6 m c) (a1 m c) (hid2 m c) := by
  unfold hid3 Cert.ReferenceIdeal.GinRun.lay2
  rw [brow_row, brow_row]
  rfl

/-- The reference's network of the kernel's launch arguments is the kernel's composed value. -/
theorem net_eq : Cert.ReferenceIdeal.GinRun.net (a0 m c) (a1 m c) (a3 m c) (a4 m c) (a5 m c) (a6 m c) (a7 m c) (a8 m c) = outV m c := by
  unfold Cert.ReferenceIdeal.GinRun.net outV
  rw [hid3_eq, hid2_eq, hid1_eq]
  have hb : (fun q : Fin 10 => (shapeCast Cert.KernelIdeal.S1x10 (a8 m c) Cert.KernelIdeal.Facts₀.shapeCasts_S10_S1x10
      : (⟨Cert.KernelIdeal.S1x10, .f32⟩ : BufTy).Contents (Elt Ideal)) (ix2 0 q)) = fun q => a8 m c (ix1 q) :=
    funext fun q => shapeCast_a_1a_apply _ _ 0 q
  rw [hb]

end Cert.Proof.GinBridge

end
-- ==== Proof.lean ====
/-
  The certificate: a three-layer graph network, row-blocked on the accelerator, against its plain reference.

  Frames.  The two kernel programs' frames are their generated frame certificates.  The reference is a
  straight line of host operations: it always terminates and writes only its own intermediate buffers.

  Idealization.  The ideal pass rewrote nothing, so there is nothing to preserve.

  Equality at the ideal instance.  Floats are extended reals, format changes are the identity, a matrix
  product into a zero accumulator and the host's dot product are the same finite sums.  Each of the kernel's
  four regions leaves in its output array, row block by row block, one whole-array function of its operands:
  for the three perceptron regions `Cert.Gin.layer` of the features and their neighbour sums, for the last
  the classification head.  Between the regions both programs run the same gather and scatter-add and cut
  the same slices out of the stacked parameters.  The reference computes the same layers on whole arrays;
  its exponential-minus-one form of ELU is the kernel's select of `e^v - 1` on every extended real.
  So both results are one function of the arguments (`Cert.Proof.GinBridge.net_eq`).  No finiteness of
  the inputs is used: every step is an identity of extended reals.
-/
import proofs.«108478_j44753559224362_1_alg».proof.Defs
import proofs.«108478_j44753559224362_1_alg».proof.Proof.Gen.Kernel
import proofs.«108478_j44753559224362_1_alg».proof.Proof.Gen.Kernel.Frame
import proofs.«108478_j44753559224362_1_alg».proof.Proof.Gen.KernelIdeal
import proofs.«108478_j44753559224362_1_alg».proof.Proof.Gen.KernelIdeal.Frame
import proofs.«108478_j44753559224362_1_alg».proof.Proof.Gen.ReferenceIdeal
import proofs.«108478_j44753559224362_1_alg».proof.Proof.Gen.Pre_finite_inputs
import proofs.«108478_j44753559224362_1_alg».proof.Proof.KernelRun
import proofs.«108478_j44753559224362_1_alg».proof.Proof.KernelValue
import proofs.«108478_j44753559224362_1_alg».proof.Proof.RefValue
import proofs.«108478_j44753559224362_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference's run with the result dropped. -/
theorem frame_ri : Cert.frame_ReferenceIdeal := fun m ρ _ =>
  (θ_run (Cert.ReferenceIdeal.defs (F := Ideal)) _ _).mono (fun _ h c => (h c).2) (Cert.ReferenceIdeal.GinRun.run m ρ)

theorem preserves : Cert.preserves_Kernel_KernelIdeal := trivial

/-- Both programs end with the same class scores: the kernel's result is the composed value of its launch
    arguments, the reference's is its network of ITS launch arguments, which agree with the kernel's. -/
theorem algebraic : Cert.algebraic_KernelIdeal_ReferenceIdeal := by
  intro m ρ m' ρ' _ hagree
  refine ⟨fun c => Cert.KernelIdeal.GinNet.outV m c, ?_, ?_⟩
  · exact (θ_run (Cert.KernelIdeal.defs (F := Ideal)) _ _).mono
      (fun r h c => ⟨(h c).1.trans (Cert.KernelIdeal.GinNet.l8_v68 m ρ c), (h c).2⟩)
      (Cert.KernelIdeal.GinRun.run_named (F := Ideal) m ρ)
  · refine (θ_run (Cert.ReferenceIdeal.defs (F := Ideal)) _ _).mono (fun r h c => ⟨(h c).1.trans ?_, (h c).2⟩)
      (Cert.ReferenceIdeal.GinRun.run m' ρ')
    obtain ⟨e0, e1, e2, e3, e4, e5, e6, e7, e8⟩ := hagree c
    rw [e0, e1, e3, e4, e5, e6, e7, e8]
    exact Cert.Proof.GinBridge.net_eq m c

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
